-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S4096x1024 : Shape := ⟨2, ![4096, 1024]⟩
abbrev S1x1024 : Shape := ⟨2, ![1, 1024]⟩
abbrev S8x1x1024 : Shape := ⟨3, ![8, 1, 1024]⟩
abbrev S7 : Shape := ⟨1, ![7]⟩
abbrev S_ : Shape := ⟨0, ![]⟩
abbrev S1024 : Shape := ⟨1, ![1024]⟩
abbrev S1x1x1024 : Shape := ⟨3, ![1, 1, 1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S4096x1024, .f32⟩
  | .local _ .vmem, ⟨1, _⟩ => ⟨S1x1024, .f32⟩
  | .local _ .vmem, ⟨2, _⟩ => ⟨S8x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  { ofTc nBuf bufTy 1 16 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v102 : BitVec 32 := Scalar.addi v2 c1_i32_68
  let c8_i32_69 : BitVec 32 := 8#32
  let c0_i32_70 : BitVec 32 := 0#32
  let v103 : BitVec 1 := Scalar.cmpi .eq c8_i32_69 c0_i32_70
  let c1_i32_71 : BitVec 32 := 1#32
  let v104 : BitVec 32 := Scalar.select v103 c1_i32_71 c8_i32_69
  let v105 : BitVec 32 := Scalar.remsi v102 v104
  let c0_i32_73 : BitVec 32 := 0#32
  let v107 : BitVec 1 := Scalar.cmpi .slt v105 c0_i32_73
  let c0_i32_74 : BitVec 32 := 0#32
  let v108 : BitVec 1 := Scalar.cmpi .slt v104 c0_i32_74
  let v109 : BitVec 1 := Scalar.xori v107 v108
  let c0_i32_72 : BitVec 32 := 0#32
  let v106 : BitVec 1 := Scalar.cmpi .ne v105 c0_i32_72
  let v110 : BitVec 1 := Scalar.andi v109 v106
  let v111 : BitVec 32 := Scalar.addi v105 v104
  let v112 : BitVec 32 := Scalar.select v110 v111 v105
  let c1_i32_79 : BitVec 32 := 1#32
  let v113 : BitVec 32 := Scalar.muli v112 c1_i32_79
  let v114 : BitVec 32 := Scalar.addi c0_i32_80 v113
  v114.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_85 : BitVec 32 := 2#32
  let v123 : BitVec 32 := Scalar.addi v2 c2_i32_85
  let c8_i32_86 : BitVec 32 := 8#32
  let c0_i32_87 : BitVec 32 := 0#32
  let v124 : BitVec 1 := Scalar.cmpi .eq c8_i32_86 c0_i32_87
  let c1_i32_88 : BitVec 32 := 1#32
  let v125 : BitVec 32 := Scalar.select v124 c1_i32_88 c8_i32_86
  let v126 : BitVec 32 := Scalar.remsi v123 v125
  let c0_i32_90 : BitVec 32 := 0#32
  let v128 : BitVec 1 := Scalar.cmpi .slt v126 c0_i32_90
  let c0_i32_91 : BitVec 32 := 0#32
  let v129 : BitVec 1 := Scalar.cmpi .slt v125 c0_i32_91
  let v130 : BitVec 1 := Scalar.xori v128 v129
  let c0_i32_89 : BitVec 32 := 0#32
  let v127 : BitVec 1 := Scalar.cmpi .ne v126 c0_i32_89
  let v131 : BitVec 1 := Scalar.andi v130 v127
  let v132 : BitVec 32 := Scalar.addi v126 v125
  let v133 : BitVec 32 := Scalar.select v131 v132 v126
  let c1_i32_96 : BitVec 32 := 1#32
  let v134 : BitVec 32 := Scalar.muli v133 c1_i32_96
  let v135 : BitVec 32 := Scalar.addi c0_i32_97 v134
  v135.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v144 : BitVec 32 := Scalar.addi v2 c3_i32_102
  let c8_i32_103 : BitVec 32 := 8#32
  let c0_i32_104 : BitVec 32 := 0#32
  let v145 : BitVec 1 := Scalar.cmpi .eq c8_i32_103 c0_i32_104
  let c1_i32_105 : BitVec 32 := 1#32
  let v146 : BitVec 32 := Scalar.select v145 c1_i32_105 c8_i32_103
  let v147 : BitVec 32 := Scalar.remsi v144 v146
  let c0_i32_107 : BitVec 32 := 0#32
  let v149 : BitVec 1 := Scalar.cmpi .slt v147 c0_i32_107
  let c0_i32_108 : BitVec 32 := 0#32
  let v150 : BitVec 1 := Scalar.cmpi .slt v146 c0_i32_108
  let v151 : BitVec 1 := Scalar.xori v149 v150
  let c0_i32_106 : BitVec 32 := 0#32
  let v148 : BitVec 1 := Scalar.cmpi .ne v147 c0_i32_106
  let v152 : BitVec 1 := Scalar.andi v151 v148
  let v153 : BitVec 32 := Scalar.addi v147 v146
  let v154 : BitVec 32 := Scalar.select v152 v153 v147
  let c1_i32_113 : BitVec 32 := 1#32
  let v155 : BitVec 32 := Scalar.muli v154 c1_i32_113
  let v156 : BitVec 32 := Scalar.addi c0_i32_114 v155
  v156.toNat
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v165 : BitVec 32 := Scalar.addi v2 c4_i32_119
  let c8_i32_120 : BitVec 32 := 8#32
  let c0_i32_121 : BitVec 32 := 0#32
  let v166 : BitVec 1 := Scalar.cmpi .eq c8_i32_120 c0_i32_121
  let c1_i32_122 : BitVec 32 := 1#32
  let v167 : BitVec 32 := Scalar.select v166 c1_i32_122 c8_i32_120
  let v168 : BitVec 32 := Scalar.remsi v165 v167
  let c0_i32_124 : BitVec 32 := 0#32
  let v170 : BitVec 1 := Scalar.cmpi .slt v168 c0_i32_124
  let c0_i32_125 : BitVec 32 := 0#32
  let v171 : BitVec 1 := Scalar.cmpi .slt v167 c0_i32_125
  let v172 : BitVec 1 := Scalar.xori v170 v171
  let c0_i32_123 : BitVec 32 := 0#32
  let v169 : BitVec 1 := Scalar.cmpi .ne v168 c0_i32_123
  let v173 : BitVec 1 := Scalar.andi v172 v169
  let v174 : BitVec 32 := Scalar.addi v168 v167
  let v175 : BitVec 32 := Scalar.select v173 v174 v168
  let c1_i32_130 : BitVec 32 := 1#32
  let v176 : BitVec 32 := Scalar.muli v175 c1_i32_130
  let v177 : BitVec 32 := Scalar.addi c0_i32_131 v176
  v177.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_136 : BitVec 32 := 5#32
  let v186 : BitVec 32 := Scalar.addi v2 c5_i32_136
  let c8_i32_137 : BitVec 32 := 8#32
  let c0_i32_138 : BitVec 32 := 0#32
  let v187 : BitVec 1 := Scalar.cmpi .eq c8_i32_137 c0_i32_138
  let c1_i32_139 : BitVec 32 := 1#32
  let v188 : BitVec 32 := Scalar.select v187 c1_i32_139 c8_i32_137
  let v189 : BitVec 32 := Scalar.remsi v186 v188
  let c0_i32_141 : BitVec 32 := 0#32
  let v191 : BitVec 1 := Scalar.cmpi .slt v189 c0_i32_141
  let c0_i32_142 : BitVec 32 := 0#32
  let v192 : BitVec 1 := Scalar.cmpi .slt v188 c0_i32_142
  let v193 : BitVec 1 := Scalar.xori v191 v192
  let c0_i32_140 : BitVec 32 := 0#32
  let v190 : BitVec 1 := Scalar.cmpi .ne v189 c0_i32_140
  let v194 : BitVec 1 := Scalar.andi v193 v190
  let v195 : BitVec 32 := Scalar.addi v189 v188
  let v196 : BitVec 32 := Scalar.select v194 v195 v189
  let c1_i32_147 : BitVec 32 := 1#32
  let v197 : BitVec 32 := Scalar.muli v196 c1_i32_147
  let v198 : BitVec 32 := Scalar.addi c0_i32_148 v197
  v198.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_153 : BitVec 32 := 6#32
  let v207 : BitVec 32 := Scalar.addi v2 c6_i32_153
  let c8_i32_154 : BitVec 32 := 8#32
  let c0_i32_155 : BitVec 32 := 0#32
  let v208 : BitVec 1 := Scalar.cmpi .eq c8_i32_154 c0_i32_155
  let c1_i32_156 : BitVec 32 := 1#32
  let v209 : BitVec 32 := Scalar.select v208 c1_i32_156 c8_i32_154
  let v210 : BitVec 32 := Scalar.remsi v207 v209
  let c0_i32_158 : BitVec 32 := 0#32
  let v212 : BitVec 1 := Scalar.cmpi .slt v210 c0_i32_158
  let c0_i32_159 : BitVec 32 := 0#32
  let v213 : BitVec 1 := Scalar.cmpi .slt v209 c0_i32_159
  let v214 : BitVec 1 := Scalar.xori v212 v213
  let c0_i32_157 : BitVec 32 := 0#32
  let v211 : BitVec 1 := Scalar.cmpi .ne v210 c0_i32_157
  let v215 : BitVec 1 := Scalar.andi v214 v211
  let v216 : BitVec 32 := Scalar.addi v210 v209
  let v217 : BitVec 32 := Scalar.select v215 v216 v210
  let c1_i32_164 : BitVec 32 := 1#32
  let v218 : BitVec 32 := Scalar.muli v217 c1_i32_164
  let v219 : BitVec 32 := Scalar.addi c0_i32_165 v218
  v219.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_170 : BitVec 32 := 7#32
  let v228 : BitVec 32 := Scalar.addi v2 c7_i32_170
  let c8_i32_171 : BitVec 32 := 8#32
  let c0_i32_172 : BitVec 32 := 0#32
  let v229 : BitVec 1 := Scalar.cmpi .eq c8_i32_171 c0_i32_172
  let c1_i32_173 : BitVec 32 := 1#32
  let v230 : BitVec 32 := Scalar.select v229 c1_i32_173 c8_i32_171
  let v231 : BitVec 32 := Scalar.remsi v228 v230
  let c0_i32_175 : BitVec 32 := 0#32
  let v233 : BitVec 1 := Scalar.cmpi .slt v231 c0_i32_175
  let c0_i32_176 : BitVec 32 := 0#32
  let v234 : BitVec 1 := Scalar.cmpi .slt v230 c0_i32_176
  let v235 : BitVec 1 := Scalar.xori v233 v234
  let c0_i32_174 : BitVec 32 := 0#32
  let v232 : BitVec 1 := Scalar.cmpi .ne v231 c0_i32_174
  let v236 : BitVec 1 := Scalar.andi v235 v232
  let v237 : BitVec 32 := Scalar.addi v231 v230
  let v238 : BitVec 32 := Scalar.select v236 v237 v231
  let c1_i32_181 : BitVec 32 := 1#32
  let v239 : BitVec 32 := Scalar.muli v238 c1_i32_181
  let v240 : BitVec 32 := Scalar.addi c0_i32_182 v239
  v240.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_7 : (7#32 : BitVec 32).msb = false
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S1024 : S4096x1024.Reduces [0] S1024
  shapeCasts_S1024_S1x1024 : S1024.ShapeCasts S1x1024
  inb_S8x1x1024_S1x1x1024_0_0_0 : ∀ a, (![0, 0, 0] : Fin 3 → Nat) a + S1x1x1024.size a ≤ S8x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S7_S1_0 : ∀ a, (![0] : Fin 1 → Nat) a + S1.size a ≤ S7.size a
  squeezes_S1_S_ : S1.Squeezes S_
  inb_S8x1x1024_S1x1x1024_1_0_0 : ∀ a, (![1, 0, 0] : Fin 3 → Nat) a + S1x1x1024.size a ≤ S8x1x1024.size a
  squeezes_S1x1x1024_S1x1024 : S1x1x1024.Squeezes S1x1024
  inb_S7_S1_1 : ∀ a, (![1] : Fin 1 → Nat) a + S1.size a ≤ S7.size a
  inb_S8x1x1024_S1x1x1024_2_0_0 : ∀ a, (![2, 0, 0] : Fin 3 → Nat) a + S1x1x1024.size a ≤ S8x1x1024.size a
  inb_S7_S1_2 : ∀ a, (![2] : Fin 1 → Nat) a + S1.size a ≤ S7.size a
  inb_S8x1x1024_S1x1x1024_3_0_0 : ∀ a, (![3, 0, 0] : Fin 3 → Nat) a + S1x1x1024.size a ≤ S8x1x1024.size a
  inb_S7_S1_3 : ∀ a, (![3] : Fin 1 → Nat) a + S1.size a ≤ S7.size a
  inb_S8x1x1024_S1x1x1024_4_0_0 : ∀ a, (![4, 0, 0] : Fin 3 → Nat) a + S1x1x1024.size a ≤ S8x1x1024.size a
  inb_S7_S1_4 : ∀ a, (![4] : Fin 1 → Nat) a + S1.size a ≤ S7.size a
  inb_S8x1x1024_S1x1x1024_5_0_0 : ∀ a, (![5, 0, 0] : Fin 3 → Nat) a + S1x1x1024.size a ≤ S8x1x1024.size a
  inb_S7_S1_5 : ∀ a, (![5] : Fin 1 → Nat) a + S1.size a ≤ S7.size a
  inb_S8x1x1024_S1x1x1024_6_0_0 : ∀ a, (![6, 0, 0] : Fin 3 → Nat) a + S1x1x1024.size a ≤ S8x1x1024.size a
  inb_S7_S1_6 : ∀ a, (![6] : Fin 1 → Nat) a + S1.size a ≤ S7.size a
  inb_S8x1x1024_S1x1x1024_7_0_0 : ∀ a, (![7, 0, 0] : Fin 3 → Nat) a + S1x1x1024.size a ≤ S8x1x1024.size a
  inb_S1x1024_S1x1024_0_0 : ∀ a, (![0, 0] : Fin 2 → Nat) a + S1x1024.size a ≤ S1x1024.size a
  h_S1x1024 : 0 < S1x1024.numel
  hcc0_scratch1 : 2 + S7.numel ≤ 16
  hcc0_scratch2 : 9 + S7.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch1 : DmaSems sig S7 := SemArray.consecutive 2 S7 hcc0_scratch1
abbrev cc0_scratch2 : DmaSems sig S7 := SemArray.consecutive 9 S7 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S32768x1024_S1024_d0 : S32768x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.K.Sched.lean ====
import proofs.«900374_g7700000000000375_dist_max_ax0_shard0_i_m4096_n1024_v7x_i8_bf16_1_alg».proof.Proof.Gen.Kernel
import proofs.«900374_g7700000000000375_dist_max_ax0_shard0_i_m4096_n1024_v7x_i8_bf16_1_alg».proof.Proof.Gen.Kernel.Skeleton
import proofs.«900374_g7700000000000375_dist_max_ax0_shard0_i_m4096_n1024_v7x_i8_bf16_1_alg».proof.Proof.Gen.Kernel.Launch
import proofs.«900374_g7700000000000375_dist_max_ax0_shard0_i_m4096_n1024_v7x_i8_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds of this protocol (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The peers: copy `j` of device `c` goes to `c + (j + 1)` modulo 8, and comes from `c - (j + 1)` -/

def padd (c : Dev nD) (j : Fin 7) : Dev nD := ⟨(c.val + (j.val + 1)) % 8, Nat.mod_lt _ (by decide)⟩
def psub (c : Dev nD) (j : Fin 7) : Dev nD := ⟨(c.val + (7 - j.val)) % 8, Nat.mod_lt _ (by decide)⟩

theorem psub_padd (c : Dev nD) (j : Fin 7) : psub (padd c j) j = c := by revert c j; decide
theorem padd_psub (c : Dev nD) (j : Fin 7) : padd (psub c j) j = c := by revert c j; decide
theorem padd_padd_rev (c : Dev nD) (j : Fin 7) : padd (padd c j) j.rev = c := by revert c j; decide
theorem padd_rev (c : Dev nD) (j : Fin 7) : padd c j.rev = psub c j := by revert c j; decide
theorem padd_ne (c : Dev nD) (j : Fin 7) : padd c j ≠ c := by revert c j; decide
theorem padd_inj (c : Dev nD) {j j' : Fin 7} (h : padd c j = padd c j') : j = j' := by revert c j j'; decide
theorem padd_left_inj (j : Fin 7) {c c' : Dev nD} (h : padd c j = padd c' j) : c = c' := by revert c c' j; decide

def shift (j : Fin 7) : Dev nD ≃ Dev nD := ⟨fun c => padd c j, fun c => psub c j, fun c => psub_padd c j, fun c => padd_psub c j⟩

/-- The kernel's `device_id` chains: signal `j` and copy `j` both name `padd c j`. -/
theorem dev1_eq (c : Dev nD) : (⟨k0_dev1 c, k0_dev1_lt c⟩ : Dev nD) = padd c 0 := by revert c; decide +kernel
theorem dev2_eq (c : Dev nD) : (⟨k0_dev2 c, k0_dev2_lt c⟩ : Dev nD) = padd c 1 := by revert c; decide +kernel
theorem dev3_eq (c : Dev nD) : (⟨k0_dev3 c, k0_dev3_lt c⟩ : Dev nD) = padd c 2 := by revert c; decide +kernel
theorem dev4_eq (c : Dev nD) : (⟨k0_dev4 c, k0_dev4_lt c⟩ : Dev nD) = padd c 3 := by revert c; decide +kernel
theorem dev5_eq (c : Dev nD) : (⟨k0_dev5 c, k0_dev5_lt c⟩ : Dev nD) = padd c 4 := by revert c; decide +kernel
theorem dev6_eq (c : Dev nD) : (⟨k0_dev6 c, k0_dev6_lt c⟩ : Dev nD) = padd c 5 := by revert c; decide +kernel
theorem dev7_eq (c : Dev nD) : (⟨k0_dev7 c, k0_dev7_lt c⟩ : Dev nD) = padd c 6 := by revert c; decide +kernel
theorem dev8_eq (c : Dev nD) : (⟨k0_dev8 c, k0_dev8_lt c⟩ : Dev nD) = padd c 0 := by revert c; decide +kernel
theorem dev9_eq (c : Dev nD) : (⟨k0_dev9 c, k0_dev9_lt c⟩ : Dev nD) = padd c 1 := by revert c; decide +kernel
theorem dev10_eq (c : Dev nD) : (⟨k0_dev10 c, k0_dev10_lt c⟩ : Dev nD) = padd c 2 := by revert c; decide +kernel
theorem dev11_eq (c : Dev nD) : (⟨k0_dev11 c, k0_dev11_lt c⟩ : Dev nD) = padd c 3 := by revert c; decide +kernel
theorem dev12_eq (c : Dev nD) : (⟨k0_dev12 c, k0_dev12_lt c⟩ : Dev nD) = padd c 4 := by revert c; decide +kernel
theorem dev13_eq (c : Dev nD) : (⟨k0_dev13 c, k0_dev13_lt c⟩ : Dev nD) = padd c 5 := by revert c; decide +kernel
theorem dev14_eq (c : Dev nD) : (⟨k0_dev14 c, k0_dev14_lt c⟩ : Dev nD) = padd c 6 := by revert c; decide +kernel

/-! ## The memrefs: the two staging buffers, and the eight rows of the exchange buffer -/

abbrev xM : Memref sig .tc .vmem S4096x1024 .f32 := Memref.whole cc0_stg0_0
abbrev oM : Memref sig .tc .vmem S1x1024 .f32 := Memref.whole cc0_stg1_0
abbrev scrM : Memref sig .tc .vmem S8x1x1024 .f32 := Memref.whole cc0_scratch0

theorem slot_inb (k : Fin 8) : ∀ a, (![k.val, 0, 0] : Fin 3 → Nat) a + S1x1x1024.size a ≤ S8x1x1024.size a := by
  revert k; decide

/-- Row `k` of the exchange buffer, as a rectangle of it, -/
abbrev slotRect (k : Fin 8) : Rect S8x1x1024 := Rect.unit (s := S8x1x1024) ![k.val, 0, 0] S1x1x1024.size (slot_inb k)

/-- and as the `1 × 1024` memref the copies name. -/
abbrev slotM (k : Fin 8) : Memref sig .tc .vmem S1x1024 .f32 :=
  ((scrM).slice (slotRect k) (fun _ => rfl)).squeeze S1x1024 squeezes_S1x1x1024_S1x1024

theorem slot_set (k : Fin 8) : (slotM k : Memref sig .tc .vmem S1x1024 .f32).view.set = (slotRect k).set := by
  simp only [Memref.view_squeeze, Memref.view_slice, View.set_reshape, Memref.view_whole, View.set_slice_whole]

theorem slot_disjoint {k k' : Fin 8} (h : k ≠ k') : Disjoint (slotRect k).set (slotRect k').set :=
  Rect.unit_disjoint (0 : Fin 3) (by
    have h' : k.val ≠ k'.val := fun e => h (Fin.ext e)
    show k.val + 1 ≤ k'.val ∨ k'.val + 1 ≤ k.val
    omega)

/-- The runtime's barrier semaphore, and the seven send and seven receive DMA semaphores. -/
abbrev barS : Sem sig := (SemArray.scalar (sig.barrier 0 rfl) : Sems sig S_).sem
def sendS (j : Fin 7) : DmaSem sig := ⟨2 + j.val, by have := j.isLt; show 2 + j.val < 16; omega⟩
def recvS (j : Fin 7) : DmaSem sig := ⟨9 + j.val, by have := j.isLt; show 9 + j.val < 16; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- Which transfer cell a semaphore is: `(false, j)` the send cell of copy `j`, `(true, j)` its receive cell. -/
def semKind : SemLoc sig → Option (Bool × Fin 7)
  | .dma q => if h : 2 ≤ q.val ∧ q.val < 9 then some (false, ⟨q.val - 2, by omega⟩)
              else if h' : 9 ≤ q.val ∧ q.val < 16 then some (true, ⟨q.val - 9, by omega⟩) else none
  | _ => none

theorem semKind_send (j : Fin 7) : semKind (.dma (sendS j)) = some (false, j) := by revert j; decide
theorem semKind_recv (j : Fin 7) : semKind (.dma (recvS j)) = some (true, j) := by revert j; decide
theorem semKind_bar : semKind (.reg barS) = none := rfl

abbrev N : ℕ := (slotM 1 : Memref sig .tc .vmem S1x1024 .f32).view.dmaCredit
theorem N_pos : 0 < N := View.dmaCredit_pos _ (by decide)

/-! ## Contents -/

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))

abbrev scrLoc (c : Dev nD) : Loc nD τ sig := (c : Thread nD τ).loc cc0_scratch0

/-- The exchange buffer of `c` with its column maxima stored in row 0 (over the contents at launch). -/
def src0 (c : Dev nD) : Buf (Elt F) (scrLoc c) :=
  ((scrM : Memref sig .tc .vmem S8x1x1024 .f32).access (slotRect 0) : View sig .tc _ _ _).write (Elt F) (m (scrLoc c)) (k0_pay2 (xstg m c)) Finset.univ

/-- The exchange buffer of `c` with row `j + 1` holding what copy `j` of device `c - (j + 1)` carries. -/
def land (c : Dev nD) (j : Fin 7) : Buf (Elt F) (scrLoc c) :=
  (slotM j.succ : Memref sig .tc .vmem S1x1024 .f32).view.write (Elt F) (m (scrLoc c))
    ((slotM 0 : Memref sig .tc .vmem S1x1024 .f32).view.read (Elt F) (src0 m (psub c j))) Finset.univ

def slotPts (c : Dev nD) (k : Fin 8) (q : PosShare TreeShare) (f : Buf (Elt F) (scrLoc c)) : sProp 𝕄 :=
  (slotM k : Memref sig .tc .vmem S1x1024 .f32).view.loc (c : Thread nD τ) ↦[(slotM k : Memref sig .tc .vmem S1x1024 .f32).view.set]{q} f

instance slotPts_storable (c : Dev nD) (k : Fin 8) (q) (f) : BI.Storable (upEmb : UEmb _ 𝕄) (slotPts (F := F) c k q f) := by
  unfold slotPts; infer_instance

/-! ## The schedule -/

/-- Duty `j` of `c`'s barrier cell is paid by the destination of `c`'s copy `j`: it hands `c` its row `j + 1` and that
    its receive cell `j` is open. -/
def barPay (c : Dev nD) (j : Fin 7) : sProp 𝕄 :=
  iprop((∃ f, slotPts (padd c j) j.succ fullShare f) ∗ reached ER (recvCell (padd c j) j) 0)
def recvPay (c : Dev nD) (j : Fin 7) : sProp 𝕄 := slotPts c j.succ fullShare (land m c j)
def sendPay (c : Dev nD) (j : Fin 7) : sProp 𝕄 := slotPts c 0 (Transfers.shareTok fullShare 7 j) (src0 m c)

def payOf (c : Dev nD) (sm : SemLoc sig) (d : Fin 7) : sProp 𝕄 :=
  if sm = .reg barS then barPay c d else
    match semKind sm with
    | some (false, j) => sendPay m c j
    | some (true, j) => recvPay m c j
    | none => iprop(emp)

/-- One round. A barrier cell has seven duties of one unit; a send or a receive cell one duty of the row's credit. -/
def Rd : Rounds.Schedule (GSem nD τ sig) (Fin 7) 𝕄 where
  duties g r := if r = 0 ∧ g.1.2 = .tc then (if g.2 = .reg barS then Finset.univ else if (semKind g.2).isSome then {0} else ∅) else ∅
  unitless _ := False
  amount g _ _ := if g.2 = .reg barS then 1 else N
  payload g _ d := payOf m g.1.1 g.2 d
  amount_pos g _ _ _ := by
    by_cases h : g.2 = .reg barS
    · rw [if_pos h]; exact Nat.one_pos
    · rw [if_neg h]; exact N_pos

instance Rd_payload_storable (g : GSem nD τ sig) (r : ℕ) (d : Fin 7) :
    BI.Storable (upEmb : UEmb _ 𝕄) ((Rd (F := F) m).payload g r d) := by
  show BI.Storable upEmb (payOf m g.1.1 g.2 d)
  unfold payOf barPay recvPay sendPay
  (repeat' split) <;> infer_instance

section Sched
variable (c : Dev nD) (j : Fin 7)

theorem send_ne_bar : (SemLoc.dma (sendS j) : SemLoc sig) ≠ .reg barS := fun h => by cases h
theorem recv_ne_bar : (SemLoc.dma (recvS j) : SemLoc sig) ≠ .reg barS := fun h => by cases h

theorem duties_bar : (Rd (F := F) m).duties (barCell c) 0 = Finset.univ := by
  dsimp only [Rd]; rw [if_pos ⟨rfl, rfl⟩, if_pos rfl]
theorem duties_send : (Rd (F := F) m).duties (sendCell c j) 0 = {0} := by
  dsimp only [Rd]; rw [if_pos ⟨rfl, rfl⟩, if_neg (send_ne_bar j), semKind_send]; rfl
theorem duties_recv : (Rd (F := F) m).duties (recvCell c j) 0 = {0} := by
  dsimp only [Rd]; rw [if_pos ⟨rfl, rfl⟩, if_neg (recv_ne_bar j), semKind_recv]; rfl
theorem duties_later (g : GSem nD τ sig) : ∀ r, 1 ≤ r → (Rd (F := F) m).duties g r = ∅ :=
  fun r hr => by dsimp only [Rd]; rw [if_neg fun h => by omega]

theorem amount_bar (d : Fin 7) : (Rd (F := F) m).amount (barCell c) 0 d = 1 := by dsimp only [Rd]; exact if_pos rfl
theorem amount_send (d : Fin 7) : (Rd (F := F) m).amount (sendCell c j) 0 d = N := by dsimp only [Rd]; exact if_neg (send_ne_bar j)
theorem amount_recv (d : Fin 7) : (Rd (F := F) m).amount (recvCell c j) 0 d = N := by dsimp only [Rd]; exact if_neg (recv_ne_bar j)

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

theorem payload_bar (d : Fin 7) : (Rd (F := F) m).payload (barCell c) 0 d = barPay c d := by
  show payOf m c (.reg barS) d = _; unfold payOf; rw [if_pos rfl]
theorem payload_send (d : Fin 7) : (Rd (F := F) m).payload (sendCell c j) 0 d = sendPay m c j := by
  show payOf m c (.dma (sendS j)) d = _; unfold payOf; rw [if_neg (send_ne_bar j), semKind_send]
theorem payload_recv (d : Fin 7) : (Rd (F := F) m).payload (recvCell c j) 0 d = recvPay m c j := by
  show payOf m c (.dma (recvS j)) d = _; unfold payOf; rw [if_neg (recv_ne_bar j), semKind_recv]

theorem rest_send : bigSep ((Rd (F := F) m).duties (sendCell c j) 0 \ ∅) (fun d => (Rd (F := F) m).payload (sendCell c j) 0 d) = sendPay m c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]
theorem rest_bar : bigSep ((Rd (F := F) m).duties (barCell c) 0 \ ∅) (fun d => (Rd (F := F) m).payload (barCell c) 0 d) = bigSep Finset.univ (fun d : Fin 7 => barPay (F := F) c d) := by
  rw [Finset.sdiff_empty, duties_bar]; exact bigSep_congr fun d _ => payload_bar m c d

end Sched

end Cert.Kernel.Coll

end
-- ==== Proof.K.Data.lean ====
import proofs.«900374_g7700000000000375_dist_max_ax0_shard0_i_m4096_n1024_v7x_i8_bf16_1_alg».proof.Proof.Gen.Kernel
import proofs.«900374_g7700000000000375_dist_max_ax0_shard0_i_m4096_n1024_v7x_i8_bf16_1_alg».proof.Proof.Gen.Kernel.Skeleton
import proofs.«900374_g7700000000000375_dist_max_ax0_shard0_i_m4096_n1024_v7x_i8_bf16_1_alg».proof.Proof.Gen.Kernel.Launch
import proofs.«900374_g7700000000000375_dist_max_ax0_shard0_i_m4096_n1024_v7x_i8_bf16_1_alg».proof.Proof.Gen.Kernel.Points
import proofs.«900374_g7700000000000375_dist_max_ax0_shard0_i_m4096_n1024_v7x_i8_bf16_1_alg».proof.Proof.K.Sched
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- For each of its seven copies a device owes the destination's receive cell the row's credit, and the destination's
    barrier cell one unit. -/
def owe (j : Fin 7) (c : Dev nD) : CellTallies nD τ sig Unit :=
  tallyAt (recvCell (padd c j) j) () N + tallyAt (barCell (padd c j)) () 1
def O₀ (c : Dev nD) : CellTallies nD τ sig Unit := ∑ j : Fin 7, owe j c

/-- What is still owed after the seven signals: the seven receive credits. -/
def OR (c : Dev nD) : CellTallies nD τ sig Unit := ∑ j : Fin 7, tallyAt (recvCell (padd c j) j) () N

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match semKind g.2 with
    | some (true, _) => 2
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (j : Fin 7) (u : Unit) : lv (recvCell c j) u = 2 := by
  unfold lv; rw [if_neg (recv_ne_bar j), semKind_recv]
theorem lv_send (c : Dev nD) (j : Fin 7) (u : Unit) : lv (sendCell c j) u = 0 := by
  unfold lv; rw [if_neg (send_ne_bar j), semKind_send]

theorem OR_pos {c : Dev nD} {g : GSem nD τ sig} {u : Unit} (h : 0 < OR c g u) : ∃ j, g = recvCell (padd c j) j := by
  obtain ⟨j, -, hj⟩ := Pipeline.sum_pos_exists h
  exact ⟨j, (Pipeline.tallyAt_pos hj).1⟩

theorem O₀_pos {c : Dev nD} {g : GSem nD τ sig} {u : Unit} (h : 0 < O₀ c g u) :
    ∃ j, g = recvCell (padd c j) j ∨ g = barCell (padd c j) := by
  obtain ⟨j, -, hj⟩ := Pipeline.sum_pos_exists h
  rcases Pipeline.add_pos_cases hj with h1 | h1
  · exact ⟨j, .inl (Pipeline.tallyAt_pos h1).1⟩
  · exact ⟨j, .inr (Pipeline.tallyAt_pos h1).1⟩

/-- A staging cell's wait (level 0) is below everything a device may owe. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    obtain ⟨j, rfl | rfl⟩ := O₀_pos hg
    · exact ⟨by rw [L_tc]; exact Finset.mem_singleton_self _, by rw [hq, lv_recv]; decide⟩
    · exact ⟨by rw [L_tc]; exact Finset.mem_singleton_self _, by rw [hq, lv_bar]; decide⟩
  · rw [MayWait_zero]; iintro -; iempintro

/-- At its barrier wait a device owes receive credits only: receive cells are above the barrier cells. -/
theorem mayWait_bar (c : Dev nD) :
    (levAts L lv : sProp 𝕄) ⊢ MayWait (c : Thread nD τ) (.reg barS) () (OR c) :=
  Pipeline.mayWait_of_levAts (by rw [L_tc]; exact Finset.mem_singleton_self _) fun g i hg => by
    obtain ⟨j, rfl⟩ := OR_pos hg
    exact ⟨by rw [L_tc]; exact Finset.mem_singleton_self _, by rw [lv_bar, lv_recv]; decide⟩

/-! ## The cells of one device, indexed; the kernel's own semaphores -/

abbrev CellIx : Type := Unit ⊕ (Fin 7 ⊕ Fin 7)
abbrev csem : CellIx → SemLoc sig
  | .inl _ => .reg barS
  | .inr (.inl j) => .dma (sendS j)
  | .inr (.inr j) => .dma (recvS j)
abbrev osem : Fin 7 ⊕ Fin 7 → SemLoc sig := fun k => csem (.inr k)
abbrev kcell (ck : Dev nD × CellIx) : GSem nD τ sig := ((ck.1 : Thread nD τ), csem ck.2)

theorem csem_injective : Function.Injective csem := by
  intro a b h
  rcases a with ⟨⟩ | a | a <;> rcases b with ⟨⟩ | b | b
  · rfl
  · exact absurd h.symm (send_ne_bar b)
  · exact absurd h.symm (recv_ne_bar b)
  · exact absurd h (send_ne_bar a)
  · have := congrArg semKind h; rw [semKind_send, semKind_send] at this; cases this; rfl
  · have := congrArg semKind h; rw [semKind_send, semKind_recv] at this; cases this
  · exact absurd h (recv_ne_bar a)
  · have := congrArg semKind h; rw [semKind_recv, semKind_send] at this; cases this
  · have := congrArg semKind h; rw [semKind_recv, semKind_recv] at this; cases this; rfl

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## Values -/

abbrev r0x : Rect S4096x1024 := Rect.unit (s := S4096x1024) ![0, 0] S4096x1024.size inb_S4096x1024_S4096x1024_0_0
abbrev r0o : Rect S1x1024 := Rect.unit (s := S1x1024) ![0, 0] S1x1024.size inb_S1x1024_S1x1024_0_0

/-- What device `c` loads from row `j + 1` of its exchange buffer once copy `j` of device `c - (j + 1)` has landed. -/
def ld (c : Dev nD) (j : Fin 7) : Vec F S1x1x1024 .f32 :=
  (scrM : Memref sig .tc .vmem S8x1x1024 .f32).view.readAt (Elt F) (slotRect j.succ).toLoadRect (land m c j)

/-- The kernel's result on device `c`: its own column maxima joined with the seven rows received. -/
def outAt (c : Dev nD) : (cc0_stg1_0 : Ref sig .tc).ty.Contents (Elt F) :=
  k0_pay5 (k0_pay4 (k0_pay3 (k0_pay1 (xstg m c)) (ld m c 0) (ld m c 1) (ld m c 2)) (ld m c 3) (ld m c 4)) (ld m c 5) (ld m c 6)

/-! ## The ghost state -/

/-- The cells' invariants under the names the launch allocated them at, and that every cell is at round 0: persistent,
    every device holds the whole family. -/
def records (K : Dev nD × CellIx → ℕ) : sProp 𝕄 :=
  iprop((bigSep Finset.univ fun ck : Dev nD × CellIx => cellInv ER (Rd m) (K ck) (kcell ck))
    ∗ bigSep Finset.univ fun ck : Dev nD × CellIx => reached ER (kcell ck) 0)

instance records_persistent (K : Dev nD × CellIx → ℕ) : BI.Persistent (records m K) := by unfold records; infer_instance

theorem inv_at (K : Dev nD × CellIx → ℕ) (ck : Dev nD × CellIx) :
    records m K ⊢ cellInv ER (Rd m) (K ck) (kcell ck) := by
  unfold records; exact (BI.sep_and.trans BI.and_elimL).trans (bigSep_elim (Finset.mem_univ ck))
theorem reached_at (K : Dev nD × CellIx → ℕ) (ck : Dev nD × CellIx) :
    records m K ⊢ reached ER (kcell ck) 0 := by
  unfold records; exact (BI.sep_and.trans BI.and_elimR).trans (bigSep_elim (Finset.mem_univ ck))

/-- The tokens of the duties device `c` pays: per copy `j`, the destination's barrier duty it is the payer of, the
    destination's receive duty, its own send duty. -/
def payTok (c : Dev nD) (j : Fin 7) : sProp 𝕄 :=
  iprop(dutyTok ER (barCell (padd c j)) 0 j.rev ∗ dutyTok ER (recvCell (padd c j) j) 0 0 ∗ dutyTok ER (sendCell c j) 0 0)
/-- Its positions at round 0 of its fifteen cells. -/
def posAt (c : Dev nD) : sProp 𝕄 :=
  iprop(atPos ER (barCell c) 0 ∅ 0 ∗ bigSep Finset.univ fun j : Fin 7 => iprop(atPos ER (sendCell c j) 0 ∅ 0 ∗ atPos ER (recvCell c j) 0 ∅ 0))
def linear (c : Dev nD) : sProp 𝕄 := iprop(posAt c ∗ bigSep Finset.univ fun j : Fin 7 => payTok c j)

def ghost (K : Dev nD × CellIx → ℕ) (c : Dev nD) : sProp 𝕄 := iprop(records m K ∗ linear c)

/-- What device `c`'s body starts from: that at some names, its credit tokens (one unit of its barrier cell per peer, each
    receive cell's credit) and the level facts. -/
def start (c : Dev nD) : sProp 𝕄 :=
  iprop((∃ K, ghost m K c) ∗ (bigSep Finset.univ fun j : Fin 7 => iprop(cred (tallyAt (recvCell c j) () N) ∗ cred (tallyAt (barCell c) () 1)))
    ∗ levAts L lv)

def Φ₀ (c : Dev nD) : sProp 𝕄 := iprop(start m c ∗ ∃ f : Buf (Elt F) (scrLoc c), (scrLoc c) ↦{fullShare} f)
/-- After the point: the exchange buffer whole again, the fourteen own cells at zero, closed. -/
def Φ₁ (c : Dev nD) : sProp 𝕄 :=
  iprop((∃ f : Buf (Elt F) (scrLoc c), (scrLoc c) ↦{fullShare} f) ∗ bigSep Finset.univ fun k : Fin 7 ⊕ Fin 7 => semVal ((c : Thread nD τ), osem k) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_fin7 {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.Kernel.Coll

end
-- ==== Proof.K.Slots.lean ====
import proofs.«900374_g7700000000000375_dist_max_ax0_shard0_i_m4096_n1024_v7x_i8_bf16_1_alg».proof.Proof.Gen.Kernel
import proofs.«900374_g7700000000000375_dist_max_ax0_shard0_i_m4096_n1024_v7x_i8_bf16_1_alg».proof.Proof.Gen.Kernel.Skeleton
import proofs.«900374_g7700000000000375_dist_max_ax0_shard0_i_m4096_n1024_v7x_i8_bf16_1_alg».proof.Proof.Gen.Kernel.Launch
import proofs.«900374_g7700000000000375_dist_max_ax0_shard0_i_m4096_n1024_v7x_i8_bf16_1_alg».proof.Proof.Gen.Kernel.Points
import proofs.«900374_g7700000000000375_dist_max_ax0_shard0_i_m4096_n1024_v7x_i8_bf16_1_alg».proof.Proof.K.Sched
import proofs.«900374_g7700000000000375_dist_max_ax0_shard0_i_m4096_n1024_v7x_i8_bf16_1_alg».proof.Proof.K.Data
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange buffer is its eight rows -/

theorem slotPts_eq (c : Dev nD) (k : Fin 8) (q : PosShare TreeShare) (f : Buf (Elt F) (scrLoc c)) :
    slotPts c k q f = ((scrLoc c) ↦[(slotRect k).set]{q} f : sProp 𝕄) := by
  unfold slotPts; rw [slot_set]

/-- Every index of the buffer lies in the row its first coordinate names. -/
theorem slots_cover : (Finset.univ : Finset (Fin 8)).biUnion (fun k => (slotRect k).set) = Finset.univ := by
  ext i
  simp only [Finset.mem_biUnion, Finset.mem_univ, true_and, iff_true]
  refine ⟨i 0, ?_⟩
  rw [Rect.mem_set_unit]
  intro a
  have h1 : (i 1).val < 1 := (i 1).isLt
  have h2 : (i 2).val < 1024 := (i 2).isLt
  match a with
  | ⟨0, _⟩ => exact ⟨le_refl _, Nat.lt_succ_self _⟩
  | ⟨1, _⟩ => exact ⟨Nat.zero_le _, by show (i 1).val < 0 + 1; omega⟩
  | ⟨2, _⟩ => exact ⟨Nat.zero_le _, by show (i 2).val < 0 + 1024; omega⟩

set_option maxHeartbeats 2000000 in
theorem scr_split (c : Dev nD) (f : Buf (Elt F) (scrLoc c)) :
    ((scrLoc c) ↦{fullShare} f : sProp 𝕄) ⊢ bigSep Finset.univ fun k : Fin 8 => slotPts c k fullShare f := by
  have h : ((scrLoc c) ↦[(Finset.univ : Finset (Fin 8)).biUnion (fun k => (slotRect k).set)]{fullShare} f : sProp 𝕄)
      = bigSep Finset.univ fun k : Fin 8 => ((scrLoc c) ↦[(slotRect k).set]{fullShare} f : sProp 𝕄) :=
    pointsTo_biUnion (ℓ := scrLoc c) (q := fullShare) (f := f) (Finset.univ : Finset (Fin 8)) (fun k => (slotRect k).set) (fun k _ k' _ hne => slot_disjoint hne)
  rw [slots_cover] at h
  simp only [slotPts_eq]
  exact Entails.of_eq h

set_option maxHeartbeats 2000000 in
theorem scr_join (c : Dev nD) (fs : Fin 8 → Buf (Elt F) (scrLoc c)) :
    (bigSep Finset.univ fun k : Fin 8 => slotPts c k fullShare (fs k)) ⊢ (iprop(∃ g : Buf (Elt F) (scrLoc c), (scrLoc c) ↦{fullShare} g) : sProp 𝕄) := by
  simp only [slotPts_eq]
  refine (pointsTo_biUnion_join (ℓ := scrLoc c) (q := fullShare) (Finset.univ : Finset (Fin 8)) (fun k => (slotRect k).set) fs (fs 0)
    (fun k _ k' _ hne => slot_disjoint hne)).trans ?_
  rw [slots_cover]
  iintro ⟨%g, -, H⟩
  iexists g; iexact H

theorem bigSep_fin8 {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Seven units of credit on one cell are one credit of seven. -/
theorem cred_seven (g : GSem nD τ sig) :
    (bigSep Finset.univ fun _ : Fin 7 => (cred (tallyAt g () 1) : sProp 𝕄)) ⊢ cred (tallyAt g () 7) := by
  rw [bigSep_fin7]
  iintro ⟨H0, H1, H2, H3, H4, H5, H6⟩
  have e : (tallyAt g () 7 : CellTallies nD τ sig Unit) = tallyAt g () 1 + (tallyAt g () 1 + (tallyAt g () 1 + (tallyAt g () 1 + (tallyAt g () 1 + (tallyAt g () 1 + tallyAt g () 1))))) := by
    simp only [tallyAt_add]
  rw [e]
  iapply (cred_add _ _).2; isplitl [H0]; · iexact H0
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iexact H6

end Cert.Kernel.Coll

end
-- ==== Proof.K.Steps.lean ====
import proofs.«900374_g7700000000000375_dist_max_ax0_shard0_i_m4096_n1024_v7x_i8_bf16_1_alg».proof.Proof.Gen.Kernel
import proofs.«900374_g7700000000000375_dist_max_ax0_shard0_i_m4096_n1024_v7x_i8_bf16_1_alg».proof.Proof.Gen.Kernel.Skeleton
import proofs.«900374_g7700000000000375_dist_max_ax0_shard0_i_m4096_n1024_v7x_i8_bf16_1_alg».proof.Proof.Gen.Kernel.Launch
import proofs.«900374_g7700000000000375_dist_max_ax0_shard0_i_m4096_n1024_v7x_i8_bf16_1_alg».proof.Proof.Gen.Kernel.Points
import proofs.«900374_g7700000000000375_dist_max_ax0_shard0_i_m4096_n1024_v7x_i8_bf16_1_alg».proof.Proof.K.Sched
import proofs.«900374_g7700000000000375_dist_max_ax0_shard0_i_m4096_n1024_v7x_i8_bf16_1_alg».proof.Proof.K.Data
import proofs.«900374_g7700000000000375_dist_max_ax0_shard0_i_m4096_n1024_v7x_i8_bf16_1_alg».proof.Proof.K.Slots
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inv_bar (K : Dev nD × CellIx → ℕ) (d : Dev nD) : records m K ⊢ cellInv ER (Rd m) (K (d, .inl ())) (barCell d) := inv_at m K (d, .inl ())
theorem inv_send (K : Dev nD × CellIx → ℕ) (d : Dev nD) (j : Fin 7) : records m K ⊢ cellInv ER (Rd m) (K (d, .inr (.inl j))) (sendCell d j) := inv_at m K (d, .inr (.inl j))
theorem inv_recv (K : Dev nD × CellIx → ℕ) (d : Dev nD) (j : Fin 7) : records m K ⊢ cellInv ER (Rd m) (K (d, .inr (.inr j))) (recvCell d j) := inv_at m K (d, .inr (.inr j))
theorem reached_bar (K : Dev nD × CellIx → ℕ) (d : Dev nD) : records m K ⊢ reached ER (barCell d) 0 := reached_at m K (d, .inl ())
theorem reached_send (K : Dev nD × CellIx → ℕ) (d : Dev nD) (j : Fin 7) : records m K ⊢ reached ER (sendCell d j) 0 := reached_at m K (d, .inr (.inl j))
theorem reached_recv (K : Dev nD × CellIx → ℕ) (d : Dev nD) (j : Fin 7) : records m K ⊢ reached ER (recvCell d j) 0 := reached_at m K (d, .inr (.inr j))

/-- Two writes of one payload through a view agree on the view's elements, whatever they overwrite. -/
theorem write_congr_set {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  obtain ⟨y, rfl⟩ := View.exists_emb_of_mem_set v hi
  rw [View.write_emb_of_mem f w (Finset.mem_univ y), View.write_emb_of_mem f' w (Finset.mem_univ y)]

/-- Row 0 of device `d`'s exchange buffer once its column maxima are stored: what each of its copies carries. -/
def row0 (d : Dev nD) : S1x1024.Idx → Elt F .f32 := (slotM 0 : Memref sig .tc .vmem S1x1024 .f32).view.read (Elt F) (src0 m d)

theorem land_eq (c : Dev nD) (j : Fin 7) :
    land m c j = (slotM j.succ : Memref sig .tc .vmem S1x1024 .f32).view.write (Elt F) (m (scrLoc c)) (row0 m (psub c j)) Finset.univ := rfl

section Steps
variable (K : Dev nD × CellIx → ℕ)

/-- What the payer of duty `j.rev` of `padd c j`'s barrier cell hands over is stated of `c` itself. -/
theorem barPay_paid (c : Dev nD) (j : Fin 7) :
    iprop((∃ f, slotPts (F := F) c j.rev.succ fullShare f) ∗ reached ER (recvCell c j.rev) 0) ⊢ barPay (F := F) (padd c j) j.rev := by
  unfold barPay
  rw [padd_padd_rev]

/-- Signal `j`: device `c` tells `padd c j` it has entered, handing it the row that device's copy will land in. -/
theorem wp_sig (c : Dev nD) (j : Fin 7) (dst : Dev nD) (hdst : dst = padd c j) (O : CellTallies nD τ sig Unit) (W : Waits sig Unit)
    (f : Buf (Elt F) (scrLoc c)) {α : Type} {Q : α → sProp 𝕄} {k : PUnit → Prog (TpuEff nD τ sig (Elt F) Λ₀ .tc) α} :
    iprop(records m K ∗ owes (c : Thread nD τ) (O + tallyAt (barCell (padd c j)) () 1) W ∗ dutyTok ER (barCell (padd c j)) 0 j.rev
        ∗ slotPts c j.rev.succ fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dst : Thread nD τ) barS 1) k) Q) := by
  subst hdst
  iintro ⟨#HR, HO, Ht, Hs⟩
  iapply (Rounds.wp_signal 𝒱₀ ER (Rd m) (c : Thread nD τ) none (dst := (padd c j : Thread nD τ)) (κ := K (padd c j, .inl ()))
      (d := j.rev) (by rw [duties_bar]; exact Finset.mem_univ _) (amount_bar m (padd c j) j.rev) () O rfl) $$ [HO Ht Hs]
  · isplitr; · iapply (inv_bar m K (padd c j)); iexact HR
    isplitl [HO]; · iexact HO
    isplitl [Ht]; · iexact Ht
    isplitl [Hs]
    · rw [payload_bar]
      iapply (barPay_paid c j)
      isplitl [Hs]; · iexists f; iexact Hs
      iapply (reached_recv m K c j.rev); iexact HR
    · iapply (reached_bar m K (padd c j)); iexact HR

set_option maxHeartbeats 3200000 in
/-- Copy `j`: row 0 of `c` to row `j + 1` of `padd c j`. -/
theorem wp_snd (c : Dev nD) (j : Fin 7) (n : Dev nD) (hn : n = padd c j)
    {hsc : (slotM j.succ : Memref sig (Dev.tc n : Thread nD τ).2.kind .vmem S1x1024 .f32).view.ref.isScScratch = false}
    {hsrc : (slotM 0 : Memref sig .tc .vmem S1x1024 .f32).view.WordExact} {hdst : (slotM j.succ : Memref sig .tc .vmem S1x1024 .f32).view.WordExact}
    {hsem : DmaTarget.Typed .vmem (.dma (recvS j)) (.remote (Dev.tc n : Thread nD τ) (slotM j.succ : Memref sig .tc .vmem S1x1024 .f32) (.dma (sendS j)) hsc)}
    {α : Type} {Q : α → sProp 𝕄} {k : PUnit → Prog (TpuEff nD τ sig (Elt F) Λ₀ .tc) α}
    (fn : Buf (Elt F) (scrLoc (padd c j))) (O : CellTallies nD τ sig Unit) (W : Waits sig Unit) :
    iprop(records m K ∗ slotPts c 0 (Transfers.shareTok fullShare 7 j) (src0 m c) ∗ slotPts (padd c j) j.succ fullShare fn
        ∗ owes (c : Thread nD τ) (O + tallyAt (recvCell (padd c j) j) () N) W
        ∗ dutyTok ER (sendCell c j) 0 0 ∗ dutyTok ER (recvCell (padd c j) j) 0 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM j.succ) (.dma (sendS j)) hsc) (.dma (recvS j)) hsrc hdst hsem) k) Q) := by
  subst hn
  iintro ⟨#HR, Hsrc, Hdst, HO, HtS, HtV⟩
  unfold slotPts
  iapply (Rounds.wp_send_pointsTo 𝒱₀ ER (Rd m) (c : Thread nD τ) none (κ₁ := K (c, .inr (.inl j))) (κ₂ := K (padd c j, .inr (.inr j)))
    (c' := (Dev.tc (padd c j) : Thread nD τ)) (src := (slotM 0 : Memref sig .tc .vmem S1x1024 .f32)) (dst := (slotM j.succ : Memref sig .tc .vmem S1x1024 .f32))
    (sS := .dma (sendS j)) (sem := .dma (recvS j))
    (r₁ := 0) (r₂ := 0) (d₁ := 0) (d₂ := 0) (fd := fn) (q := Transfers.shareTok fullShare 7 j) (fs := src0 m c)
    (by rw [duties_send]; exact Finset.mem_singleton_self _) (by rw [duties_recv]; exact Finset.mem_singleton_self _)
    () () N rfl (amount_send m c j 0) (amount_recv m (padd c j) j 0) O rfl (W := W)
    (by rw [payload_send]; unfold sendPay slotPts; exact BI.Entails.refl _)
    (by
      rw [payload_recv]; unfold recvPay slotPts
      rw [land_eq, psub_padd]; unfold row0
      exact Entails.of_eq (pointsTo_congr (write_congr_set (slotM j.succ : Memref sig .tc .vmem S1x1024 .f32).view fn (m (scrLoc (padd c j)))
        ((slotM 0 : Memref sig .tc .vmem S1x1024 .f32).view.read (Elt F) (src0 m c)))))) $$ [Hsrc Hdst HO HtS HtV]
  · isplitr; · iapply (inv_send m K c j); iexact HR
    isplitr; · iapply (inv_recv m K (padd c j) j); iexact HR
    isplitl [Hsrc]; · iexact Hsrc
    isplitl [Hdst]; · iexact Hdst
    isplitl [HO]; · iexact HO
    isplitl [HtS]; · iexact HtS
    isplitr; · iapply (reached_send m K c j); iexact HR
    isplitl [HtV]; · iexact HtV
    iapply (reached_recv m K (padd c j) j); iexact HR

/-- The wait for copy `j` of `psub c j`: row `j + 1` comes back holding that device's column maxima. -/
theorem wp_rcvwait (c : Dev nD) (j : Fin 7) (W : Waits sig Unit)
    {sp sp' : Space} {s s' : Shape} {e e' : EltTy} {src : Memref sig .tc sp' s' e'} {dst : Memref sig .tc sp s e}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m K ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) 1 ∅ 0 ∗ slotPts c j.succ fullShare (land m c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src dst hsrc hdst) k) Q) := by
  iintro ⟨#HR, Hc, HO, Hat⟩ Hk
  have e1 : (tallyAt (recvCell c j) () N : CellTallies nD τ sig Unit) = tallyAt (recvCell c j) () dst.view.dmaCredit := by rw [hcr]
  rw [e1]
  iapply (Rounds.wp_wait_rest_token 𝒱₀ ER (Rd m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv, hcr])) $$ [Hc HO Hat] [Hk]
  · isplitr; · iapply (inv_recv m K c j); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  iapply Hk
  isplitl [HO]; · iexact HO
  isplitl [Hat]; · iexact Hat
  unfold recvPay; iexact Hp

/-- The wait for the departure of copy `j`: its share of row 0 comes back. -/
theorem wp_sndwait (c : Dev nD) (j : Fin 7) (W : Waits sig Unit)
    {sp sp' : Space} {s s' : Shape} {e e' : EltTy} {src : Memref sig .tc sp' s' e'} {dst : Memref sig .tc sp s e}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0
              ∗ slotPts c 0 (Transfers.shareTok fullShare 7 j) (src0 m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src dst hsrc hdst) k) Q) := by
  iintro ⟨#HR, Hc, HO, Hat⟩ Hk
  have e1 : (tallyAt (sendCell c j) () N : CellTallies nD τ sig Unit) = tallyAt (sendCell c j) () dst.view.dmaCredit := by rw [hcr]
  rw [e1]
  iapply (Rounds.wp_wait_rest_token 𝒱₀ ER (Rd m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send, hcr])) $$ [Hc HO Hat] [Hk]
  · isplitr; · iapply (inv_send m K c j); iexact HR
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  iapply Hk
  isplitl [HO]; · iexact HO
  isplitl [Hat]; · iexact Hat
  unfold sendPay; iexact Hp

/-- The wait for all seven peers on the barrier cell, still owing the seven receive credits: every peer's row comes with it. -/
theorem wp_barwait (c : Dev nD) (W : Waits sig Unit)
    {α : Type} {Q : α → sProp 𝕄} {k : PUnit → Prog (TpuEff nD τ sig (Elt F) Λ₀ .tc) α} :
    iprop(records m K ∗ cred (tallyAt (barCell c) () 7) ∗ owes (c : Thread nD τ) (OR c) W ∗ levAts L lv ∗ atPos ER (barCell c) 0 ∅ 0)
      ⊢ iprop(((owes (c : Thread nD τ) (OR c) (insert (SemLoc.reg barS, ()) W) ∗ atPos ER (barCell c) 1 ∅ 0
              ∗ bigSep Finset.univ (fun d : Fin 7 => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  iintro ⟨#HR, Hc, HO, #Hlev, Hat⟩ Hk
  iapply (Rounds.wp_wait_rest_token 𝒱₀ ER (Rd m) (c : Thread nD τ) none (κ := K (c, .inl ()))
      (wpE_semWait_eq 𝒱₀ (c : Thread nD τ) none Set.univ) (Set.mem_univ _) () (O := OR c) (W := W) (R := 0) (m := 0) (T := ∅)
      (by rw [expect_bar])) $$ [Hc HO Hat] [Hk]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

end Steps

end Cert.Kernel.Coll

end
-- ==== Proof.K.Body.lean ====
import proofs.«900374_g7700000000000375_dist_max_ax0_shard0_i_m4096_n1024_v7x_i8_bf16_1_alg».proof.Proof.Gen.Kernel
import proofs.«900374_g7700000000000375_dist_max_ax0_shard0_i_m4096_n1024_v7x_i8_bf16_1_alg».proof.Proof.Gen.Kernel.Skeleton
import proofs.«900374_g7700000000000375_dist_max_ax0_shard0_i_m4096_n1024_v7x_i8_bf16_1_alg».proof.Proof.Gen.Kernel.Launch
import proofs.«900374_g7700000000000375_dist_max_ax0_shard0_i_m4096_n1024_v7x_i8_bf16_1_alg».proof.Proof.Gen.Kernel.Points
import proofs.«900374_g7700000000000375_dist_max_ax0_shard0_i_m4096_n1024_v7x_i8_bf16_1_alg».proof.Proof.K.Sched
import proofs.«900374_g7700000000000375_dist_max_ax0_shard0_i_m4096_n1024_v7x_i8_bf16_1_alg».proof.Proof.K.Data
import proofs.«900374_g7700000000000375_dist_max_ax0_shard0_i_m4096_n1024_v7x_i8_bf16_1_alg».proof.Proof.K.Slots
import proofs.«900374_g7700000000000375_dist_max_ax0_shard0_i_m4096_n1024_v7x_i8_bf16_1_alg».proof.Proof.K.Steps
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is owed, as the chains the statements peel in program order -/

theorem O₀_chain (c : Dev nD) : O₀ c = OR c + tallyAt (barCell (padd c 6)) () 1 + tallyAt (barCell (padd c 5)) () 1 + tallyAt (barCell (padd c 4)) () 1 + tallyAt (barCell (padd c 3)) () 1 + tallyAt (barCell (padd c 2)) () 1 + tallyAt (barCell (padd c 1)) () 1 + tallyAt (barCell (padd c 0)) () 1 := by
  unfold O₀ owe OR; rw [Fin.sum_univ_seven, Fin.sum_univ_seven]; ac_rfl
theorem OR_chain (c : Dev nD) : OR c = 0 + tallyAt (recvCell (padd c 6) 6) () N + tallyAt (recvCell (padd c 5) 5) () N + tallyAt (recvCell (padd c 4) 4) () N + tallyAt (recvCell (padd c 3) 3) () N + tallyAt (recvCell (padd c 2) 2) () N + tallyAt (recvCell (padd c 1) 1) () N + tallyAt (recvCell (padd c 0) 0) () N := by
  unfold OR; rw [Fin.sum_univ_seven, zero_add]; ac_rfl

theorem cred_seven' (g : GSem nD τ sig) :
    iprop(cred (tallyAt g () 1) ∗ cred (tallyAt g () 1) ∗ cred (tallyAt g () 1) ∗ cred (tallyAt g () 1) ∗ cred (tallyAt g () 1) ∗ cred (tallyAt g () 1) ∗ cred (tallyAt g () 1))
      ⊢ (cred (tallyAt g () 7) : sProp 𝕄) := by
  refine Entails.trans (Entails.of_eq ?_) (cred_seven g)
  rw [bigSep_fin7]

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem whole_pts_eq (b : Ref sig .tc) (c : Dev nD) (X : Buf (Elt F) ((c : Thread nD τ).loc b)) :
    (((Memref.whole b : Memref sig .tc _ _ _).view.loc (c : Thread nD τ)) ↦[(Memref.whole b : Memref sig .tc _ _ _).view.set]{fullShare} X : sProp 𝕄)
      = (((c : Thread nD τ).loc b) ↦{fullShare} X) := by
  simp only [Memref.view_whole, View.set_whole]

theorem hz2 : (![0, 0] : Fin 2 → Nat) = fun _ => 0 := funext fun a => by fin_cases a <;> rfl
theorem read_x (f : (cc0_stg0_0 : Ref sig .tc).ty.Contents (Elt F)) : (xM : Memref sig .tc .vmem S4096x1024 .f32).view.readAt (Elt F) r0x.toLoadRect f = f :=
  Memref.readAt_unit_zero (Elt F) cc0_stg0_0 hz2 _ f
theorem write_out (f w : (cc0_stg1_0 : Ref sig .tc).ty.Contents (Elt F)) :
    ((oM : Memref sig .tc .vmem S1x1024 .f32).access r0o : View sig .tc _ _ _).write (Elt F) f w Finset.univ = w :=
  Memref.write_access_unit_zero_univ (Elt F) cc0_stg1_0 hz2 _ f w

theorem access_set (k : Fin 8) : ((scrM : Memref sig .tc .vmem S8x1x1024 .f32).access (slotRect k) : View sig .tc _ _ _).set = (slotRect k).set := by
  show ((View.whole cc0_scratch0).slice (slotRect k)).set = _
  rw [View.set_slice_whole]

/-- Row 0 after the store holds the device's column maxima, whatever the buffer held before. -/
theorem slot0_norm (c : Dev nD) (f0 : Buf (Elt F) (scrLoc c)) :
    (((slotM 0 : Memref sig .tc .vmem S1x1024 .f32).view.loc (c : Thread nD τ)) ↦[(slotM 0 : Memref sig .tc .vmem S1x1024 .f32).view.set]{fullShare}
        (View.write (Elt F) ((scrM : Memref sig .tc .vmem S8x1x1024 .f32).access (Rect.unit (s := S8x1x1024) ![0, 0, 0] S1x1x1024.size inb_S8x1x1024_S1x1x1024_0_0_0)) f0
          (k0_pay2 ((xM : Memref sig .tc .vmem S4096x1024 .f32).view.readAt (Elt F) r0x.toLoadRect (xstg m c))) Finset.univ) : sProp 𝕄)
      = (((slotM 0 : Memref sig .tc .vmem S1x1024 .f32).view.loc (c : Thread nD τ)) ↦[(slotM 0 : Memref sig .tc .vmem S1x1024 .f32).view.set]{fullShare} src0 m c) := by
  rw [read_x]
  unfold src0
  refine pointsTo_congr fun i hi => ?_
  refine write_congr_set ((scrM : Memref sig .tc .vmem S8x1x1024 .f32).access (slotRect 0) : View sig .tc _ _ _) f0 (m (scrLoc c)) _ i ?_
  rw [access_set]; rw [slot_set] at hi; exact hi

/-- Row 0 held whole is its seven copy shares and a remainder; -/
theorem slot0_split (c : Dev nD) (f : Buf (Elt F) (scrLoc c)) :
    (((slotM 0 : Memref sig .tc .vmem S1x1024 .f32).view.loc (c : Thread nD τ)) ↦[(slotM 0 : Memref sig .tc .vmem S1x1024 .f32).view.set]{fullShare} f : sProp 𝕄)
      ⊢ iprop(slotPts c 0 (Transfers.shareDrop fullShare 7) f
      ∗ slotPts c 0 (Transfers.shareTok fullShare 7 0) f ∗ slotPts c 0 (Transfers.shareTok fullShare 7 1) f ∗ slotPts c 0 (Transfers.shareTok fullShare 7 2) f ∗ slotPts c 0 (Transfers.shareTok fullShare 7 3) f ∗ slotPts c 0 (Transfers.shareTok fullShare 7 4) f ∗ slotPts c 0 (Transfers.shareTok fullShare 7 5) f ∗ slotPts c 0 (Transfers.shareTok fullShare 7 6) f) := by
  unfold slotPts
  exact (Transfers.pointsTo_toks_split fullShare 7).trans (sep_mono_right (Entails.of_eq (bigSep_fin7 _)))
/-- and back. -/
theorem slot0_join (c : Dev nD) (f : Buf (Elt F) (scrLoc c)) :
    iprop(slotPts (F := F) c 0 (Transfers.shareDrop fullShare 7) f
      ∗ slotPts c 0 (Transfers.shareTok fullShare 7 0) f ∗ slotPts c 0 (Transfers.shareTok fullShare 7 1) f ∗ slotPts c 0 (Transfers.shareTok fullShare 7 2) f ∗ slotPts c 0 (Transfers.shareTok fullShare 7 3) f ∗ slotPts c 0 (Transfers.shareTok fullShare 7 4) f ∗ slotPts c 0 (Transfers.shareTok fullShare 7 5) f ∗ slotPts c 0 (Transfers.shareTok fullShare 7 6) f) ⊢ slotPts c 0 fullShare f := by
  unfold slotPts
  exact (sep_mono_right (Entails.of_eq (bigSep_fin7 _).symm)).trans (Transfers.pointsTo_toks_join fullShare 7)

theorem scr_join' (c : Dev nD) (g0 g1 g2 g3 g4 g5 g6 g7 : Buf (Elt F) (scrLoc c)) :
    iprop(slotPts (F := F) c 0 fullShare g0 ∗ slotPts c 1 fullShare g1 ∗ slotPts c 2 fullShare g2 ∗ slotPts c 3 fullShare g3 ∗ slotPts c 4 fullShare g4
        ∗ slotPts c 5 fullShare g5 ∗ slotPts c 6 fullShare g6 ∗ slotPts c 7 fullShare g7)
      ⊢ (iprop(∃ g : Buf (Elt F) (scrLoc c), (scrLoc c) ↦{fullShare} g) : sProp 𝕄) := by
  refine Entails.trans (Entails.of_eq ?_) (scr_join c ![g0, g1, g2, g3, g4, g5, g6, g7])
  rw [bigSep_fin8]; rfl

/-- The result's staging buffer after the one store through its whole rectangle holds the payload. -/
theorem out_final (c : Dev nD) (g1 : Buf (Elt F) ((c : Thread nD τ).loc cc0_stg1_0)) (w : (cc0_stg1_0 : Ref sig .tc).ty.Contents (Elt F)) :
    (((Memref.whole cc0_stg1_0 : Memref sig .tc _ _ _).view.loc (c : Thread nD τ)) ↦[(Memref.whole cc0_stg1_0 : Memref sig .tc _ _ _).view.set]{fullShare}
        ((Memref.whole cc0_stg1_0 : Memref sig .tc _ _ _).view.writes (Elt F) g1 [⟨r0o, w⟩]) : sProp 𝕄)
      ⊢ (((c : Thread nD τ).loc cc0_stg1_0) ↦{fullShare} w) := by
  rw [whole_pts_eq]
  exact Entails.of_eq (congrArg _ (write_out g1 w))

/-- The result, with each row's load spelt as the program prints it. -/
theorem outAt_lit (c : Dev nD) : outAt m c =
    k0_pay5 (k0_pay4 (k0_pay3 (k0_pay1 (xstg m c)) (View.readAt (Elt F) (Memref.whole cc0_scratch0 : Memref sig .tc .vmem S8x1x1024 .f32).view (Rect.unit (s := S8x1x1024) ![1, 0, 0] S1x1x1024.size inb_S8x1x1024_S1x1x1024_1_0_0).toLoadRect (land m c 0))
      (View.readAt (Elt F) (Memref.whole cc0_scratch0 : Memref sig .tc .vmem S8x1x1024 .f32).view (Rect.unit (s := S8x1x1024) ![2, 0, 0] S1x1x1024.size inb_S8x1x1024_S1x1x1024_2_0_0).toLoadRect (land m c 1))
      (View.readAt (Elt F) (Memref.whole cc0_scratch0 : Memref sig .tc .vmem S8x1x1024 .f32).view (Rect.unit (s := S8x1x1024) ![3, 0, 0] S1x1x1024.size inb_S8x1x1024_S1x1x1024_3_0_0).toLoadRect (land m c 2)))
      (View.readAt (Elt F) (Memref.whole cc0_scratch0 : Memref sig .tc .vmem S8x1x1024 .f32).view (Rect.unit (s := S8x1x1024) ![4, 0, 0] S1x1x1024.size inb_S8x1x1024_S1x1x1024_4_0_0).toLoadRect (land m c 3))
      (View.readAt (Elt F) (Memref.whole cc0_scratch0 : Memref sig .tc .vmem S8x1x1024 .f32).view (Rect.unit (s := S8x1x1024) ![5, 0, 0] S1x1x1024.size inb_S8x1x1024_S1x1x1024_5_0_0).toLoadRect (land m c 4)))
      (View.readAt (Elt F) (Memref.whole cc0_scratch0 : Memref sig .tc .vmem S8x1x1024 .f32).view (Rect.unit (s := S8x1x1024) ![6, 0, 0] S1x1x1024.size inb_S8x1x1024_S1x1x1024_6_0_0).toLoadRect (land m c 5))
      (View.readAt (Elt F) (Memref.whole cc0_scratch0 : Memref sig .tc .vmem S8x1x1024 .f32).view (Rect.unit (s := S8x1x1024) ![7, 0, 0] S1x1x1024.size inb_S8x1x1024_S1x1x1024_7_0_0).toLoadRect (land m c 6)) := rfl

theorem ownSems_flat {M : Type} [URA M] (Φ : Fin 7 ⊕ Fin 7 → sProp M) :
    bigSep Finset.univ Φ = iprop((Φ (.inl 0) ∗ Φ (.inl 1) ∗ Φ (.inl 2) ∗ Φ (.inl 3) ∗ Φ (.inl 4) ∗ Φ (.inl 5) ∗ Φ (.inl 6)) ∗ (Φ (.inr 0) ∗ Φ (.inr 1) ∗ Φ (.inr 2) ∗ Φ (.inr 3) ∗ Φ (.inr 4) ∗ Φ (.inr 5) ∗ Φ (.inr 6))) := by
  rw [bigSep_univ_sum, bigSep_fin7, bigSep_fin7]; rfl

/-! ## The body -/

section Body

variable (K : Dev nD × CellIx → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A transfer cell closes after its one round: its counter at zero is the device's again. -/
theorem close_send (c : Dev nD) (j : Fin 7) : iprop(records m K ∗ atPos ER (sendCell c j) 1 ∅ 0) ⊢ (iprop(|={Set.univ}=> semVal (sendCell c j) 0) : sProp 𝕄) := by
  iintro ⟨#HR, Hat⟩
  iapply (Rounds.cell_close ER (Rd m) (Set.mem_univ (K (c, .inr (.inl j)))) (fun h => h) (R := 0 + 1) (duties_later m (sendCell c j)))
  isplitr; · iapply (inv_send m K c j); iexact HR
  iexact Hat
theorem close_recv (c : Dev nD) (j : Fin 7) : iprop(records m K ∗ atPos ER (recvCell c j) 1 ∅ 0) ⊢ (iprop(|={Set.univ}=> semVal (recvCell c j) 0) : sProp 𝕄) := by
  iintro ⟨#HR, Hat⟩
  iapply (Rounds.cell_close ER (Rd m) (Set.mem_univ (K (c, .inr (.inr j)))) (fun h => h) (R := 0 + 1) (duties_later m (recvCell c j)))
  isplitr; · iapply (inv_recv m K c j); iexact HR
  iexact Hat

def creds (c : Dev nD) : sProp 𝕄 :=
  bigSep Finset.univ fun j : Fin 7 => iprop(cred (tallyAt (recvCell c j) () N) ∗ cred (tallyAt (barCell c) () 1))

def bodyPre (c : Dev nD) : sProp 𝕄 :=
  iprop((ghost m K c ∗ creds c ∗ levAts L lv ∗ ∃ f : Buf (Elt F) (scrLoc c), (scrLoc c) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m c))

set_option maxHeartbeats 8000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost linear posAt creds
  simp only [bigSep_fin7]
  unfold payTok
  iintro ⟨⟨⟨⟨#HR, ⟨HaB, ⟨HaS0, HaV0⟩, ⟨HaS1, HaV1⟩, ⟨HaS2, HaV2⟩, ⟨HaS3, HaV3⟩, ⟨HaS4, HaV4⟩, ⟨HaS5, HaV5⟩, ⟨HaS6, HaV6⟩⟩, ⟨HtB0, HtV0, HtS0⟩, ⟨HtB1, HtV1, HtS1⟩, ⟨HtB2, HtV2, HtS2⟩, ⟨HtB3, HtV3, HtS3⟩, ⟨HtB4, HtV4, HtS4⟩, ⟨HtB5, HtV5, HtS5⟩, ⟨HtB6, HtV6, HtS6⟩⟩, ⟨⟨HcV0, HcB0⟩, ⟨HcV1, HcB1⟩, ⟨HcV2, HcB2⟩, ⟨HcV3, HcB3⟩, ⟨HcV4, HcB4⟩, ⟨HcV5, HcB5⟩, ⟨HcV6, HcB6⟩⟩, #Hlev, ⟨%f0, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl, O₀_chain]
  ihave HcB := (cred_seven' (F := F) (barCell c)) $$ [HcB0 HcB1 HcB2 HcB3 HcB4 HcB5 HcB6]
  · isplitl [HcB0]; · iexact HcB0
    isplitl [HcB1]; · iexact HcB1
    isplitl [HcB2]; · iexact HcB2
    isplitl [HcB3]; · iexact HcB3
    isplitl [HcB4]; · iexact HcB4
    isplitl [HcB5]; · iexact HcB5
    iexact HcB6
  ihave Hs := ((scr_split c f0).trans (Entails.of_eq (bigSep_fin8 _))) $$ Hscr
  icases Hs with ⟨Hsl0, Hsl1, Hsl2, Hsl3, Hsl4, Hsl5, Hsl6, Hsl7⟩
  sl_unfold [cc0_body]
  sl_exec
  -- signal 0: to `padd c 0`, with row 7
  iapply (wp_sig m K c 0 (⟨k0_dev1 c, k0_dev1_lt c⟩ : Dev nD) (dev1_eq c) (OR c + tallyAt (barCell (padd c 6)) () 1 + tallyAt (barCell (padd c 5)) () 1 + tallyAt (barCell (padd c 4)) () 1 + tallyAt (barCell (padd c 3)) () 1 + tallyAt (barCell (padd c 2)) () 1 + tallyAt (barCell (padd c 1)) () 1) W f0) $$ [HO HtB0 Hsl7]
  · isplitr; · iexact HR
    isplitl [HO]; · iexact HO
    isplitl [HtB0]; · iexact HtB0
    iexact Hsl7
  iintro HO
  sl_exec
  -- signal 1: to `padd c 1`, with row 6
  iapply (wp_sig m K c 1 (⟨k0_dev2 c, k0_dev2_lt c⟩ : Dev nD) (dev2_eq c) (OR c + tallyAt (barCell (padd c 6)) () 1 + tallyAt (barCell (padd c 5)) () 1 + tallyAt (barCell (padd c 4)) () 1 + tallyAt (barCell (padd c 3)) () 1 + tallyAt (barCell (padd c 2)) () 1) W f0) $$ [HO HtB1 Hsl6]
  · isplitr; · iexact HR
    isplitl [HO]; · iexact HO
    isplitl [HtB1]; · iexact HtB1
    iexact Hsl6
  iintro HO
  sl_exec
  -- signal 2: to `padd c 2`, with row 5
  iapply (wp_sig m K c 2 (⟨k0_dev3 c, k0_dev3_lt c⟩ : Dev nD) (dev3_eq c) (OR c + tallyAt (barCell (padd c 6)) () 1 + tallyAt (barCell (padd c 5)) () 1 + tallyAt (barCell (padd c 4)) () 1 + tallyAt (barCell (padd c 3)) () 1) W f0) $$ [HO HtB2 Hsl5]
  · isplitr; · iexact HR
    isplitl [HO]; · iexact HO
    isplitl [HtB2]; · iexact HtB2
    iexact Hsl5
  iintro HO
  sl_exec
  -- signal 3: to `padd c 3`, with row 4
  iapply (wp_sig m K c 3 (⟨k0_dev4 c, k0_dev4_lt c⟩ : Dev nD) (dev4_eq c) (OR c + tallyAt (barCell (padd c 6)) () 1 + tallyAt (barCell (padd c 5)) () 1 + tallyAt (barCell (padd c 4)) () 1) W f0) $$ [HO HtB3 Hsl4]
  · isplitr; · iexact HR
    isplitl [HO]; · iexact HO
    isplitl [HtB3]; · iexact HtB3
    iexact Hsl4
  iintro HO
  sl_exec
  -- signal 4: to `padd c 4`, with row 3
  iapply (wp_sig m K c 4 (⟨k0_dev5 c, k0_dev5_lt c⟩ : Dev nD) (dev5_eq c) (OR c + tallyAt (barCell (padd c 6)) () 1 + tallyAt (barCell (padd c 5)) () 1) W f0) $$ [HO HtB4 Hsl3]
  · isplitr; · iexact HR
    isplitl [HO]; · iexact HO
    isplitl [HtB4]; · iexact HtB4
    iexact Hsl3
  iintro HO
  sl_exec
  -- signal 5: to `padd c 5`, with row 2
  iapply (wp_sig m K c 5 (⟨k0_dev6 c, k0_dev6_lt c⟩ : Dev nD) (dev6_eq c) (OR c + tallyAt (barCell (padd c 6)) () 1) W f0) $$ [HO HtB5 Hsl2]
  · isplitr; · iexact HR
    isplitl [HO]; · iexact HO
    isplitl [HtB5]; · iexact HtB5
    iexact Hsl2
  iintro HO
  sl_exec
  -- signal 6: to `padd c 6`, with row 1
  iapply (wp_sig m K c 6 (⟨k0_dev7 c, k0_dev7_lt c⟩ : Dev nD) (dev7_eq c) (OR c) W f0) $$ [HO HtB6 Hsl1]
  · isplitr; · iexact HR
    isplitl [HO]; · iexact HO
    isplitl [HtB6]; · iexact HtB6
    iexact Hsl1
  iintro HO
  sl_exec
  -- the wait for the seven peers
  iapply (wp_barwait m K c W) $$ [HcB HO HaB]
  · isplitr; · iexact HR
    isplitl [HcB]; · iexact HcB
    isplitl [HO]; · iexact HO
    isplitr; · iexact Hlev
    iexact HaB
  iintro ⟨HO, HaB, Hpay⟩
  ihave Hp := (Entails.of_eq (bigSep_fin7 _)) $$ Hpay
  unfold barPay
  icases Hp with ⟨⟨⟨%fn0, Hn0⟩, -⟩, ⟨⟨%fn1, Hn1⟩, -⟩, ⟨⟨%fn2, Hn2⟩, -⟩, ⟨⟨%fn3, Hn3⟩, -⟩, ⟨⟨%fn4, Hn4⟩, -⟩, ⟨⟨%fn5, Hn5⟩, -⟩, ⟨⟨%fn6, Hn6⟩, -⟩⟩
  unfold slotPts
  ihave Hx := (Entails.of_eq (whole_pts_eq cc0_stg0_0 c _).symm) $$ Hx
  ihave Hout := (Entails.of_eq (whole_pts_eq cc0_stg1_0 c _).symm) $$ Hout
  sl_exec
  -- row 0 now holds the column maxima: its seven copy shares
  unfold sound_body.sl.Hsl0_w1
  ihave Hsl0 := (Entails.of_eq (slot0_norm m c f0)) $$ Hsl0
  ihave Hsp := (slot0_split (F := F) c (src0 m c)) $$ Hsl0
  icases Hsp with ⟨Hrem, Hsh0, Hsh1, Hsh2, Hsh3, Hsh4, Hsh5, Hsh6⟩
  unfold slotPts
  rw [OR_chain]
  -- copy 0: to row 1 of `padd c 0`
  iapply (wp_snd m K c 0 (⟨k0_dev8 c, k0_dev8_lt c⟩ : Dev nD) (dev8_eq c) fn0 (0 + tallyAt (recvCell (padd c 6) 6) () N + tallyAt (recvCell (padd c 5) 5) () N + tallyAt (recvCell (padd c 4) 4) () N + tallyAt (recvCell (padd c 3) 3) () N + tallyAt (recvCell (padd c 2) 2) () N + tallyAt (recvCell (padd c 1) 1) () N) (insert (SemLoc.reg barS, ()) W)) $$ [Hsh0 Hn0 HO HtS0 HtV0]
  · unfold slotPts
    isplitr; · iexact HR
    isplitl [Hsh0]; · iexact Hsh0
    isplitl [Hn0]; · iexact Hn0
    isplitl [HO]; · iexact HO
    isplitl [HtS0]; · iexact HtS0
    iexact HtV0
  iintro ⟨HcS0, HO⟩
  sl_exec
  -- copy 1: to row 2 of `padd c 1`
  iapply (wp_snd m K c 1 (⟨k0_dev9 c, k0_dev9_lt c⟩ : Dev nD) (dev9_eq c) fn1 (0 + tallyAt (recvCell (padd c 6) 6) () N + tallyAt (recvCell (padd c 5) 5) () N + tallyAt (recvCell (padd c 4) 4) () N + tallyAt (recvCell (padd c 3) 3) () N + tallyAt (recvCell (padd c 2) 2) () N) (insert (SemLoc.reg barS, ()) W)) $$ [Hsh1 Hn1 HO HtS1 HtV1]
  · unfold slotPts
    isplitr; · iexact HR
    isplitl [Hsh1]; · iexact Hsh1
    isplitl [Hn1]; · iexact Hn1
    isplitl [HO]; · iexact HO
    isplitl [HtS1]; · iexact HtS1
    iexact HtV1
  iintro ⟨HcS1, HO⟩
  sl_exec
  -- copy 2: to row 3 of `padd c 2`
  iapply (wp_snd m K c 2 (⟨k0_dev10 c, k0_dev10_lt c⟩ : Dev nD) (dev10_eq c) fn2 (0 + tallyAt (recvCell (padd c 6) 6) () N + tallyAt (recvCell (padd c 5) 5) () N + tallyAt (recvCell (padd c 4) 4) () N + tallyAt (recvCell (padd c 3) 3) () N) (insert (SemLoc.reg barS, ()) W)) $$ [Hsh2 Hn2 HO HtS2 HtV2]
  · unfold slotPts
    isplitr; · iexact HR
    isplitl [Hsh2]; · iexact Hsh2
    isplitl [Hn2]; · iexact Hn2
    isplitl [HO]; · iexact HO
    isplitl [HtS2]; · iexact HtS2
    iexact HtV2
  iintro ⟨HcS2, HO⟩
  sl_exec
  -- copy 3: to row 4 of `padd c 3`
  iapply (wp_snd m K c 3 (⟨k0_dev11 c, k0_dev11_lt c⟩ : Dev nD) (dev11_eq c) fn3 (0 + tallyAt (recvCell (padd c 6) 6) () N + tallyAt (recvCell (padd c 5) 5) () N + tallyAt (recvCell (padd c 4) 4) () N) (insert (SemLoc.reg barS, ()) W)) $$ [Hsh3 Hn3 HO HtS3 HtV3]
  · unfold slotPts
    isplitr; · iexact HR
    isplitl [Hsh3]; · iexact Hsh3
    isplitl [Hn3]; · iexact Hn3
    isplitl [HO]; · iexact HO
    isplitl [HtS3]; · iexact HtS3
    iexact HtV3
  iintro ⟨HcS3, HO⟩
  sl_exec
  -- copy 4: to row 5 of `padd c 4`
  iapply (wp_snd m K c 4 (⟨k0_dev12 c, k0_dev12_lt c⟩ : Dev nD) (dev12_eq c) fn4 (0 + tallyAt (recvCell (padd c 6) 6) () N + tallyAt (recvCell (padd c 5) 5) () N) (insert (SemLoc.reg barS, ()) W)) $$ [Hsh4 Hn4 HO HtS4 HtV4]
  · unfold slotPts
    isplitr; · iexact HR
    isplitl [Hsh4]; · iexact Hsh4
    isplitl [Hn4]; · iexact Hn4
    isplitl [HO]; · iexact HO
    isplitl [HtS4]; · iexact HtS4
    iexact HtV4
  iintro ⟨HcS4, HO⟩
  sl_exec
  -- copy 5: to row 6 of `padd c 5`
  iapply (wp_snd m K c 5 (⟨k0_dev13 c, k0_dev13_lt c⟩ : Dev nD) (dev13_eq c) fn5 (0 + tallyAt (recvCell (padd c 6) 6) () N) (insert (SemLoc.reg barS, ()) W)) $$ [Hsh5 Hn5 HO HtS5 HtV5]
  · unfold slotPts
    isplitr; · iexact HR
    isplitl [Hsh5]; · iexact Hsh5
    isplitl [Hn5]; · iexact Hn5
    isplitl [HO]; · iexact HO
    isplitl [HtS5]; · iexact HtS5
    iexact HtV5
  iintro ⟨HcS5, HO⟩
  sl_exec
  -- copy 6: to row 7 of `padd c 6`
  iapply (wp_snd m K c 6 (⟨k0_dev14 c, k0_dev14_lt c⟩ : Dev nD) (dev14_eq c) fn6 (0) (insert (SemLoc.reg barS, ()) W)) $$ [Hsh6 Hn6 HO HtS6 HtV6]
  · unfold slotPts
    isplitr; · iexact HR
    isplitl [Hsh6]; · iexact Hsh6
    isplitl [Hn6]; · iexact Hn6
    isplitl [HO]; · iexact HO
    isplitl [HtS6]; · iexact HtS6
    iexact HtV6
  iintro ⟨HcS6, HO⟩
  sl_exec
  -- the wait for the copy into row 1, then its load
  iapply (wp_rcvwait m K c 0 (insert (SemLoc.reg barS, ()) W) (dst := (slotM 1 : Memref sig .tc .vmem S1x1024 .f32)) rfl) $$ [HcV0 HO HaV0]
  · isplitr; · iexact HR
    isplitl [HcV0]; · iexact HcV0
    isplitl [HO]; · iexact HO
    iexact HaV0
  iintro ⟨HO, HaV0, Hl0⟩
  unfold slotPts
  sl_exec
  -- the wait for the copy into row 2, then its load
  iapply (wp_rcvwait m K c 1 (insert (SemLoc.dma (recvS 0), ()) (insert (SemLoc.reg barS, ()) W)) (dst := (slotM 2 : Memref sig .tc .vmem S1x1024 .f32)) rfl) $$ [HcV1 HO HaV1]
  · isplitr; · iexact HR
    isplitl [HcV1]; · iexact HcV1
    isplitl [HO]; · iexact HO
    iexact HaV1
  iintro ⟨HO, HaV1, Hl1⟩
  unfold slotPts
  sl_exec
  -- the wait for the copy into row 3, then its load
  iapply (wp_rcvwait m K c 2 (insert (SemLoc.dma (recvS 1), ()) (insert (SemLoc.dma (recvS 0), ()) (insert (SemLoc.reg barS, ()) W))) (dst := (slotM 3 : Memref sig .tc .vmem S1x1024 .f32)) rfl) $$ [HcV2 HO HaV2]
  · isplitr; · iexact HR
    isplitl [HcV2]; · iexact HcV2
    isplitl [HO]; · iexact HO
    iexact HaV2
  iintro ⟨HO, HaV2, Hl2⟩
  unfold slotPts
  sl_exec
  -- the wait for the copy into row 4, then its load
  iapply (wp_rcvwait m K c 3 (insert (SemLoc.dma (recvS 2), ()) (insert (SemLoc.dma (recvS 1), ()) (insert (SemLoc.dma (recvS 0), ()) (insert (SemLoc.reg barS, ()) W)))) (dst := (slotM 4 : Memref sig .tc .vmem S1x1024 .f32)) rfl) $$ [HcV3 HO HaV3]
  · isplitr; · iexact HR
    isplitl [HcV3]; · iexact HcV3
    isplitl [HO]; · iexact HO
    iexact HaV3
  iintro ⟨HO, HaV3, Hl3⟩
  unfold slotPts
  sl_exec
  -- the wait for the copy into row 5, then its load
  iapply (wp_rcvwait m K c 4 (insert (SemLoc.dma (recvS 3), ()) (insert (SemLoc.dma (recvS 2), ()) (insert (SemLoc.dma (recvS 1), ()) (insert (SemLoc.dma (recvS 0), ()) (insert (SemLoc.reg barS, ()) W))))) (dst := (slotM 5 : Memref sig .tc .vmem S1x1024 .f32)) rfl) $$ [HcV4 HO HaV4]
  · isplitr; · iexact HR
    isplitl [HcV4]; · iexact HcV4
    isplitl [HO]; · iexact HO
    iexact HaV4
  iintro ⟨HO, HaV4, Hl4⟩
  unfold slotPts
  sl_exec
  -- the wait for the copy into row 6, then its load
  iapply (wp_rcvwait m K c 5 (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))) (dst := (slotM 6 : Memref sig .tc .vmem S1x1024 .f32)) rfl) $$ [HcV5 HO HaV5]
  · isplitr; · iexact HR
    isplitl [HcV5]; · iexact HcV5
    isplitl [HO]; · iexact HO
    iexact HaV5
  iintro ⟨HO, HaV5, Hl5⟩
  unfold slotPts
  sl_exec
  -- the wait for the copy into row 7, then its load
  iapply (wp_rcvwait m K c 6 (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))) (dst := (slotM 7 : Memref sig .tc .vmem S1x1024 .f32)) rfl) $$ [HcV6 HO HaV6]
  · isplitr; · iexact HR
    isplitl [HcV6]; · iexact HcV6
    isplitl [HO]; · iexact HO
    iexact HaV6
  iintro ⟨HO, HaV6, Hl6⟩
  unfold slotPts
  sl_exec
  -- the wait for the departure of copy 0
  iapply (wp_sndwait m K c 0 (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))) (dst := (slotM 0 : Memref sig .tc .vmem S1x1024 .f32)) rfl) $$ [HcS0 HO HaS0]
  · isplitr; · iexact HR
    isplitl [HcS0]; · iexact HcS0
    isplitl [HO]; · iexact HO
    iexact HaS0
  iintro ⟨HO, HaS0, Hsh0⟩
  sl_exec
  -- the wait for the departure of copy 1
  iapply (wp_sndwait m K c 1 (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))) (dst := (slotM 0 : Memref sig .tc .vmem S1x1024 .f32)) rfl) $$ [HcS1 HO HaS1]
  · isplitr; · iexact HR
    isplitl [HcS1]; · iexact HcS1
    isplitl [HO]; · iexact HO
    iexact HaS1
  iintro ⟨HO, HaS1, Hsh1⟩
  sl_exec
  -- the wait for the departure of copy 2
  iapply (wp_sndwait m K c 2 (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))) (dst := (slotM 0 : Memref sig .tc .vmem S1x1024 .f32)) rfl) $$ [HcS2 HO HaS2]
  · isplitr; · iexact HR
    isplitl [HcS2]; · iexact HcS2
    isplitl [HO]; · iexact HO
    iexact HaS2
  iintro ⟨HO, HaS2, Hsh2⟩
  sl_exec
  -- the wait for the departure of copy 3
  iapply (wp_sndwait m K c 3 (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))))) (dst := (slotM 0 : Memref sig .tc .vmem S1x1024 .f32)) rfl) $$ [HcS3 HO HaS3]
  · isplitr; · iexact HR
    isplitl [HcS3]; · iexact HcS3
    isplitl [HO]; · iexact HO
    iexact HaS3
  iintro ⟨HO, HaS3, Hsh3⟩
  sl_exec
  -- the wait for the departure of copy 4
  iapply (wp_sndwait m K c 4 (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))) (dst := (slotM 0 : Memref sig .tc .vmem S1x1024 .f32)) rfl) $$ [HcS4 HO HaS4]
  · isplitr; · iexact HR
    isplitl [HcS4]; · iexact HcS4
    isplitl [HO]; · iexact HO
    iexact HaS4
  iintro ⟨HO, HaS4, Hsh4⟩
  sl_exec
  -- the wait for the departure of copy 5
  iapply (wp_sndwait m K c 5 (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))))))) (dst := (slotM 0 : Memref sig .tc .vmem S1x1024 .f32)) rfl) $$ [HcS5 HO HaS5]
  · isplitr; · iexact HR
    isplitl [HcS5]; · iexact HcS5
    isplitl [HO]; · iexact HO
    iexact HaS5
  iintro ⟨HO, HaS5, Hsh5⟩
  sl_exec
  -- the wait for the departure of copy 6
  iapply (wp_sndwait m K c 6 (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))))) (dst := (slotM 0 : Memref sig .tc .vmem S1x1024 .f32)) rfl) $$ [HcS6 HO HaS6]
  · isplitr; · iexact HR
    isplitl [HcS6]; · iexact HcS6
    isplitl [HO]; · iexact HO
    iexact HaS6
  iintro ⟨HO, HaS6, Hsh6⟩
  imod (close_send m K c 0) $$ [HaS0] with HzS0
  · isplitr; · iexact HR
    iexact HaS0
  imod (close_recv m K c 0) $$ [HaV0] with HzV0
  · isplitr; · iexact HR
    iexact HaV0
  imod (close_send m K c 1) $$ [HaS1] with HzS1
  · isplitr; · iexact HR
    iexact HaS1
  imod (close_recv m K c 1) $$ [HaV1] with HzV1
  · isplitr; · iexact HR
    iexact HaV1
  imod (close_send m K c 2) $$ [HaS2] with HzS2
  · isplitr; · iexact HR
    iexact HaS2
  imod (close_recv m K c 2) $$ [HaV2] with HzV2
  · isplitr; · iexact HR
    iexact HaV2
  imod (close_send m K c 3) $$ [HaS3] with HzS3
  · isplitr; · iexact HR
    iexact HaS3
  imod (close_recv m K c 3) $$ [HaV3] with HzV3
  · isplitr; · iexact HR
    iexact HaV3
  imod (close_send m K c 4) $$ [HaS4] with HzS4
  · isplitr; · iexact HR
    iexact HaS4
  imod (close_recv m K c 4) $$ [HaV4] with HzV4
  · isplitr; · iexact HR
    iexact HaV4
  imod (close_send m K c 5) $$ [HaS5] with HzS5
  · isplitr; · iexact HR
    iexact HaS5
  imod (close_recv m K c 5) $$ [HaV5] with HzV5
  · isplitr; · iexact HR
    iexact HaV5
  imod (close_send m K c 6) $$ [HaS6] with HzS6
  · isplitr; · iexact HR
    iexact HaS6
  imod (close_recv m K c 6) $$ [HaV6] with HzV6
  · isplitr; · iexact HR
    iexact HaV6
  sl_step
  iapply Hk
  unfold bodyPost Φ₁ Dat.owesAt Pipeline.owesWithin
  rw [show (dats m 0 c).owed t₀.succ = 0 from rfl]
  -- row 0 whole again, then the buffer from its eight rows
  ihave Hr0 := (slot0_join (F := F) c (src0 m c)) $$ [Hrem Hsh0 Hsh1 Hsh2 Hsh3 Hsh4 Hsh5 Hsh6]
  · unfold slotPts
    isplitl [Hrem]; · iexact Hrem
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  ihave Hscr := (scr_join' (F := F) c (src0 m c) (land m c 0) (land m c 1) (land m c 2) (land m c 3) (land m c 4) (land m c 5) (land m c 6)) $$ [Hr0 Hl0 Hl1 Hl2 Hl3 Hl4 Hl5 Hl6]
  · unfold slotPts
    isplitl [Hr0]; · iexact Hr0
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  isplitl [Hscr HzS0 HzV0 HzS1 HzV1 HzS2 HzV2 HzS3 HzV3 HzS4 HzV4 HzS5 HzV5 HzS6 HzV6]
  · isplitl [Hscr]; · iexact Hscr
    rw [ownSems_flat]
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      iexact HzV6
  isplitl [HO]
  · iexists (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))))))
    isplitr; · ipureintro; exact fun _ _ => Or.inl trivial
    iexact HO
  isplitl [Hx]
  · iexists _; isplitr; · (ipureintro; rfl)
    iapply (Entails.of_eq (whole_pts_eq cc0_stg0_0 c _)); iexact Hx
  iexists _; isplitr; · (ipureintro; rfl)
  unfold sound_body.sl.r_2 sound_body.sl.r_1 sound_body.sl.r
  rw [read_x, outAt_lit]
  iapply (out_final c g1 _)
  iexact Hout

end Body

end Cert.Kernel.Coll

end
-- ==== Proof.K.Obl.lean ====
import proofs.«900374_g7700000000000375_dist_max_ax0_shard0_i_m4096_n1024_v7x_i8_bf16_1_alg».proof.Proof.Gen.Kernel
import proofs.«900374_g7700000000000375_dist_max_ax0_shard0_i_m4096_n1024_v7x_i8_bf16_1_alg».proof.Proof.Gen.Kernel.Skeleton
import proofs.«900374_g7700000000000375_dist_max_ax0_shard0_i_m4096_n1024_v7x_i8_bf16_1_alg».proof.Proof.Gen.Kernel.Launch
import proofs.«900374_g7700000000000375_dist_max_ax0_shard0_i_m4096_n1024_v7x_i8_bf16_1_alg».proof.Proof.Gen.Kernel.Points
import proofs.«900374_g7700000000000375_dist_max_ax0_shard0_i_m4096_n1024_v7x_i8_bf16_1_alg».proof.Proof.K.Sched
import proofs.«900374_g7700000000000375_dist_max_ax0_shard0_i_m4096_n1024_v7x_i8_bf16_1_alg».proof.Proof.K.Data
import proofs.«900374_g7700000000000375_dist_max_ax0_shard0_i_m4096_n1024_v7x_i8_bf16_1_alg».proof.Proof.K.Slots
import proofs.«900374_g7700000000000375_dist_max_ax0_shard0_i_m4096_n1024_v7x_i8_bf16_1_alg».proof.Proof.K.Steps
import proofs.«900374_g7700000000000375_dist_max_ax0_shard0_i_m4096_n1024_v7x_i8_bf16_1_alg».proof.Proof.K.Body
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hcr, Hlev⟩, Hscr⟩, Ho, Hx, Hout⟩
  iapply (sound_body m K c fun _ => bodyPost m c)
  unfold bodyPre creds
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Cert.Kernel.Coll

end
-- ==== Proof.K.Launch.lean ====
import proofs.«900374_g7700000000000375_dist_max_ax0_shard0_i_m4096_n1024_v7x_i8_bf16_1_alg».proof.Proof.Gen.Kernel
import proofs.«900374_g7700000000000375_dist_max_ax0_shard0_i_m4096_n1024_v7x_i8_bf16_1_alg».proof.Proof.Gen.Kernel.Skeleton
import proofs.«900374_g7700000000000375_dist_max_ax0_shard0_i_m4096_n1024_v7x_i8_bf16_1_alg».proof.Proof.Gen.Kernel.Launch
import proofs.«900374_g7700000000000375_dist_max_ax0_shard0_i_m4096_n1024_v7x_i8_bf16_1_alg».proof.Proof.Gen.Kernel.Points
import proofs.«900374_g7700000000000375_dist_max_ax0_shard0_i_m4096_n1024_v7x_i8_bf16_1_alg».proof.Proof.K.Sched
import proofs.«900374_g7700000000000375_dist_max_ax0_shard0_i_m4096_n1024_v7x_i8_bf16_1_alg».proof.Proof.K.Data
import proofs.«900374_g7700000000000375_dist_max_ax0_shard0_i_m4096_n1024_v7x_i8_bf16_1_alg».proof.Proof.K.Slots
import proofs.«900374_g7700000000000375_dist_max_ax0_shard0_i_m4096_n1024_v7x_i8_bf16_1_alg».proof.Proof.K.Steps
import proofs.«900374_g7700000000000375_dist_max_ax0_shard0_i_m4096_n1024_v7x_i8_bf16_1_alg».proof.Proof.K.Body
import proofs.«900374_g7700000000000375_dist_max_ax0_shard0_i_m4096_n1024_v7x_i8_bf16_1_alg».proof.Proof.K.Obl
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨kcell, kcell_injective⟩

/-- The duty tokens of a device's own cells as minted: its barrier's seven duties, each send cell's and each receive cell's one. -/
abbrev TokIx : Type := Fin 7 ⊕ (Fin 7 ⊕ Fin 7)
abbrev tokOf (ct : Dev nD × TokIx) : GSem nD τ sig × ℕ × Fin 7 := match ct.2 with
  | .inl d => (barCell ct.1, 0, d)
  | .inr (.inl j) => (sendCell ct.1 j, 0, 0)
  | .inr (.inr j) => (recvCell ct.1 j, 0, 0)

theorem tokOf_injective : Function.Injective (tokOf : Dev nD × TokIx → GSem nD τ sig × ℕ × Fin 7) := by
  rintro ⟨c, t⟩ ⟨c', t'⟩ h
  have h1 : c = c' := by
    have := congrArg (fun x : GSem nD τ sig × ℕ × Fin 7 => x.1.1.1) h
    rcases t with d | j | j <;> rcases t' with d' | j' | j' <;> exact this
  subst h1
  have hs : (tokOf (c, t)).1.2 = (tokOf (c, t')).1.2 := by rw [h]
  have hd : (tokOf (c, t)).2.2 = (tokOf (c, t')).2.2 := by rw [h]
  rcases t with d | j | j <;> rcases t' with d' | j' | j'
  · have : d = d' := hd
    rw [this]
  · exact absurd hs.symm (send_ne_bar j')
  · exact absurd hs.symm (recv_ne_bar j')
  · exact absurd hs (send_ne_bar j)
  · have := congrArg semKind hs; simp only [semKind_send] at this; cases this; rfl
  · have := congrArg semKind hs; simp only [semKind_send, semKind_recv] at this; cases this
  · exact absurd hs (recv_ne_bar j)
  · have := congrArg semKind hs; simp only [semKind_send, semKind_recv] at this; cases this
  · have := congrArg semKind hs; simp only [semKind_recv] at this; cases this; rfl

def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Fin 7 => dutyTok ER (barCell c) 0 d)
    ∗ (bigSep Finset.univ fun j : Fin 7 => dutyTok ER (sendCell c j) 0 0) ∗ (bigSep Finset.univ fun j : Fin 7 => dutyTok ER (recvCell c j) 0 0))

/-- What the launch element deals device `c`. -/
def G (c : Dev nD) : sProp 𝕄 :=
  iprop((bigSep Finset.univ fun k : CellIx => roundState ER (Rd m) (kcell (c, k)) 0)
    ∗ (bigSep Finset.univ fun k : CellIx => iprop(atPos ER (kcell (c, k)) 0 ∅ 0 ∗ reached ER (kcell (c, k)) 0)) ∗ toks (F := F) c)

/-- What the global step makes of it. -/
def G' (c : Dev nD) : sProp 𝕄 := iprop(∃ K, ghost m K c)

theorem fund_ring : BI.own (ER (F := F) (initOf allCells allToks)) ⊢ (|==> bigSep Finset.univ (G m) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : Fin 7 ⊕ Fin 7 => semVal ((c : Thread nD τ), osem k) 0 := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_cellIx (Φ : CellIx → sProp 𝕄) :
    bigSep Finset.univ Φ = iprop(Φ (.inl ()) ∗ bigSep Finset.univ (fun k : Fin 7 ⊕ Fin 7 => Φ (.inr k))) := by
  rw [bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (Rd m) (kcell (c, k)) 0)
      ⊢ (|={Set.univ}=> bigSep Finset.univ fun k : CellIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CellIx → ℕ) (c : Dev nD) : iprop(records m K ∗ linear (F := F) c) ⊢ G' m c := by
  unfold G' ghost
  iintro H; iexists K; iexact H

/-- The bijections along which the tokens are dealt: barrier duty `d` of `c'` goes to its payer `padd c' d`, where it is the
    token of that device's signal `d.rev`; the receive token `j` of `c'` goes to `psub c' j`. -/
def dealBar : Dev nD × Fin 7 ≃ Dev nD × Fin 7 where
  toFun cj := (padd cj.1 cj.2, cj.2.rev)
  invFun cd := (padd cd.1 cd.2, cd.2.rev)
  left_inv cj := by
    obtain ⟨c, j⟩ := cj
    show (padd (padd c j) j.rev, j.rev.rev) = (c, j)
    rw [padd_padd_rev, Fin.rev_rev]
  right_inv cd := by
    obtain ⟨c, d⟩ := cd
    show (padd (padd c d) d.rev, d.rev.rev) = (c, d)
    rw [padd_padd_rev, Fin.rev_rev]
def dealRecv : Dev nD × Fin 7 ≃ Dev nD × Fin 7 where
  toFun cj := (padd cj.1 cj.2, cj.2)
  invFun cd := (psub cd.1 cd.2, cd.2)
  left_inv cj := by obtain ⟨c, j⟩ := cj; show (psub (padd c j) j, j) = (c, j); rw [psub_padd]
  right_inv cd := by obtain ⟨c, d⟩ := cd; show (padd (psub c d) d, d) = (c, d); rw [padd_psub]

theorem toks_around : (bigSep Finset.univ fun c : Dev nD => (toks (F := F) c : sProp 𝕄)) ⊢ bigSep Finset.univ fun c : Dev nD => bigSep Finset.univ fun j : Fin 7 => payTok (F := F) c j := by
  have hB : (bigSep Finset.univ fun c : Dev nD => bigSep Finset.univ fun d : Fin 7 => (dutyTok ER (barCell c) 0 d : sProp 𝕄))
      = bigSep Finset.univ fun c : Dev nD => bigSep Finset.univ fun j : Fin 7 => (dutyTok ER (barCell (padd c j)) 0 j.rev : sProp 𝕄) := by
    rw [← bigSep_univ_prod (fun cd : Dev nD × Fin 7 => (dutyTok ER (barCell cd.1) 0 cd.2 : sProp 𝕄)),
      bigSep_univ_equiv dealBar (fun cd : Dev nD × Fin 7 => (dutyTok ER (barCell cd.1) 0 cd.2 : sProp 𝕄)), bigSep_univ_prod]
    rfl
  have hV : (bigSep Finset.univ fun c : Dev nD => bigSep Finset.univ fun j : Fin 7 => (dutyTok ER (recvCell c j) 0 0 : sProp 𝕄))
      = bigSep Finset.univ fun c : Dev nD => bigSep Finset.univ fun j : Fin 7 => (dutyTok ER (recvCell (padd c j) j) 0 0 : sProp 𝕄) := by
    rw [← bigSep_univ_prod (fun cd : Dev nD × Fin 7 => (dutyTok ER (recvCell cd.1 cd.2) 0 0 : sProp 𝕄)),
      bigSep_univ_equiv dealRecv (fun cd : Dev nD × Fin 7 => (dutyTok ER (recvCell cd.1 cd.2) 0 0 : sProp 𝕄)), bigSep_univ_prod]
    rfl
  unfold toks payTok
  simp only [bigSep_sep']
  rw [hB, hV]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem posAt_eq (c : Dev nD) : (bigSep Finset.univ fun k : CellIx => (atPos ER (kcell (c, k)) 0 ∅ 0 : sProp 𝕄)) = posAt (F := F) c := by
  unfold posAt
  rw [bigSep_cellIx, bigSep_univ_sum, ← BI.bigSep_sep]
  rfl

theorem regroup :
    (bigSep Finset.univ fun c : Dev nD => iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CellIx => iprop(∃ κ : ℕ, cellInv ER (Rd m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄))
        (fun c : Dev nD => bigSep Finset.univ fun j : Fin 7 => payTok (F := F) c j)).symm).trans
      (bigSep_mono fun c _ => show _ ⊢ linear (F := F) c from Entails.of_eq (by unfold linear; rw [posAt_eq])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem creds_intro (c : Dev nD) : (Pipeline.launchCred O₀ c : sProp 𝕄) ⊢ creds (F := F) c := by
  unfold creds
  have h : (Pipeline.launchCred (fun d => ∑ j ∈ (Finset.univ : Finset (Fin 7)), owe j d) c : sProp 𝕄)
      = bigSep Finset.univ fun j : Fin 7 => Pipeline.launchCred (owe j) c := Pipeline.launchCred_sum Finset.univ (fun j d => owe j d) c
  refine (Entails.of_eq h).trans (bigSep_mono fun j _ => ?_)
  have h2 : (Pipeline.launchCred (owe j) c : sProp 𝕄)
      = iprop(Pipeline.launchCred (fun d => tallyAt (recvCell (padd d j) j) () N) c ∗ Pipeline.launchCred (fun d => tallyAt (barCell (padd d j)) () 1) c) :=
    Pipeline.launchCred_add _ _ c
  rw [h2]
  exact BI.sep_mono (Pipeline.launchCred_tallyAt (.dma (recvS j)) (fun d => padd d j) (fun d => psub d j) (fun d => padd_psub d j) (fun d => psub_padd d j) () N c)
    (Pipeline.launchCred_tallyAt (.reg barS) (fun d => padd d j) (fun d => psub d j) (fun d => padd_psub d j) (fun d => psub_padd d j) () 1 c)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G' creds
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁
  iintro ⟨⟨%f, Hr⟩, Hz⟩
  isplitr; · iempintro
  isplitl [Hz]; · iexact Hz
  iexists f; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, from any memory with zero counters: every weakly fair execution of @main — the
    eight kernels handshaking on the barrier semaphore, exchanging their column maxima, joining them — terminates, and every
    final state has each device's result array at the computed contents and its block of `x` unchanged. -/
theorem run_main [∀ e, Nonempty (Elt F e)] : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- Its block of `x` after the run holds what it held. -/
theorem finalA_x (c : Dev nD) : finalA m c (0 : Fin 2) = m (win0_0.arr.view.loc (c : Thread nD τ)) :=
  (dats (F := F) m 0 c).arrAt_in (0 : Fin 2) rfl _

end Cert.Kernel.Coll

end
-- ==== Proof.KI.Sched.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds of this protocol (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The peers: copy `j` of device `c` goes to `c + (j + 1)` modulo 8, and comes from `c - (j + 1)` -/

def padd (c : Dev nD) (j : Fin 7) : Dev nD := ⟨(c.val + (j.val + 1)) % 8, Nat.mod_lt _ (by decide)⟩
def psub (c : Dev nD) (j : Fin 7) : Dev nD := ⟨(c.val + (7 - j.val)) % 8, Nat.mod_lt _ (by decide)⟩

theorem psub_padd (c : Dev nD) (j : Fin 7) : psub (padd c j) j = c := by revert c j; decide
theorem padd_psub (c : Dev nD) (j : Fin 7) : padd (psub c j) j = c := by revert c j; decide
theorem padd_padd_rev (c : Dev nD) (j : Fin 7) : padd (padd c j) j.rev = c := by revert c j; decide
theorem padd_rev (c : Dev nD) (j : Fin 7) : padd c j.rev = psub c j := by revert c j; decide
theorem padd_ne (c : Dev nD) (j : Fin 7) : padd c j ≠ c := by revert c j; decide
theorem padd_inj (c : Dev nD) {j j' : Fin 7} (h : padd c j = padd c j') : j = j' := by revert c j j'; decide
theorem padd_left_inj (j : Fin 7) {c c' : Dev nD} (h : padd c j = padd c' j) : c = c' := by revert c c' j; decide

def shift (j : Fin 7) : Dev nD ≃ Dev nD := ⟨fun c => padd c j, fun c => psub c j, fun c => psub_padd c j, fun c => padd_psub c j⟩

/-- The kernel's `device_id` chains: signal `j` and copy `j` both name `padd c j`. -/
theorem dev1_eq (c : Dev nD) : (⟨k0_dev1 c, k0_dev1_lt c⟩ : Dev nD) = padd c 0 := by revert c; decide +kernel
theorem dev2_eq (c : Dev nD) : (⟨k0_dev2 c, k0_dev2_lt c⟩ : Dev nD) = padd c 1 := by revert c; decide +kernel
theorem dev3_eq (c : Dev nD) : (⟨k0_dev3 c, k0_dev3_lt c⟩ : Dev nD) = padd c 2 := by revert c; decide +kernel
theorem dev4_eq (c : Dev nD) : (⟨k0_dev4 c, k0_dev4_lt c⟩ : Dev nD) = padd c 3 := by revert c; decide +kernel
theorem dev5_eq (c : Dev nD) : (⟨k0_dev5 c, k0_dev5_lt c⟩ : Dev nD) = padd c 4 := by revert c; decide +kernel
theorem dev6_eq (c : Dev nD) : (⟨k0_dev6 c, k0_dev6_lt c⟩ : Dev nD) = padd c 5 := by revert c; decide +kernel
theorem dev7_eq (c : Dev nD) : (⟨k0_dev7 c, k0_dev7_lt c⟩ : Dev nD) = padd c 6 := by revert c; decide +kernel
theorem dev8_eq (c : Dev nD) : (⟨k0_dev8 c, k0_dev8_lt c⟩ : Dev nD) = padd c 0 := by revert c; decide +kernel
theorem dev9_eq (c : Dev nD) : (⟨k0_dev9 c, k0_dev9_lt c⟩ : Dev nD) = padd c 1 := by revert c; decide +kernel
theorem dev10_eq (c : Dev nD) : (⟨k0_dev10 c, k0_dev10_lt c⟩ : Dev nD) = padd c 2 := by revert c; decide +kernel
theorem dev11_eq (c : Dev nD) : (⟨k0_dev11 c, k0_dev11_lt c⟩ : Dev nD) = padd c 3 := by revert c; decide +kernel
theorem dev12_eq (c : Dev nD) : (⟨k0_dev12 c, k0_dev12_lt c⟩ : Dev nD) = padd c 4 := by revert c; decide +kernel
theorem dev13_eq (c : Dev nD) : (⟨k0_dev13 c, k0_dev13_lt c⟩ : Dev nD) = padd c 5 := by revert c; decide +kernel
theorem dev14_eq (c : Dev nD) : (⟨k0_dev14 c, k0_dev14_lt c⟩ : Dev nD) = padd c 6 := by revert c; decide +kernel

/-! ## The memrefs: the two staging buffers, and the eight rows of the exchange buffer -/

abbrev xM : Memref sig .tc .vmem S4096x1024 .f32 := Memref.whole cc0_stg0_0
abbrev oM : Memref sig .tc .vmem S1x1024 .f32 := Memref.whole cc0_stg1_0
abbrev scrM : Memref sig .tc .vmem S8x1x1024 .f32 := Memref.whole cc0_scratch0

theorem slot_inb (k : Fin 8) : ∀ a, (![k.val, 0, 0] : Fin 3 → Nat) a + S1x1x1024.size a ≤ S8x1x1024.size a := by
  revert k; decide

/-- Row `k` of the exchange buffer, as a rectangle of it, -/
abbrev slotRect (k : Fin 8) : Rect S8x1x1024 := Rect.unit (s := S8x1x1024) ![k.val, 0, 0] S1x1x1024.size (slot_inb k)

/-- and as the `1 × 1024` memref the copies name. -/
abbrev slotM (k : Fin 8) : Memref sig .tc .vmem S1x1024 .f32 :=
  ((scrM).slice (slotRect k) (fun _ => rfl)).squeeze S1x1024 squeezes_S1x1x1024_S1x1024

theorem slot_set (k : Fin 8) : (slotM k : Memref sig .tc .vmem S1x1024 .f32).view.set = (slotRect k).set := by
  simp only [Memref.view_squeeze, Memref.view_slice, View.set_reshape, Memref.view_whole, View.set_slice_whole]

theorem slot_disjoint {k k' : Fin 8} (h : k ≠ k') : Disjoint (slotRect k).set (slotRect k').set :=
  Rect.unit_disjoint (0 : Fin 3) (by
    have h' : k.val ≠ k'.val := fun e => h (Fin.ext e)
    show k.val + 1 ≤ k'.val ∨ k'.val + 1 ≤ k.val
    omega)

/-- The runtime's barrier semaphore, and the seven send and seven receive DMA semaphores. -/
abbrev barS : Sem sig := (SemArray.scalar (sig.barrier 0 rfl) : Sems sig S_).sem
def sendS (j : Fin 7) : DmaSem sig := ⟨2 + j.val, by have := j.isLt; show 2 + j.val < 16; omega⟩
def recvS (j : Fin 7) : DmaSem sig := ⟨9 + j.val, by have := j.isLt; show 9 + j.val < 16; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- Which transfer cell a semaphore is: `(false, j)` the send cell of copy `j`, `(true, j)` its receive cell. -/
def semKind : SemLoc sig → Option (Bool × Fin 7)
  | .dma q => if h : 2 ≤ q.val ∧ q.val < 9 then some (false, ⟨q.val - 2, by omega⟩)
              else if h' : 9 ≤ q.val ∧ q.val < 16 then some (true, ⟨q.val - 9, by omega⟩) else none
  | _ => none

theorem semKind_send (j : Fin 7) : semKind (.dma (sendS j)) = some (false, j) := by revert j; decide
theorem semKind_recv (j : Fin 7) : semKind (.dma (recvS j)) = some (true, j) := by revert j; decide
theorem semKind_bar : semKind (.reg barS) = none := rfl

abbrev N : ℕ := (slotM 1 : Memref sig .tc .vmem S1x1024 .f32).view.dmaCredit
theorem N_pos : 0 < N := View.dmaCredit_pos _ (by decide)

/-! ## Contents -/

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))

abbrev scrLoc (c : Dev nD) : Loc nD τ sig := (c : Thread nD τ).loc cc0_scratch0

/-- The exchange buffer of `c` with its column maxima stored in row 0 (over the contents at launch). -/
def src0 (c : Dev nD) : Buf (Elt F) (scrLoc c) :=
  ((scrM : Memref sig .tc .vmem S8x1x1024 .f32).access (slotRect 0) : View sig .tc _ _ _).write (Elt F) (m (scrLoc c)) (k0_pay2 (xstg m c)) Finset.univ

/-- The exchange buffer of `c` with row `j + 1` holding what copy `j` of device `c - (j + 1)` carries. -/
def land (c : Dev nD) (j : Fin 7) : Buf (Elt F) (scrLoc c) :=
  (slotM j.succ : Memref sig .tc .vmem S1x1024 .f32).view.write (Elt F) (m (scrLoc c))
    ((slotM 0 : Memref sig .tc .vmem S1x1024 .f32).view.read (Elt F) (src0 m (psub c j))) Finset.univ

def slotPts (c : Dev nD) (k : Fin 8) (q : PosShare TreeShare) (f : Buf (Elt F) (scrLoc c)) : sProp 𝕄 :=
  (slotM k : Memref sig .tc .vmem S1x1024 .f32).view.loc (c : Thread nD τ) ↦[(slotM k : Memref sig .tc .vmem S1x1024 .f32).view.set]{q} f

instance slotPts_storable (c : Dev nD) (k : Fin 8) (q) (f) : BI.Storable (upEmb : UEmb _ 𝕄) (slotPts (F := F) c k q f) := by
  unfold slotPts; infer_instance

/-! ## The schedule -/

/-- Duty `j` of `c`'s barrier cell is paid by the destination of `c`'s copy `j`: it hands `c` its row `j + 1` and that
    its receive cell `j` is open. -/
def barPay (c : Dev nD) (j : Fin 7) : sProp 𝕄 :=
  iprop((∃ f, slotPts (padd c j) j.succ fullShare f) ∗ reached ER (recvCell (padd c j) j) 0)
def recvPay (c : Dev nD) (j : Fin 7) : sProp 𝕄 := slotPts c j.succ fullShare (land m c j)
def sendPay (c : Dev nD) (j : Fin 7) : sProp 𝕄 := slotPts c 0 (Transfers.shareTok fullShare 7 j) (src0 m c)

def payOf (c : Dev nD) (sm : SemLoc sig) (d : Fin 7) : sProp 𝕄 :=
  if sm = .reg barS then barPay c d else
    match semKind sm with
    | some (false, j) => sendPay m c j
    | some (true, j) => recvPay m c j
    | none => iprop(emp)

/-- One round. A barrier cell has seven duties of one unit; a send or a receive cell one duty of the row's credit. -/
def Rd : Rounds.Schedule (GSem nD τ sig) (Fin 7) 𝕄 where
  duties g r := if r = 0 ∧ g.1.2 = .tc then (if g.2 = .reg barS then Finset.univ else if (semKind g.2).isSome then {0} else ∅) else ∅
  unitless _ := False
  amount g _ _ := if g.2 = .reg barS then 1 else N
  payload g _ d := payOf m g.1.1 g.2 d
  amount_pos g _ _ _ := by
    by_cases h : g.2 = .reg barS
    · rw [if_pos h]; exact Nat.one_pos
    · rw [if_neg h]; exact N_pos

instance Rd_payload_storable (g : GSem nD τ sig) (r : ℕ) (d : Fin 7) :
    BI.Storable (upEmb : UEmb _ 𝕄) ((Rd (F := F) m).payload g r d) := by
  show BI.Storable upEmb (payOf m g.1.1 g.2 d)
  unfold payOf barPay recvPay sendPay
  (repeat' split) <;> infer_instance

section Sched
variable (c : Dev nD) (j : Fin 7)

theorem send_ne_bar : (SemLoc.dma (sendS j) : SemLoc sig) ≠ .reg barS := fun h => by cases h
theorem recv_ne_bar : (SemLoc.dma (recvS j) : SemLoc sig) ≠ .reg barS := fun h => by cases h

theorem duties_bar : (Rd (F := F) m).duties (barCell c) 0 = Finset.univ := by
  dsimp only [Rd]; rw [if_pos ⟨rfl, rfl⟩, if_pos rfl]
theorem duties_send : (Rd (F := F) m).duties (sendCell c j) 0 = {0} := by
  dsimp only [Rd]; rw [if_pos ⟨rfl, rfl⟩, if_neg (send_ne_bar j), semKind_send]; rfl
theorem duties_recv : (Rd (F := F) m).duties (recvCell c j) 0 = {0} := by
  dsimp only [Rd]; rw [if_pos ⟨rfl, rfl⟩, if_neg (recv_ne_bar j), semKind_recv]; rfl
theorem duties_later (g : GSem nD τ sig) : ∀ r, 1 ≤ r → (Rd (F := F) m).duties g r = ∅ :=
  fun r hr => by dsimp only [Rd]; rw [if_neg fun h => by omega]

theorem amount_bar (d : Fin 7) : (Rd (F := F) m).amount (barCell c) 0 d = 1 := by dsimp only [Rd]; exact if_pos rfl
theorem amount_send (d : Fin 7) : (Rd (F := F) m).amount (sendCell c j) 0 d = N := by dsimp only [Rd]; exact if_neg (send_ne_bar j)
theorem amount_recv (d : Fin 7) : (Rd (F := F) m).amount (recvCell c j) 0 d = N := by dsimp only [Rd]; exact if_neg (recv_ne_bar j)

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

theorem payload_bar (d : Fin 7) : (Rd (F := F) m).payload (barCell c) 0 d = barPay c d := by
  show payOf m c (.reg barS) d = _; unfold payOf; rw [if_pos rfl]
theorem payload_send (d : Fin 7) : (Rd (F := F) m).payload (sendCell c j) 0 d = sendPay m c j := by
  show payOf m c (.dma (sendS j)) d = _; unfold payOf; rw [if_neg (send_ne_bar j), semKind_send]
theorem payload_recv (d : Fin 7) : (Rd (F := F) m).payload (recvCell c j) 0 d = recvPay m c j := by
  show payOf m c (.dma (recvS j)) d = _; unfold payOf; rw [if_neg (recv_ne_bar j), semKind_recv]

theorem rest_send : bigSep ((Rd (F := F) m).duties (sendCell c j) 0 \ ∅) (fun d => (Rd (F := F) m).payload (sendCell c j) 0 d) = sendPay m c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]
theorem rest_bar : bigSep ((Rd (F := F) m).duties (barCell c) 0 \ ∅) (fun d => (Rd (F := F) m).payload (barCell c) 0 d) = bigSep Finset.univ (fun d : Fin 7 => barPay (F := F) c d) := by
  rw [Finset.sdiff_empty, duties_bar]; exact bigSep_congr fun d _ => payload_bar m c d

end Sched

end Cert.KernelIdeal.Coll

end
-- ==== Proof.KI.Data.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.KI.Sched
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- For each of its seven copies a device owes the destination's receive cell the row's credit, and the destination's
    barrier cell one unit. -/
def owe (j : Fin 7) (c : Dev nD) : CellTallies nD τ sig Unit :=
  tallyAt (recvCell (padd c j) j) () N + tallyAt (barCell (padd c j)) () 1
def O₀ (c : Dev nD) : CellTallies nD τ sig Unit := ∑ j : Fin 7, owe j c

/-- What is still owed after the seven signals: the seven receive credits. -/
def OR (c : Dev nD) : CellTallies nD τ sig Unit := ∑ j : Fin 7, tallyAt (recvCell (padd c j) j) () N

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match semKind g.2 with
    | some (true, _) => 2
    | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (j : Fin 7) (u : Unit) : lv (recvCell c j) u = 2 := by
  unfold lv; rw [if_neg (recv_ne_bar j), semKind_recv]
theorem lv_send (c : Dev nD) (j : Fin 7) (u : Unit) : lv (sendCell c j) u = 0 := by
  unfold lv; rw [if_neg (send_ne_bar j), semKind_send]

theorem OR_pos {c : Dev nD} {g : GSem nD τ sig} {u : Unit} (h : 0 < OR c g u) : ∃ j, g = recvCell (padd c j) j := by
  obtain ⟨j, -, hj⟩ := Pipeline.sum_pos_exists h
  exact ⟨j, (Pipeline.tallyAt_pos hj).1⟩

theorem O₀_pos {c : Dev nD} {g : GSem nD τ sig} {u : Unit} (h : 0 < O₀ c g u) :
    ∃ j, g = recvCell (padd c j) j ∨ g = barCell (padd c j) := by
  obtain ⟨j, -, hj⟩ := Pipeline.sum_pos_exists h
  rcases Pipeline.add_pos_cases hj with h1 | h1
  · exact ⟨j, .inl (Pipeline.tallyAt_pos h1).1⟩
  · exact ⟨j, .inr (Pipeline.tallyAt_pos h1).1⟩

/-- A staging cell's wait (level 0) is below everything a device may owe. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    obtain ⟨j, rfl | rfl⟩ := O₀_pos hg
    · exact ⟨by rw [L_tc]; exact Finset.mem_singleton_self _, by rw [hq, lv_recv]; decide⟩
    · exact ⟨by rw [L_tc]; exact Finset.mem_singleton_self _, by rw [hq, lv_bar]; decide⟩
  · rw [MayWait_zero]; iintro -; iempintro

/-- At its barrier wait a device owes receive credits only: receive cells are above the barrier cells. -/
theorem mayWait_bar (c : Dev nD) :
    (levAts L lv : sProp 𝕄) ⊢ MayWait (c : Thread nD τ) (.reg barS) () (OR c) :=
  Pipeline.mayWait_of_levAts (by rw [L_tc]; exact Finset.mem_singleton_self _) fun g i hg => by
    obtain ⟨j, rfl⟩ := OR_pos hg
    exact ⟨by rw [L_tc]; exact Finset.mem_singleton_self _, by rw [lv_bar, lv_recv]; decide⟩

/-! ## The cells of one device, indexed; the kernel's own semaphores -/

abbrev CellIx : Type := Unit ⊕ (Fin 7 ⊕ Fin 7)
abbrev csem : CellIx → SemLoc sig
  | .inl _ => .reg barS
  | .inr (.inl j) => .dma (sendS j)
  | .inr (.inr j) => .dma (recvS j)
abbrev osem : Fin 7 ⊕ Fin 7 → SemLoc sig := fun k => csem (.inr k)
abbrev kcell (ck : Dev nD × CellIx) : GSem nD τ sig := ((ck.1 : Thread nD τ), csem ck.2)

theorem csem_injective : Function.Injective csem := by
  intro a b h
  rcases a with ⟨⟩ | a | a <;> rcases b with ⟨⟩ | b | b
  · rfl
  · exact absurd h.symm (send_ne_bar b)
  · exact absurd h.symm (recv_ne_bar b)
  · exact absurd h (send_ne_bar a)
  · have := congrArg semKind h; rw [semKind_send, semKind_send] at this; cases this; rfl
  · have := congrArg semKind h; rw [semKind_send, semKind_recv] at this; cases this
  · exact absurd h (recv_ne_bar a)
  · have := congrArg semKind h; rw [semKind_recv, semKind_send] at this; cases this
  · have := congrArg semKind h; rw [semKind_recv, semKind_recv] at this; cases this; rfl

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## Values -/

abbrev r0x : Rect S4096x1024 := Rect.unit (s := S4096x1024) ![0, 0] S4096x1024.size inb_S4096x1024_S4096x1024_0_0
abbrev r0o : Rect S1x1024 := Rect.unit (s := S1x1024) ![0, 0] S1x1024.size inb_S1x1024_S1x1024_0_0

/-- What device `c` loads from row `j + 1` of its exchange buffer once copy `j` of device `c - (j + 1)` has landed. -/
def ld (c : Dev nD) (j : Fin 7) : Vec F S1x1x1024 .f32 :=
  (scrM : Memref sig .tc .vmem S8x1x1024 .f32).view.readAt (Elt F) (slotRect j.succ).toLoadRect (land m c j)

/-- The kernel's result on device `c`: its own column maxima joined with the seven rows received. -/
def outAt (c : Dev nD) : (cc0_stg1_0 : Ref sig .tc).ty.Contents (Elt F) :=
  k0_pay5 (k0_pay4 (k0_pay3 (k0_pay1 (xstg m c)) (ld m c 0) (ld m c 1) (ld m c 2)) (ld m c 3) (ld m c 4)) (ld m c 5) (ld m c 6)

/-! ## The ghost state -/

/-- The cells' invariants under the names the launch allocated them at, and that every cell is at round 0: persistent,
    every device holds the whole family. -/
def records (K : Dev nD × CellIx → ℕ) : sProp 𝕄 :=
  iprop((bigSep Finset.univ fun ck : Dev nD × CellIx => cellInv ER (Rd m) (K ck) (kcell ck))
    ∗ bigSep Finset.univ fun ck : Dev nD × CellIx => reached ER (kcell ck) 0)

instance records_persistent (K : Dev nD × CellIx → ℕ) : BI.Persistent (records m K) := by unfold records; infer_instance

theorem inv_at (K : Dev nD × CellIx → ℕ) (ck : Dev nD × CellIx) :
    records m K ⊢ cellInv ER (Rd m) (K ck) (kcell ck) := by
  unfold records; exact (BI.sep_and.trans BI.and_elimL).trans (bigSep_elim (Finset.mem_univ ck))
theorem reached_at (K : Dev nD × CellIx → ℕ) (ck : Dev nD × CellIx) :
    records m K ⊢ reached ER (kcell ck) 0 := by
  unfold records; exact (BI.sep_and.trans BI.and_elimR).trans (bigSep_elim (Finset.mem_univ ck))

/-- The tokens of the duties device `c` pays: per copy `j`, the destination's barrier duty it is the payer of, the
    destination's receive duty, its own send duty. -/
def payTok (c : Dev nD) (j : Fin 7) : sProp 𝕄 :=
  iprop(dutyTok ER (barCell (padd c j)) 0 j.rev ∗ dutyTok ER (recvCell (padd c j) j) 0 0 ∗ dutyTok ER (sendCell c j) 0 0)
/-- Its positions at round 0 of its fifteen cells. -/
def posAt (c : Dev nD) : sProp 𝕄 :=
  iprop(atPos ER (barCell c) 0 ∅ 0 ∗ bigSep Finset.univ fun j : Fin 7 => iprop(atPos ER (sendCell c j) 0 ∅ 0 ∗ atPos ER (recvCell c j) 0 ∅ 0))
def linear (c : Dev nD) : sProp 𝕄 := iprop(posAt c ∗ bigSep Finset.univ fun j : Fin 7 => payTok c j)

def ghost (K : Dev nD × CellIx → ℕ) (c : Dev nD) : sProp 𝕄 := iprop(records m K ∗ linear c)

/-- What device `c`'s body starts from: that at some names, its credit tokens (one unit of its barrier cell per peer, each
    receive cell's credit) and the level facts. -/
def start (c : Dev nD) : sProp 𝕄 :=
  iprop((∃ K, ghost m K c) ∗ (bigSep Finset.univ fun j : Fin 7 => iprop(cred (tallyAt (recvCell c j) () N) ∗ cred (tallyAt (barCell c) () 1)))
    ∗ levAts L lv)

def Φ₀ (c : Dev nD) : sProp 𝕄 := iprop(start m c ∗ ∃ f : Buf (Elt F) (scrLoc c), (scrLoc c) ↦{fullShare} f)
/-- After the point: the exchange buffer whole again, the fourteen own cells at zero, closed. -/
def Φ₁ (c : Dev nD) : sProp 𝕄 :=
  iprop((∃ f : Buf (Elt F) (scrLoc c), (scrLoc c) ↦{fullShare} f) ∗ bigSep Finset.univ fun k : Fin 7 ⊕ Fin 7 => semVal ((c : Thread nD τ), osem k) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_fin7 {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.KernelIdeal.Coll

end
-- ==== Proof.KI.Slots.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.KI.Sched
import proofs.«900374_g7700000000000375_dist_max_ax0_shard0_i_m4096_n1024_v7x_i8_bf16_1_alg».proof.Proof.KI.Data
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange buffer is its eight rows -/

theorem slotPts_eq (c : Dev nD) (k : Fin 8) (q : PosShare TreeShare) (f : Buf (Elt F) (scrLoc c)) :
    slotPts c k q f = ((scrLoc c) ↦[(slotRect k).set]{q} f : sProp 𝕄) := by
  unfold slotPts; rw [slot_set]

/-- Every index of the buffer lies in the row its first coordinate names. -/
theorem slots_cover : (Finset.univ : Finset (Fin 8)).biUnion (fun k => (slotRect k).set) = Finset.univ := by
  ext i
  simp only [Finset.mem_biUnion, Finset.mem_univ, true_and, iff_true]
  refine ⟨i 0, ?_⟩
  rw [Rect.mem_set_unit]
  intro a
  have h1 : (i 1).val < 1 := (i 1).isLt
  have h2 : (i 2).val < 1024 := (i 2).isLt
  match a with
  | ⟨0, _⟩ => exact ⟨le_refl _, Nat.lt_succ_self _⟩
  | ⟨1, _⟩ => exact ⟨Nat.zero_le _, by show (i 1).val < 0 + 1; omega⟩
  | ⟨2, _⟩ => exact ⟨Nat.zero_le _, by show (i 2).val < 0 + 1024; omega⟩

set_option maxHeartbeats 2000000 in
theorem scr_split (c : Dev nD) (f : Buf (Elt F) (scrLoc c)) :
    ((scrLoc c) ↦{fullShare} f : sProp 𝕄) ⊢ bigSep Finset.univ fun k : Fin 8 => slotPts c k fullShare f := by
  have h : ((scrLoc c) ↦[(Finset.univ : Finset (Fin 8)).biUnion (fun k => (slotRect k).set)]{fullShare} f : sProp 𝕄)
      = bigSep Finset.univ fun k : Fin 8 => ((scrLoc c) ↦[(slotRect k).set]{fullShare} f : sProp 𝕄) :=
    pointsTo_biUnion (ℓ := scrLoc c) (q := fullShare) (f := f) (Finset.univ : Finset (Fin 8)) (fun k => (slotRect k).set) (fun k _ k' _ hne => slot_disjoint hne)
  rw [slots_cover] at h
  simp only [slotPts_eq]
  exact Entails.of_eq h

set_option maxHeartbeats 2000000 in
theorem scr_join (c : Dev nD) (fs : Fin 8 → Buf (Elt F) (scrLoc c)) :
    (bigSep Finset.univ fun k : Fin 8 => slotPts c k fullShare (fs k)) ⊢ (iprop(∃ g : Buf (Elt F) (scrLoc c), (scrLoc c) ↦{fullShare} g) : sProp 𝕄) := by
  simp only [slotPts_eq]
  refine (pointsTo_biUnion_join (ℓ := scrLoc c) (q := fullShare) (Finset.univ : Finset (Fin 8)) (fun k => (slotRect k).set) fs (fs 0)
    (fun k _ k' _ hne => slot_disjoint hne)).trans ?_
  rw [slots_cover]
  iintro ⟨%g, -, H⟩
  iexists g; iexact H

theorem bigSep_fin8 {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Seven units of credit on one cell are one credit of seven. -/
theorem cred_seven (g : GSem nD τ sig) :
    (bigSep Finset.univ fun _ : Fin 7 => (cred (tallyAt g () 1) : sProp 𝕄)) ⊢ cred (tallyAt g () 7) := by
  rw [bigSep_fin7]
  iintro ⟨H0, H1, H2, H3, H4, H5, H6⟩
  have e : (tallyAt g () 7 : CellTallies nD τ sig Unit) = tallyAt g () 1 + (tallyAt g () 1 + (tallyAt g () 1 + (tallyAt g () 1 + (tallyAt g () 1 + (tallyAt g () 1 + tallyAt g () 1))))) := by
    simp only [tallyAt_add]
  rw [e]
  iapply (cred_add _ _).2; isplitl [H0]; · iexact H0
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iexact H6

end Cert.KernelIdeal.Coll

end
-- ==== Proof.KI.Steps.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.KI.Sched
import proofs.«900374_g7700000000000375_dist_max_ax0_shard0_i_m4096_n1024_v7x_i8_bf16_1_alg».proof.Proof.KI.Data
import proofs.«900374_g7700000000000375_dist_max_ax0_shard0_i_m4096_n1024_v7x_i8_bf16_1_alg».proof.Proof.KI.Slots
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inv_bar (K : Dev nD × CellIx → ℕ) (d : Dev nD) : records m K ⊢ cellInv ER (Rd m) (K (d, .inl ())) (barCell d) := inv_at m K (d, .inl ())
theorem inv_send (K : Dev nD × CellIx → ℕ) (d : Dev nD) (j : Fin 7) : records m K ⊢ cellInv ER (Rd m) (K (d, .inr (.inl j))) (sendCell d j) := inv_at m K (d, .inr (.inl j))
theorem inv_recv (K : Dev nD × CellIx → ℕ) (d : Dev nD) (j : Fin 7) : records m K ⊢ cellInv ER (Rd m) (K (d, .inr (.inr j))) (recvCell d j) := inv_at m K (d, .inr (.inr j))
theorem reached_bar (K : Dev nD × CellIx → ℕ) (d : Dev nD) : records m K ⊢ reached ER (barCell d) 0 := reached_at m K (d, .inl ())
theorem reached_send (K : Dev nD × CellIx → ℕ) (d : Dev nD) (j : Fin 7) : records m K ⊢ reached ER (sendCell d j) 0 := reached_at m K (d, .inr (.inl j))
theorem reached_recv (K : Dev nD × CellIx → ℕ) (d : Dev nD) (j : Fin 7) : records m K ⊢ reached ER (recvCell d j) 0 := reached_at m K (d, .inr (.inr j))

/-- Two writes of one payload through a view agree on the view's elements, whatever they overwrite. -/
theorem write_congr_set {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  obtain ⟨y, rfl⟩ := View.exists_emb_of_mem_set v hi
  rw [View.write_emb_of_mem f w (Finset.mem_univ y), View.write_emb_of_mem f' w (Finset.mem_univ y)]

/-- Row 0 of device `d`'s exchange buffer once its column maxima are stored: what each of its copies carries. -/
def row0 (d : Dev nD) : S1x1024.Idx → Elt F .f32 := (slotM 0 : Memref sig .tc .vmem S1x1024 .f32).view.read (Elt F) (src0 m d)

theorem land_eq (c : Dev nD) (j : Fin 7) :
    land m c j = (slotM j.succ : Memref sig .tc .vmem S1x1024 .f32).view.write (Elt F) (m (scrLoc c)) (row0 m (psub c j)) Finset.univ := rfl

section Steps
variable (K : Dev nD × CellIx → ℕ)

/-- What the payer of duty `j.rev` of `padd c j`'s barrier cell hands over is stated of `c` itself. -/
theorem barPay_paid (c : Dev nD) (j : Fin 7) :
    iprop((∃ f, slotPts (F := F) c j.rev.succ fullShare f) ∗ reached ER (recvCell c j.rev) 0) ⊢ barPay (F := F) (padd c j) j.rev := by
  unfold barPay
  rw [padd_padd_rev]

/-- Signal `j`: device `c` tells `padd c j` it has entered, handing it the row that device's copy will land in. -/
theorem wp_sig (c : Dev nD) (j : Fin 7) (dst : Dev nD) (hdst : dst = padd c j) (O : CellTallies nD τ sig Unit) (W : Waits sig Unit)
    (f : Buf (Elt F) (scrLoc c)) {α : Type} {Q : α → sProp 𝕄} {k : PUnit → Prog (TpuEff nD τ sig (Elt F) Λ₀ .tc) α} :
    iprop(records m K ∗ owes (c : Thread nD τ) (O + tallyAt (barCell (padd c j)) () 1) W ∗ dutyTok ER (barCell (padd c j)) 0 j.rev
        ∗ slotPts c j.rev.succ fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dst : Thread nD τ) barS 1) k) Q) := by
  subst hdst
  iintro ⟨#HR, HO, Ht, Hs⟩
  iapply (Rounds.wp_signal 𝒱₀ ER (Rd m) (c : Thread nD τ) none (dst := (padd c j : Thread nD τ)) (κ := K (padd c j, .inl ()))
      (d := j.rev) (by rw [duties_bar]; exact Finset.mem_univ _) (amount_bar m (padd c j) j.rev) () O rfl) $$ [HO Ht Hs]
  · isplitr; · iapply (inv_bar m K (padd c j)); iexact HR
    isplitl [HO]; · iexact HO
    isplitl [Ht]; · iexact Ht
    isplitl [Hs]
    · rw [payload_bar]
      iapply (barPay_paid c j)
      isplitl [Hs]; · iexists f; iexact Hs
      iapply (reached_recv m K c j.rev); iexact HR
    · iapply (reached_bar m K (padd c j)); iexact HR

set_option maxHeartbeats 3200000 in
/-- Copy `j`: row 0 of `c` to row `j + 1` of `padd c j`. -/
theorem wp_snd (c : Dev nD) (j : Fin 7) (n : Dev nD) (hn : n = padd c j)
    {hsc : (slotM j.succ : Memref sig (Dev.tc n : Thread nD τ).2.kind .vmem S1x1024 .f32).view.ref.isScScratch = false}
    {hsrc : (slotM 0 : Memref sig .tc .vmem S1x1024 .f32).view.WordExact} {hdst : (slotM j.succ : Memref sig .tc .vmem S1x1024 .f32).view.WordExact}
    {hsem : DmaTarget.Typed .vmem (.dma (recvS j)) (.remote (Dev.tc n : Thread nD τ) (slotM j.succ : Memref sig .tc .vmem S1x1024 .f32) (.dma (sendS j)) hsc)}
    {α : Type} {Q : α → sProp 𝕄} {k : PUnit → Prog (TpuEff nD τ sig (Elt F) Λ₀ .tc) α}
    (fn : Buf (Elt F) (scrLoc (padd c j))) (O : CellTallies nD τ sig Unit) (W : Waits sig Unit) :
    iprop(records m K ∗ slotPts c 0 (Transfers.shareTok fullShare 7 j) (src0 m c) ∗ slotPts (padd c j) j.succ fullShare fn
        ∗ owes (c : Thread nD τ) (O + tallyAt (recvCell (padd c j) j) () N) W
        ∗ dutyTok ER (sendCell c j) 0 0 ∗ dutyTok ER (recvCell (padd c j) j) 0 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM j.succ) (.dma (sendS j)) hsc) (.dma (recvS j)) hsrc hdst hsem) k) Q) := by
  subst hn
  iintro ⟨#HR, Hsrc, Hdst, HO, HtS, HtV⟩
  unfold slotPts
  iapply (Rounds.wp_send_pointsTo 𝒱₀ ER (Rd m) (c : Thread nD τ) none (κ₁ := K (c, .inr (.inl j))) (κ₂ := K (padd c j, .inr (.inr j)))
    (c' := (Dev.tc (padd c j) : Thread nD τ)) (src := (slotM 0 : Memref sig .tc .vmem S1x1024 .f32)) (dst := (slotM j.succ : Memref sig .tc .vmem S1x1024 .f32))
    (sS := .dma (sendS j)) (sem := .dma (recvS j))
    (r₁ := 0) (r₂ := 0) (d₁ := 0) (d₂ := 0) (fd := fn) (q := Transfers.shareTok fullShare 7 j) (fs := src0 m c)
    (by rw [duties_send]; exact Finset.mem_singleton_self _) (by rw [duties_recv]; exact Finset.mem_singleton_self _)
    () () N rfl (amount_send m c j 0) (amount_recv m (padd c j) j 0) O rfl (W := W)
    (by rw [payload_send]; unfold sendPay slotPts; exact BI.Entails.refl _)
    (by
      rw [payload_recv]; unfold recvPay slotPts
      rw [land_eq, psub_padd]; unfold row0
      exact Entails.of_eq (pointsTo_congr (write_congr_set (slotM j.succ : Memref sig .tc .vmem S1x1024 .f32).view fn (m (scrLoc (padd c j)))
        ((slotM 0 : Memref sig .tc .vmem S1x1024 .f32).view.read (Elt F) (src0 m c)))))) $$ [Hsrc Hdst HO HtS HtV]
  · isplitr; · iapply (inv_send m K c j); iexact HR
    isplitr; · iapply (inv_recv m K (padd c j) j); iexact HR
    isplitl [Hsrc]; · iexact Hsrc
    isplitl [Hdst]; · iexact Hdst
    isplitl [HO]; · iexact HO
    isplitl [HtS]; · iexact HtS
    isplitr; · iapply (reached_send m K c j); iexact HR
    isplitl [HtV]; · iexact HtV
    iapply (reached_recv m K (padd c j) j); iexact HR

/-- The wait for copy `j` of `psub c j`: row `j + 1` comes back holding that device's column maxima. -/
theorem wp_rcvwait (c : Dev nD) (j : Fin 7) (W : Waits sig Unit)
    {sp sp' : Space} {s s' : Shape} {e e' : EltTy} {src : Memref sig .tc sp' s' e'} {dst : Memref sig .tc sp s e}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m K ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) 1 ∅ 0 ∗ slotPts c j.succ fullShare (land m c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) src dst hsrc hdst) k) Q) := by
  iintro ⟨#HR, Hc, HO, Hat⟩ Hk
  have e1 : (tallyAt (recvCell c j) () N : CellTallies nD τ sig Unit) = tallyAt (recvCell c j) () dst.view.dmaCredit := by rw [hcr]
  rw [e1]
  iapply (Rounds.wp_wait_rest_token 𝒱₀ ER (Rd m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv, hcr])) $$ [Hc HO Hat] [Hk]
  · isplitr; · iapply (inv_recv m K c j); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  iapply Hk
  isplitl [HO]; · iexact HO
  isplitl [Hat]; · iexact Hat
  unfold recvPay; iexact Hp

/-- The wait for the departure of copy `j`: its share of row 0 comes back. -/
theorem wp_sndwait (c : Dev nD) (j : Fin 7) (W : Waits sig Unit)
    {sp sp' : Space} {s s' : Shape} {e e' : EltTy} {src : Memref sig .tc sp' s' e'} {dst : Memref sig .tc sp s e}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0
              ∗ slotPts c 0 (Transfers.shareTok fullShare 7 j) (src0 m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) src dst hsrc hdst) k) Q) := by
  iintro ⟨#HR, Hc, HO, Hat⟩ Hk
  have e1 : (tallyAt (sendCell c j) () N : CellTallies nD τ sig Unit) = tallyAt (sendCell c j) () dst.view.dmaCredit := by rw [hcr]
  rw [e1]
  iapply (Rounds.wp_wait_rest_token 𝒱₀ ER (Rd m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send, hcr])) $$ [Hc HO Hat] [Hk]
  · isplitr; · iapply (inv_send m K c j); iexact HR
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  iapply Hk
  isplitl [HO]; · iexact HO
  isplitl [Hat]; · iexact Hat
  unfold sendPay; iexact Hp

/-- The wait for all seven peers on the barrier cell, still owing the seven receive credits: every peer's row comes with it. -/
theorem wp_barwait (c : Dev nD) (W : Waits sig Unit)
    {α : Type} {Q : α → sProp 𝕄} {k : PUnit → Prog (TpuEff nD τ sig (Elt F) Λ₀ .tc) α} :
    iprop(records m K ∗ cred (tallyAt (barCell c) () 7) ∗ owes (c : Thread nD τ) (OR c) W ∗ levAts L lv ∗ atPos ER (barCell c) 0 ∅ 0)
      ⊢ iprop(((owes (c : Thread nD τ) (OR c) (insert (SemLoc.reg barS, ()) W) ∗ atPos ER (barCell c) 1 ∅ 0
              ∗ bigSep Finset.univ (fun d : Fin 7 => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  iintro ⟨#HR, Hc, HO, #Hlev, Hat⟩ Hk
  iapply (Rounds.wp_wait_rest_token 𝒱₀ ER (Rd m) (c : Thread nD τ) none (κ := K (c, .inl ()))
      (wpE_semWait_eq 𝒱₀ (c : Thread nD τ) none Set.univ) (Set.mem_univ _) () (O := OR c) (W := W) (R := 0) (m := 0) (T := ∅)
      (by rw [expect_bar])) $$ [Hc HO Hat] [Hk]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

end Steps

end Cert.KernelIdeal.Coll

end
-- ==== Proof.KI.Body.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.KI.Sched
import proofs.«900374_g7700000000000375_dist_max_ax0_shard0_i_m4096_n1024_v7x_i8_bf16_1_alg».proof.Proof.KI.Data
import proofs.«900374_g7700000000000375_dist_max_ax0_shard0_i_m4096_n1024_v7x_i8_bf16_1_alg».proof.Proof.KI.Slots
import proofs.«900374_g7700000000000375_dist_max_ax0_shard0_i_m4096_n1024_v7x_i8_bf16_1_alg».proof.Proof.KI.Steps
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is owed, as the chains the statements peel in program order -/

theorem O₀_chain (c : Dev nD) : O₀ c = OR c + tallyAt (barCell (padd c 6)) () 1 + tallyAt (barCell (padd c 5)) () 1 + tallyAt (barCell (padd c 4)) () 1 + tallyAt (barCell (padd c 3)) () 1 + tallyAt (barCell (padd c 2)) () 1 + tallyAt (barCell (padd c 1)) () 1 + tallyAt (barCell (padd c 0)) () 1 := by
  unfold O₀ owe OR; rw [Fin.sum_univ_seven, Fin.sum_univ_seven]; ac_rfl
theorem OR_chain (c : Dev nD) : OR c = 0 + tallyAt (recvCell (padd c 6) 6) () N + tallyAt (recvCell (padd c 5) 5) () N + tallyAt (recvCell (padd c 4) 4) () N + tallyAt (recvCell (padd c 3) 3) () N + tallyAt (recvCell (padd c 2) 2) () N + tallyAt (recvCell (padd c 1) 1) () N + tallyAt (recvCell (padd c 0) 0) () N := by
  unfold OR; rw [Fin.sum_univ_seven, zero_add]; ac_rfl

theorem cred_seven' (g : GSem nD τ sig) :
    iprop(cred (tallyAt g () 1) ∗ cred (tallyAt g () 1) ∗ cred (tallyAt g () 1) ∗ cred (tallyAt g () 1) ∗ cred (tallyAt g () 1) ∗ cred (tallyAt g () 1) ∗ cred (tallyAt g () 1))
      ⊢ (cred (tallyAt g () 7) : sProp 𝕄) := by
  refine Entails.trans (Entails.of_eq ?_) (cred_seven g)
  rw [bigSep_fin7]

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem whole_pts_eq (b : Ref sig .tc) (c : Dev nD) (X : Buf (Elt F) ((c : Thread nD τ).loc b)) :
    (((Memref.whole b : Memref sig .tc _ _ _).view.loc (c : Thread nD τ)) ↦[(Memref.whole b : Memref sig .tc _ _ _).view.set]{fullShare} X : sProp 𝕄)
      = (((c : Thread nD τ).loc b) ↦{fullShare} X) := by
  simp only [Memref.view_whole, View.set_whole]

theorem hz2 : (![0, 0] : Fin 2 → Nat) = fun _ => 0 := funext fun a => by fin_cases a <;> rfl
theorem read_x (f : (cc0_stg0_0 : Ref sig .tc).ty.Contents (Elt F)) : (xM : Memref sig .tc .vmem S4096x1024 .f32).view.readAt (Elt F) r0x.toLoadRect f = f :=
  Memref.readAt_unit_zero (Elt F) cc0_stg0_0 hz2 _ f
theorem write_out (f w : (cc0_stg1_0 : Ref sig .tc).ty.Contents (Elt F)) :
    ((oM : Memref sig .tc .vmem S1x1024 .f32).access r0o : View sig .tc _ _ _).write (Elt F) f w Finset.univ = w :=
  Memref.write_access_unit_zero_univ (Elt F) cc0_stg1_0 hz2 _ f w

theorem access_set (k : Fin 8) : ((scrM : Memref sig .tc .vmem S8x1x1024 .f32).access (slotRect k) : View sig .tc _ _ _).set = (slotRect k).set := by
  show ((View.whole cc0_scratch0).slice (slotRect k)).set = _
  rw [View.set_slice_whole]

/-- Row 0 after the store holds the device's column maxima, whatever the buffer held before. -/
theorem slot0_norm (c : Dev nD) (f0 : Buf (Elt F) (scrLoc c)) :
    (((slotM 0 : Memref sig .tc .vmem S1x1024 .f32).view.loc (c : Thread nD τ)) ↦[(slotM 0 : Memref sig .tc .vmem S1x1024 .f32).view.set]{fullShare}
        (View.write (Elt F) ((scrM : Memref sig .tc .vmem S8x1x1024 .f32).access (Rect.unit (s := S8x1x1024) ![0, 0, 0] S1x1x1024.size inb_S8x1x1024_S1x1x1024_0_0_0)) f0
          (k0_pay2 ((xM : Memref sig .tc .vmem S4096x1024 .f32).view.readAt (Elt F) r0x.toLoadRect (xstg m c))) Finset.univ) : sProp 𝕄)
      = (((slotM 0 : Memref sig .tc .vmem S1x1024 .f32).view.loc (c : Thread nD τ)) ↦[(slotM 0 : Memref sig .tc .vmem S1x1024 .f32).view.set]{fullShare} src0 m c) := by
  rw [read_x]
  unfold src0
  refine pointsTo_congr fun i hi => ?_
  refine write_congr_set ((scrM : Memref sig .tc .vmem S8x1x1024 .f32).access (slotRect 0) : View sig .tc _ _ _) f0 (m (scrLoc c)) _ i ?_
  rw [access_set]; rw [slot_set] at hi; exact hi

/-- Row 0 held whole is its seven copy shares and a remainder; -/
theorem slot0_split (c : Dev nD) (f : Buf (Elt F) (scrLoc c)) :
    (((slotM 0 : Memref sig .tc .vmem S1x1024 .f32).view.loc (c : Thread nD τ)) ↦[(slotM 0 : Memref sig .tc .vmem S1x1024 .f32).view.set]{fullShare} f : sProp 𝕄)
      ⊢ iprop(slotPts c 0 (Transfers.shareDrop fullShare 7) f
      ∗ slotPts c 0 (Transfers.shareTok fullShare 7 0) f ∗ slotPts c 0 (Transfers.shareTok fullShare 7 1) f ∗ slotPts c 0 (Transfers.shareTok fullShare 7 2) f ∗ slotPts c 0 (Transfers.shareTok fullShare 7 3) f ∗ slotPts c 0 (Transfers.shareTok fullShare 7 4) f ∗ slotPts c 0 (Transfers.shareTok fullShare 7 5) f ∗ slotPts c 0 (Transfers.shareTok fullShare 7 6) f) := by
  unfold slotPts
  exact (Transfers.pointsTo_toks_split fullShare 7).trans (sep_mono_right (Entails.of_eq (bigSep_fin7 _)))
/-- and back. -/
theorem slot0_join (c : Dev nD) (f : Buf (Elt F) (scrLoc c)) :
    iprop(slotPts (F := F) c 0 (Transfers.shareDrop fullShare 7) f
      ∗ slotPts c 0 (Transfers.shareTok fullShare 7 0) f ∗ slotPts c 0 (Transfers.shareTok fullShare 7 1) f ∗ slotPts c 0 (Transfers.shareTok fullShare 7 2) f ∗ slotPts c 0 (Transfers.shareTok fullShare 7 3) f ∗ slotPts c 0 (Transfers.shareTok fullShare 7 4) f ∗ slotPts c 0 (Transfers.shareTok fullShare 7 5) f ∗ slotPts c 0 (Transfers.shareTok fullShare 7 6) f) ⊢ slotPts c 0 fullShare f := by
  unfold slotPts
  exact (sep_mono_right (Entails.of_eq (bigSep_fin7 _).symm)).trans (Transfers.pointsTo_toks_join fullShare 7)

theorem scr_join' (c : Dev nD) (g0 g1 g2 g3 g4 g5 g6 g7 : Buf (Elt F) (scrLoc c)) :
    iprop(slotPts (F := F) c 0 fullShare g0 ∗ slotPts c 1 fullShare g1 ∗ slotPts c 2 fullShare g2 ∗ slotPts c 3 fullShare g3 ∗ slotPts c 4 fullShare g4
        ∗ slotPts c 5 fullShare g5 ∗ slotPts c 6 fullShare g6 ∗ slotPts c 7 fullShare g7)
      ⊢ (iprop(∃ g : Buf (Elt F) (scrLoc c), (scrLoc c) ↦{fullShare} g) : sProp 𝕄) := by
  refine Entails.trans (Entails.of_eq ?_) (scr_join c ![g0, g1, g2, g3, g4, g5, g6, g7])
  rw [bigSep_fin8]; rfl

/-- The result's staging buffer after the one store through its whole rectangle holds the payload. -/
theorem out_final (c : Dev nD) (g1 : Buf (Elt F) ((c : Thread nD τ).loc cc0_stg1_0)) (w : (cc0_stg1_0 : Ref sig .tc).ty.Contents (Elt F)) :
    (((Memref.whole cc0_stg1_0 : Memref sig .tc _ _ _).view.loc (c : Thread nD τ)) ↦[(Memref.whole cc0_stg1_0 : Memref sig .tc _ _ _).view.set]{fullShare}
        ((Memref.whole cc0_stg1_0 : Memref sig .tc _ _ _).view.writes (Elt F) g1 [⟨r0o, w⟩]) : sProp 𝕄)
      ⊢ (((c : Thread nD τ).loc cc0_stg1_0) ↦{fullShare} w) := by
  rw [whole_pts_eq]
  exact Entails.of_eq (congrArg _ (write_out g1 w))

/-- The result, with each row's load spelt as the program prints it. -/
theorem outAt_lit (c : Dev nD) : outAt m c =
    k0_pay5 (k0_pay4 (k0_pay3 (k0_pay1 (xstg m c)) (View.readAt (Elt F) (Memref.whole cc0_scratch0 : Memref sig .tc .vmem S8x1x1024 .f32).view (Rect.unit (s := S8x1x1024) ![1, 0, 0] S1x1x1024.size inb_S8x1x1024_S1x1x1024_1_0_0).toLoadRect (land m c 0))
      (View.readAt (Elt F) (Memref.whole cc0_scratch0 : Memref sig .tc .vmem S8x1x1024 .f32).view (Rect.unit (s := S8x1x1024) ![2, 0, 0] S1x1x1024.size inb_S8x1x1024_S1x1x1024_2_0_0).toLoadRect (land m c 1))
      (View.readAt (Elt F) (Memref.whole cc0_scratch0 : Memref sig .tc .vmem S8x1x1024 .f32).view (Rect.unit (s := S8x1x1024) ![3, 0, 0] S1x1x1024.size inb_S8x1x1024_S1x1x1024_3_0_0).toLoadRect (land m c 2)))
      (View.readAt (Elt F) (Memref.whole cc0_scratch0 : Memref sig .tc .vmem S8x1x1024 .f32).view (Rect.unit (s := S8x1x1024) ![4, 0, 0] S1x1x1024.size inb_S8x1x1024_S1x1x1024_4_0_0).toLoadRect (land m c 3))
      (View.readAt (Elt F) (Memref.whole cc0_scratch0 : Memref sig .tc .vmem S8x1x1024 .f32).view (Rect.unit (s := S8x1x1024) ![5, 0, 0] S1x1x1024.size inb_S8x1x1024_S1x1x1024_5_0_0).toLoadRect (land m c 4)))
      (View.readAt (Elt F) (Memref.whole cc0_scratch0 : Memref sig .tc .vmem S8x1x1024 .f32).view (Rect.unit (s := S8x1x1024) ![6, 0, 0] S1x1x1024.size inb_S8x1x1024_S1x1x1024_6_0_0).toLoadRect (land m c 5))
      (View.readAt (Elt F) (Memref.whole cc0_scratch0 : Memref sig .tc .vmem S8x1x1024 .f32).view (Rect.unit (s := S8x1x1024) ![7, 0, 0] S1x1x1024.size inb_S8x1x1024_S1x1x1024_7_0_0).toLoadRect (land m c 6)) := rfl

theorem ownSems_flat {M : Type} [URA M] (Φ : Fin 7 ⊕ Fin 7 → sProp M) :
    bigSep Finset.univ Φ = iprop((Φ (.inl 0) ∗ Φ (.inl 1) ∗ Φ (.inl 2) ∗ Φ (.inl 3) ∗ Φ (.inl 4) ∗ Φ (.inl 5) ∗ Φ (.inl 6)) ∗ (Φ (.inr 0) ∗ Φ (.inr 1) ∗ Φ (.inr 2) ∗ Φ (.inr 3) ∗ Φ (.inr 4) ∗ Φ (.inr 5) ∗ Φ (.inr 6))) := by
  rw [bigSep_univ_sum, bigSep_fin7, bigSep_fin7]; rfl

/-! ## The body -/

section Body

variable (K : Dev nD × CellIx → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A transfer cell closes after its one round: its counter at zero is the device's again. -/
theorem close_send (c : Dev nD) (j : Fin 7) : iprop(records m K ∗ atPos ER (sendCell c j) 1 ∅ 0) ⊢ (iprop(|={Set.univ}=> semVal (sendCell c j) 0) : sProp 𝕄) := by
  iintro ⟨#HR, Hat⟩
  iapply (Rounds.cell_close ER (Rd m) (Set.mem_univ (K (c, .inr (.inl j)))) (fun h => h) (R := 0 + 1) (duties_later m (sendCell c j)))
  isplitr; · iapply (inv_send m K c j); iexact HR
  iexact Hat
theorem close_recv (c : Dev nD) (j : Fin 7) : iprop(records m K ∗ atPos ER (recvCell c j) 1 ∅ 0) ⊢ (iprop(|={Set.univ}=> semVal (recvCell c j) 0) : sProp 𝕄) := by
  iintro ⟨#HR, Hat⟩
  iapply (Rounds.cell_close ER (Rd m) (Set.mem_univ (K (c, .inr (.inr j)))) (fun h => h) (R := 0 + 1) (duties_later m (recvCell c j)))
  isplitr; · iapply (inv_recv m K c j); iexact HR
  iexact Hat

def creds (c : Dev nD) : sProp 𝕄 :=
  bigSep Finset.univ fun j : Fin 7 => iprop(cred (tallyAt (recvCell c j) () N) ∗ cred (tallyAt (barCell c) () 1))

def bodyPre (c : Dev nD) : sProp 𝕄 :=
  iprop((ghost m K c ∗ creds c ∗ levAts L lv ∗ ∃ f : Buf (Elt F) (scrLoc c), (scrLoc c) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m c))

set_option maxHeartbeats 8000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  unfold bodyPre ghost linear posAt creds
  simp only [bigSep_fin7]
  unfold payTok
  iintro ⟨⟨⟨⟨#HR, ⟨HaB, ⟨HaS0, HaV0⟩, ⟨HaS1, HaV1⟩, ⟨HaS2, HaV2⟩, ⟨HaS3, HaV3⟩, ⟨HaS4, HaV4⟩, ⟨HaS5, HaV5⟩, ⟨HaS6, HaV6⟩⟩, ⟨HtB0, HtV0, HtS0⟩, ⟨HtB1, HtV1, HtS1⟩, ⟨HtB2, HtV2, HtS2⟩, ⟨HtB3, HtV3, HtS3⟩, ⟨HtB4, HtV4, HtS4⟩, ⟨HtB5, HtV5, HtS5⟩, ⟨HtB6, HtV6, HtS6⟩⟩, ⟨⟨HcV0, HcB0⟩, ⟨HcV1, HcB1⟩, ⟨HcV2, HcB2⟩, ⟨HcV3, HcB3⟩, ⟨HcV4, HcB4⟩, ⟨HcV5, HcB5⟩, ⟨HcV6, HcB6⟩⟩, #Hlev, ⟨%f0, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl, O₀_chain]
  ihave HcB := (cred_seven' (F := F) (barCell c)) $$ [HcB0 HcB1 HcB2 HcB3 HcB4 HcB5 HcB6]
  · isplitl [HcB0]; · iexact HcB0
    isplitl [HcB1]; · iexact HcB1
    isplitl [HcB2]; · iexact HcB2
    isplitl [HcB3]; · iexact HcB3
    isplitl [HcB4]; · iexact HcB4
    isplitl [HcB5]; · iexact HcB5
    iexact HcB6
  ihave Hs := ((scr_split c f0).trans (Entails.of_eq (bigSep_fin8 _))) $$ Hscr
  icases Hs with ⟨Hsl0, Hsl1, Hsl2, Hsl3, Hsl4, Hsl5, Hsl6, Hsl7⟩
  sl_unfold [cc0_body]
  sl_exec
  -- signal 0: to `padd c 0`, with row 7
  iapply (wp_sig m K c 0 (⟨k0_dev1 c, k0_dev1_lt c⟩ : Dev nD) (dev1_eq c) (OR c + tallyAt (barCell (padd c 6)) () 1 + tallyAt (barCell (padd c 5)) () 1 + tallyAt (barCell (padd c 4)) () 1 + tallyAt (barCell (padd c 3)) () 1 + tallyAt (barCell (padd c 2)) () 1 + tallyAt (barCell (padd c 1)) () 1) W f0) $$ [HO HtB0 Hsl7]
  · isplitr; · iexact HR
    isplitl [HO]; · iexact HO
    isplitl [HtB0]; · iexact HtB0
    iexact Hsl7
  iintro HO
  sl_exec
  -- signal 1: to `padd c 1`, with row 6
  iapply (wp_sig m K c 1 (⟨k0_dev2 c, k0_dev2_lt c⟩ : Dev nD) (dev2_eq c) (OR c + tallyAt (barCell (padd c 6)) () 1 + tallyAt (barCell (padd c 5)) () 1 + tallyAt (barCell (padd c 4)) () 1 + tallyAt (barCell (padd c 3)) () 1 + tallyAt (barCell (padd c 2)) () 1) W f0) $$ [HO HtB1 Hsl6]
  · isplitr; · iexact HR
    isplitl [HO]; · iexact HO
    isplitl [HtB1]; · iexact HtB1
    iexact Hsl6
  iintro HO
  sl_exec
  -- signal 2: to `padd c 2`, with row 5
  iapply (wp_sig m K c 2 (⟨k0_dev3 c, k0_dev3_lt c⟩ : Dev nD) (dev3_eq c) (OR c + tallyAt (barCell (padd c 6)) () 1 + tallyAt (barCell (padd c 5)) () 1 + tallyAt (barCell (padd c 4)) () 1 + tallyAt (barCell (padd c 3)) () 1) W f0) $$ [HO HtB2 Hsl5]
  · isplitr; · iexact HR
    isplitl [HO]; · iexact HO
    isplitl [HtB2]; · iexact HtB2
    iexact Hsl5
  iintro HO
  sl_exec
  -- signal 3: to `padd c 3`, with row 4
  iapply (wp_sig m K c 3 (⟨k0_dev4 c, k0_dev4_lt c⟩ : Dev nD) (dev4_eq c) (OR c + tallyAt (barCell (padd c 6)) () 1 + tallyAt (barCell (padd c 5)) () 1 + tallyAt (barCell (padd c 4)) () 1) W f0) $$ [HO HtB3 Hsl4]
  · isplitr; · iexact HR
    isplitl [HO]; · iexact HO
    isplitl [HtB3]; · iexact HtB3
    iexact Hsl4
  iintro HO
  sl_exec
  -- signal 4: to `padd c 4`, with row 3
  iapply (wp_sig m K c 4 (⟨k0_dev5 c, k0_dev5_lt c⟩ : Dev nD) (dev5_eq c) (OR c + tallyAt (barCell (padd c 6)) () 1 + tallyAt (barCell (padd c 5)) () 1) W f0) $$ [HO HtB4 Hsl3]
  · isplitr; · iexact HR
    isplitl [HO]; · iexact HO
    isplitl [HtB4]; · iexact HtB4
    iexact Hsl3
  iintro HO
  sl_exec
  -- signal 5: to `padd c 5`, with row 2
  iapply (wp_sig m K c 5 (⟨k0_dev6 c, k0_dev6_lt c⟩ : Dev nD) (dev6_eq c) (OR c + tallyAt (barCell (padd c 6)) () 1) W f0) $$ [HO HtB5 Hsl2]
  · isplitr; · iexact HR
    isplitl [HO]; · iexact HO
    isplitl [HtB5]; · iexact HtB5
    iexact Hsl2
  iintro HO
  sl_exec
  -- signal 6: to `padd c 6`, with row 1
  iapply (wp_sig m K c 6 (⟨k0_dev7 c, k0_dev7_lt c⟩ : Dev nD) (dev7_eq c) (OR c) W f0) $$ [HO HtB6 Hsl1]
  · isplitr; · iexact HR
    isplitl [HO]; · iexact HO
    isplitl [HtB6]; · iexact HtB6
    iexact Hsl1
  iintro HO
  sl_exec
  -- the wait for the seven peers
  iapply (wp_barwait m K c W) $$ [HcB HO HaB]
  · isplitr; · iexact HR
    isplitl [HcB]; · iexact HcB
    isplitl [HO]; · iexact HO
    isplitr; · iexact Hlev
    iexact HaB
  iintro ⟨HO, HaB, Hpay⟩
  ihave Hp := (Entails.of_eq (bigSep_fin7 _)) $$ Hpay
  unfold barPay
  icases Hp with ⟨⟨⟨%fn0, Hn0⟩, -⟩, ⟨⟨%fn1, Hn1⟩, -⟩, ⟨⟨%fn2, Hn2⟩, -⟩, ⟨⟨%fn3, Hn3⟩, -⟩, ⟨⟨%fn4, Hn4⟩, -⟩, ⟨⟨%fn5, Hn5⟩, -⟩, ⟨⟨%fn6, Hn6⟩, -⟩⟩
  unfold slotPts
  ihave Hx := (Entails.of_eq (whole_pts_eq cc0_stg0_0 c _).symm) $$ Hx
  ihave Hout := (Entails.of_eq (whole_pts_eq cc0_stg1_0 c _).symm) $$ Hout
  sl_exec
  -- row 0 now holds the column maxima: its seven copy shares
  unfold sound_body.sl.Hsl0_w1
  ihave Hsl0 := (Entails.of_eq (slot0_norm m c f0)) $$ Hsl0
  ihave Hsp := (slot0_split (F := F) c (src0 m c)) $$ Hsl0
  icases Hsp with ⟨Hrem, Hsh0, Hsh1, Hsh2, Hsh3, Hsh4, Hsh5, Hsh6⟩
  unfold slotPts
  rw [OR_chain]
  -- copy 0: to row 1 of `padd c 0`
  iapply (wp_snd m K c 0 (⟨k0_dev8 c, k0_dev8_lt c⟩ : Dev nD) (dev8_eq c) fn0 (0 + tallyAt (recvCell (padd c 6) 6) () N + tallyAt (recvCell (padd c 5) 5) () N + tallyAt (recvCell (padd c 4) 4) () N + tallyAt (recvCell (padd c 3) 3) () N + tallyAt (recvCell (padd c 2) 2) () N + tallyAt (recvCell (padd c 1) 1) () N) (insert (SemLoc.reg barS, ()) W)) $$ [Hsh0 Hn0 HO HtS0 HtV0]
  · unfold slotPts
    isplitr; · iexact HR
    isplitl [Hsh0]; · iexact Hsh0
    isplitl [Hn0]; · iexact Hn0
    isplitl [HO]; · iexact HO
    isplitl [HtS0]; · iexact HtS0
    iexact HtV0
  iintro ⟨HcS0, HO⟩
  sl_exec
  -- copy 1: to row 2 of `padd c 1`
  iapply (wp_snd m K c 1 (⟨k0_dev9 c, k0_dev9_lt c⟩ : Dev nD) (dev9_eq c) fn1 (0 + tallyAt (recvCell (padd c 6) 6) () N + tallyAt (recvCell (padd c 5) 5) () N + tallyAt (recvCell (padd c 4) 4) () N + tallyAt (recvCell (padd c 3) 3) () N + tallyAt (recvCell (padd c 2) 2) () N) (insert (SemLoc.reg barS, ()) W)) $$ [Hsh1 Hn1 HO HtS1 HtV1]
  · unfold slotPts
    isplitr; · iexact HR
    isplitl [Hsh1]; · iexact Hsh1
    isplitl [Hn1]; · iexact Hn1
    isplitl [HO]; · iexact HO
    isplitl [HtS1]; · iexact HtS1
    iexact HtV1
  iintro ⟨HcS1, HO⟩
  sl_exec
  -- copy 2: to row 3 of `padd c 2`
  iapply (wp_snd m K c 2 (⟨k0_dev10 c, k0_dev10_lt c⟩ : Dev nD) (dev10_eq c) fn2 (0 + tallyAt (recvCell (padd c 6) 6) () N + tallyAt (recvCell (padd c 5) 5) () N + tallyAt (recvCell (padd c 4) 4) () N + tallyAt (recvCell (padd c 3) 3) () N) (insert (SemLoc.reg barS, ()) W)) $$ [Hsh2 Hn2 HO HtS2 HtV2]
  · unfold slotPts
    isplitr; · iexact HR
    isplitl [Hsh2]; · iexact Hsh2
    isplitl [Hn2]; · iexact Hn2
    isplitl [HO]; · iexact HO
    isplitl [HtS2]; · iexact HtS2
    iexact HtV2
  iintro ⟨HcS2, HO⟩
  sl_exec
  -- copy 3: to row 4 of `padd c 3`
  iapply (wp_snd m K c 3 (⟨k0_dev11 c, k0_dev11_lt c⟩ : Dev nD) (dev11_eq c) fn3 (0 + tallyAt (recvCell (padd c 6) 6) () N + tallyAt (recvCell (padd c 5) 5) () N + tallyAt (recvCell (padd c 4) 4) () N) (insert (SemLoc.reg barS, ()) W)) $$ [Hsh3 Hn3 HO HtS3 HtV3]
  · unfold slotPts
    isplitr; · iexact HR
    isplitl [Hsh3]; · iexact Hsh3
    isplitl [Hn3]; · iexact Hn3
    isplitl [HO]; · iexact HO
    isplitl [HtS3]; · iexact HtS3
    iexact HtV3
  iintro ⟨HcS3, HO⟩
  sl_exec
  -- copy 4: to row 5 of `padd c 4`
  iapply (wp_snd m K c 4 (⟨k0_dev12 c, k0_dev12_lt c⟩ : Dev nD) (dev12_eq c) fn4 (0 + tallyAt (recvCell (padd c 6) 6) () N + tallyAt (recvCell (padd c 5) 5) () N) (insert (SemLoc.reg barS, ()) W)) $$ [Hsh4 Hn4 HO HtS4 HtV4]
  · unfold slotPts
    isplitr; · iexact HR
    isplitl [Hsh4]; · iexact Hsh4
    isplitl [Hn4]; · iexact Hn4
    isplitl [HO]; · iexact HO
    isplitl [HtS4]; · iexact HtS4
    iexact HtV4
  iintro ⟨HcS4, HO⟩
  sl_exec
  -- copy 5: to row 6 of `padd c 5`
  iapply (wp_snd m K c 5 (⟨k0_dev13 c, k0_dev13_lt c⟩ : Dev nD) (dev13_eq c) fn5 (0 + tallyAt (recvCell (padd c 6) 6) () N) (insert (SemLoc.reg barS, ()) W)) $$ [Hsh5 Hn5 HO HtS5 HtV5]
  · unfold slotPts
    isplitr; · iexact HR
    isplitl [Hsh5]; · iexact Hsh5
    isplitl [Hn5]; · iexact Hn5
    isplitl [HO]; · iexact HO
    isplitl [HtS5]; · iexact HtS5
    iexact HtV5
  iintro ⟨HcS5, HO⟩
  sl_exec
  -- copy 6: to row 7 of `padd c 6`
  iapply (wp_snd m K c 6 (⟨k0_dev14 c, k0_dev14_lt c⟩ : Dev nD) (dev14_eq c) fn6 (0) (insert (SemLoc.reg barS, ()) W)) $$ [Hsh6 Hn6 HO HtS6 HtV6]
  · unfold slotPts
    isplitr; · iexact HR
    isplitl [Hsh6]; · iexact Hsh6
    isplitl [Hn6]; · iexact Hn6
    isplitl [HO]; · iexact HO
    isplitl [HtS6]; · iexact HtS6
    iexact HtV6
  iintro ⟨HcS6, HO⟩
  sl_exec
  -- the wait for the copy into row 1, then its load
  iapply (wp_rcvwait m K c 0 (insert (SemLoc.reg barS, ()) W) (dst := (slotM 1 : Memref sig .tc .vmem S1x1024 .f32)) rfl) $$ [HcV0 HO HaV0]
  · isplitr; · iexact HR
    isplitl [HcV0]; · iexact HcV0
    isplitl [HO]; · iexact HO
    iexact HaV0
  iintro ⟨HO, HaV0, Hl0⟩
  unfold slotPts
  sl_exec
  -- the wait for the copy into row 2, then its load
  iapply (wp_rcvwait m K c 1 (insert (SemLoc.dma (recvS 0), ()) (insert (SemLoc.reg barS, ()) W)) (dst := (slotM 2 : Memref sig .tc .vmem S1x1024 .f32)) rfl) $$ [HcV1 HO HaV1]
  · isplitr; · iexact HR
    isplitl [HcV1]; · iexact HcV1
    isplitl [HO]; · iexact HO
    iexact HaV1
  iintro ⟨HO, HaV1, Hl1⟩
  unfold slotPts
  sl_exec
  -- the wait for the copy into row 3, then its load
  iapply (wp_rcvwait m K c 2 (insert (SemLoc.dma (recvS 1), ()) (insert (SemLoc.dma (recvS 0), ()) (insert (SemLoc.reg barS, ()) W))) (dst := (slotM 3 : Memref sig .tc .vmem S1x1024 .f32)) rfl) $$ [HcV2 HO HaV2]
  · isplitr; · iexact HR
    isplitl [HcV2]; · iexact HcV2
    isplitl [HO]; · iexact HO
    iexact HaV2
  iintro ⟨HO, HaV2, Hl2⟩
  unfold slotPts
  sl_exec
  -- the wait for the copy into row 4, then its load
  iapply (wp_rcvwait m K c 3 (insert (SemLoc.dma (recvS 2), ()) (insert (SemLoc.dma (recvS 1), ()) (insert (SemLoc.dma (recvS 0), ()) (insert (SemLoc.reg barS, ()) W)))) (dst := (slotM 4 : Memref sig .tc .vmem S1x1024 .f32)) rfl) $$ [HcV3 HO HaV3]
  · isplitr; · iexact HR
    isplitl [HcV3]; · iexact HcV3
    isplitl [HO]; · iexact HO
    iexact HaV3
  iintro ⟨HO, HaV3, Hl3⟩
  unfold slotPts
  sl_exec
  -- the wait for the copy into row 5, then its load
  iapply (wp_rcvwait m K c 4 (insert (SemLoc.dma (recvS 3), ()) (insert (SemLoc.dma (recvS 2), ()) (insert (SemLoc.dma (recvS 1), ()) (insert (SemLoc.dma (recvS 0), ()) (insert (SemLoc.reg barS, ()) W))))) (dst := (slotM 5 : Memref sig .tc .vmem S1x1024 .f32)) rfl) $$ [HcV4 HO HaV4]
  · isplitr; · iexact HR
    isplitl [HcV4]; · iexact HcV4
    isplitl [HO]; · iexact HO
    iexact HaV4
  iintro ⟨HO, HaV4, Hl4⟩
  unfold slotPts
  sl_exec
  -- the wait for the copy into row 6, then its load
  iapply (wp_rcvwait m K c 5 (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))) (dst := (slotM 6 : Memref sig .tc .vmem S1x1024 .f32)) rfl) $$ [HcV5 HO HaV5]
  · isplitr; · iexact HR
    isplitl [HcV5]; · iexact HcV5
    isplitl [HO]; · iexact HO
    iexact HaV5
  iintro ⟨HO, HaV5, Hl5⟩
  unfold slotPts
  sl_exec
  -- the wait for the copy into row 7, then its load
  iapply (wp_rcvwait m K c 6 (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))) (dst := (slotM 7 : Memref sig .tc .vmem S1x1024 .f32)) rfl) $$ [HcV6 HO HaV6]
  · isplitr; · iexact HR
    isplitl [HcV6]; · iexact HcV6
    isplitl [HO]; · iexact HO
    iexact HaV6
  iintro ⟨HO, HaV6, Hl6⟩
  unfold slotPts
  sl_exec
  -- the wait for the departure of copy 0
  iapply (wp_sndwait m K c 0 (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))) (dst := (slotM 0 : Memref sig .tc .vmem S1x1024 .f32)) rfl) $$ [HcS0 HO HaS0]
  · isplitr; · iexact HR
    isplitl [HcS0]; · iexact HcS0
    isplitl [HO]; · iexact HO
    iexact HaS0
  iintro ⟨HO, HaS0, Hsh0⟩
  sl_exec
  -- the wait for the departure of copy 1
  iapply (wp_sndwait m K c 1 (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))) (dst := (slotM 0 : Memref sig .tc .vmem S1x1024 .f32)) rfl) $$ [HcS1 HO HaS1]
  · isplitr; · iexact HR
    isplitl [HcS1]; · iexact HcS1
    isplitl [HO]; · iexact HO
    iexact HaS1
  iintro ⟨HO, HaS1, Hsh1⟩
  sl_exec
  -- the wait for the departure of copy 2
  iapply (wp_sndwait m K c 2 (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))) (dst := (slotM 0 : Memref sig .tc .vmem S1x1024 .f32)) rfl) $$ [HcS2 HO HaS2]
  · isplitr; · iexact HR
    isplitl [HcS2]; · iexact HcS2
    isplitl [HO]; · iexact HO
    iexact HaS2
  iintro ⟨HO, HaS2, Hsh2⟩
  sl_exec
  -- the wait for the departure of copy 3
  iapply (wp_sndwait m K c 3 (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))))) (dst := (slotM 0 : Memref sig .tc .vmem S1x1024 .f32)) rfl) $$ [HcS3 HO HaS3]
  · isplitr; · iexact HR
    isplitl [HcS3]; · iexact HcS3
    isplitl [HO]; · iexact HO
    iexact HaS3
  iintro ⟨HO, HaS3, Hsh3⟩
  sl_exec
  -- the wait for the departure of copy 4
  iapply (wp_sndwait m K c 4 (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))) (dst := (slotM 0 : Memref sig .tc .vmem S1x1024 .f32)) rfl) $$ [HcS4 HO HaS4]
  · isplitr; · iexact HR
    isplitl [HcS4]; · iexact HcS4
    isplitl [HO]; · iexact HO
    iexact HaS4
  iintro ⟨HO, HaS4, Hsh4⟩
  sl_exec
  -- the wait for the departure of copy 5
  iapply (wp_sndwait m K c 5 (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W))))))))))))) (dst := (slotM 0 : Memref sig .tc .vmem S1x1024 .f32)) rfl) $$ [HcS5 HO HaS5]
  · isplitr; · iexact HR
    isplitl [HcS5]; · iexact HcS5
    isplitl [HO]; · iexact HO
    iexact HaS5
  iintro ⟨HO, HaS5, Hsh5⟩
  sl_exec
  -- the wait for the departure of copy 6
  iapply (wp_sndwait m K c 6 (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))))) (dst := (slotM 0 : Memref sig .tc .vmem S1x1024 .f32)) rfl) $$ [HcS6 HO HaS6]
  · isplitr; · iexact HR
    isplitl [HcS6]; · iexact HcS6
    isplitl [HO]; · iexact HO
    iexact HaS6
  iintro ⟨HO, HaS6, Hsh6⟩
  imod (close_send m K c 0) $$ [HaS0] with HzS0
  · isplitr; · iexact HR
    iexact HaS0
  imod (close_recv m K c 0) $$ [HaV0] with HzV0
  · isplitr; · iexact HR
    iexact HaV0
  imod (close_send m K c 1) $$ [HaS1] with HzS1
  · isplitr; · iexact HR
    iexact HaS1
  imod (close_recv m K c 1) $$ [HaV1] with HzV1
  · isplitr; · iexact HR
    iexact HaV1
  imod (close_send m K c 2) $$ [HaS2] with HzS2
  · isplitr; · iexact HR
    iexact HaS2
  imod (close_recv m K c 2) $$ [HaV2] with HzV2
  · isplitr; · iexact HR
    iexact HaV2
  imod (close_send m K c 3) $$ [HaS3] with HzS3
  · isplitr; · iexact HR
    iexact HaS3
  imod (close_recv m K c 3) $$ [HaV3] with HzV3
  · isplitr; · iexact HR
    iexact HaV3
  imod (close_send m K c 4) $$ [HaS4] with HzS4
  · isplitr; · iexact HR
    iexact HaS4
  imod (close_recv m K c 4) $$ [HaV4] with HzV4
  · isplitr; · iexact HR
    iexact HaV4
  imod (close_send m K c 5) $$ [HaS5] with HzS5
  · isplitr; · iexact HR
    iexact HaS5
  imod (close_recv m K c 5) $$ [HaV5] with HzV5
  · isplitr; · iexact HR
    iexact HaV5
  imod (close_send m K c 6) $$ [HaS6] with HzS6
  · isplitr; · iexact HR
    iexact HaS6
  imod (close_recv m K c 6) $$ [HaV6] with HzV6
  · isplitr; · iexact HR
    iexact HaV6
  sl_step
  iapply Hk
  unfold bodyPost Φ₁ Dat.owesAt Pipeline.owesWithin
  rw [show (dats m 0 c).owed t₀.succ = 0 from rfl]
  -- row 0 whole again, then the buffer from its eight rows
  ihave Hr0 := (slot0_join (F := F) c (src0 m c)) $$ [Hrem Hsh0 Hsh1 Hsh2 Hsh3 Hsh4 Hsh5 Hsh6]
  · unfold slotPts
    isplitl [Hrem]; · iexact Hrem
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  ihave Hscr := (scr_join' (F := F) c (src0 m c) (land m c 0) (land m c 1) (land m c 2) (land m c 3) (land m c 4) (land m c 5) (land m c 6)) $$ [Hr0 Hl0 Hl1 Hl2 Hl3 Hl4 Hl5 Hl6]
  · unfold slotPts
    isplitl [Hr0]; · iexact Hr0
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    iexact Hl6
  isplitl [Hscr HzS0 HzV0 HzS1 HzV1 HzS2 HzV2 HzS3 HzV3 HzS4 HzV4 HzS5 HzV5 HzS6 HzV6]
  · isplitl [Hscr]; · iexact Hscr
    rw [ownSems_flat]
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      iexact HzV6
  isplitl [HO]
  · iexists (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))))))
    isplitr; · ipureintro; exact fun _ _ => Or.inl trivial
    iexact HO
  isplitl [Hx]
  · iexists _; isplitr; · (ipureintro; rfl)
    iapply (Entails.of_eq (whole_pts_eq cc0_stg0_0 c _)); iexact Hx
  iexists _; isplitr; · (ipureintro; rfl)
  unfold sound_body.sl.r_2 sound_body.sl.r_1 sound_body.sl.r
  rw [read_x, outAt_lit]
  iapply (out_final c g1 _)
  iexact Hout

end Body

end Cert.KernelIdeal.Coll

end
-- ==== Proof.KI.Obl.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.KI.Sched
import proofs.«900374_g7700000000000375_dist_max_ax0_shard0_i_m4096_n1024_v7x_i8_bf16_1_alg».proof.Proof.KI.Data
import proofs.«900374_g7700000000000375_dist_max_ax0_shard0_i_m4096_n1024_v7x_i8_bf16_1_alg».proof.Proof.KI.Slots
import proofs.«900374_g7700000000000375_dist_max_ax0_shard0_i_m4096_n1024_v7x_i8_bf16_1_alg».proof.Proof.KI.Steps
import proofs.«900374_g7700000000000375_dist_max_ax0_shard0_i_m4096_n1024_v7x_i8_bf16_1_alg».proof.Proof.KI.Body
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hcr, Hlev⟩, Hscr⟩, Ho, Hx, Hout⟩
  iapply (sound_body m K c fun _ => bodyPost m c)
  unfold bodyPre creds
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Cert.KernelIdeal.Coll

end
-- ==== Proof.KI.Launch.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.KI.Sched
import proofs.«900374_g7700000000000375_dist_max_ax0_shard0_i_m4096_n1024_v7x_i8_bf16_1_alg».proof.Proof.KI.Data
import proofs.«900374_g7700000000000375_dist_max_ax0_shard0_i_m4096_n1024_v7x_i8_bf16_1_alg».proof.Proof.KI.Slots
import proofs.«900374_g7700000000000375_dist_max_ax0_shard0_i_m4096_n1024_v7x_i8_bf16_1_alg».proof.Proof.KI.Steps
import proofs.«900374_g7700000000000375_dist_max_ax0_shard0_i_m4096_n1024_v7x_i8_bf16_1_alg».proof.Proof.KI.Body
import proofs.«900374_g7700000000000375_dist_max_ax0_shard0_i_m4096_n1024_v7x_i8_bf16_1_alg».proof.Proof.KI.Obl
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨kcell, kcell_injective⟩

/-- The duty tokens of a device's own cells as minted: its barrier's seven duties, each send cell's and each receive cell's one. -/
abbrev TokIx : Type := Fin 7 ⊕ (Fin 7 ⊕ Fin 7)
abbrev tokOf (ct : Dev nD × TokIx) : GSem nD τ sig × ℕ × Fin 7 := match ct.2 with
  | .inl d => (barCell ct.1, 0, d)
  | .inr (.inl j) => (sendCell ct.1 j, 0, 0)
  | .inr (.inr j) => (recvCell ct.1 j, 0, 0)

theorem tokOf_injective : Function.Injective (tokOf : Dev nD × TokIx → GSem nD τ sig × ℕ × Fin 7) := by
  rintro ⟨c, t⟩ ⟨c', t'⟩ h
  have h1 : c = c' := by
    have := congrArg (fun x : GSem nD τ sig × ℕ × Fin 7 => x.1.1.1) h
    rcases t with d | j | j <;> rcases t' with d' | j' | j' <;> exact this
  subst h1
  have hs : (tokOf (c, t)).1.2 = (tokOf (c, t')).1.2 := by rw [h]
  have hd : (tokOf (c, t)).2.2 = (tokOf (c, t')).2.2 := by rw [h]
  rcases t with d | j | j <;> rcases t' with d' | j' | j'
  · have : d = d' := hd
    rw [this]
  · exact absurd hs.symm (send_ne_bar j')
  · exact absurd hs.symm (recv_ne_bar j')
  · exact absurd hs (send_ne_bar j)
  · have := congrArg semKind hs; simp only [semKind_send] at this; cases this; rfl
  · have := congrArg semKind hs; simp only [semKind_send, semKind_recv] at this; cases this
  · exact absurd hs (recv_ne_bar j)
  · have := congrArg semKind hs; simp only [semKind_send, semKind_recv] at this; cases this
  · have := congrArg semKind hs; simp only [semKind_recv] at this; cases this; rfl

def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Fin 7 => dutyTok ER (barCell c) 0 d)
    ∗ (bigSep Finset.univ fun j : Fin 7 => dutyTok ER (sendCell c j) 0 0) ∗ (bigSep Finset.univ fun j : Fin 7 => dutyTok ER (recvCell c j) 0 0))

/-- What the launch element deals device `c`. -/
def G (c : Dev nD) : sProp 𝕄 :=
  iprop((bigSep Finset.univ fun k : CellIx => roundState ER (Rd m) (kcell (c, k)) 0)
    ∗ (bigSep Finset.univ fun k : CellIx => iprop(atPos ER (kcell (c, k)) 0 ∅ 0 ∗ reached ER (kcell (c, k)) 0)) ∗ toks (F := F) c)

/-- What the global step makes of it. -/
def G' (c : Dev nD) : sProp 𝕄 := iprop(∃ K, ghost m K c)

theorem fund_ring : BI.own (ER (F := F) (initOf allCells allToks)) ⊢ (|==> bigSep Finset.univ (G m) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : Fin 7 ⊕ Fin 7 => semVal ((c : Thread nD τ), osem k) 0 := rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_cellIx (Φ : CellIx → sProp 𝕄) :
    bigSep Finset.univ Φ = iprop(Φ (.inl ()) ∗ bigSep Finset.univ (fun k : Fin 7 ⊕ Fin 7 => Φ (.inr k))) := by
  rw [bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cellIx]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (Rd m) (kcell (c, k)) 0)
      ⊢ (|={Set.univ}=> bigSep Finset.univ fun k : CellIx => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CellIx → ℕ) (c : Dev nD) : iprop(records m K ∗ linear (F := F) c) ⊢ G' m c := by
  unfold G' ghost
  iintro H; iexists K; iexact H

/-- The bijections along which the tokens are dealt: barrier duty `d` of `c'` goes to its payer `padd c' d`, where it is the
    token of that device's signal `d.rev`; the receive token `j` of `c'` goes to `psub c' j`. -/
def dealBar : Dev nD × Fin 7 ≃ Dev nD × Fin 7 where
  toFun cj := (padd cj.1 cj.2, cj.2.rev)
  invFun cd := (padd cd.1 cd.2, cd.2.rev)
  left_inv cj := by
    obtain ⟨c, j⟩ := cj
    show (padd (padd c j) j.rev, j.rev.rev) = (c, j)
    rw [padd_padd_rev, Fin.rev_rev]
  right_inv cd := by
    obtain ⟨c, d⟩ := cd
    show (padd (padd c d) d.rev, d.rev.rev) = (c, d)
    rw [padd_padd_rev, Fin.rev_rev]
def dealRecv : Dev nD × Fin 7 ≃ Dev nD × Fin 7 where
  toFun cj := (padd cj.1 cj.2, cj.2)
  invFun cd := (psub cd.1 cd.2, cd.2)
  left_inv cj := by obtain ⟨c, j⟩ := cj; show (psub (padd c j) j, j) = (c, j); rw [psub_padd]
  right_inv cd := by obtain ⟨c, d⟩ := cd; show (padd (psub c d) d, d) = (c, d); rw [padd_psub]

theorem toks_around : (bigSep Finset.univ fun c : Dev nD => (toks (F := F) c : sProp 𝕄)) ⊢ bigSep Finset.univ fun c : Dev nD => bigSep Finset.univ fun j : Fin 7 => payTok (F := F) c j := by
  have hB : (bigSep Finset.univ fun c : Dev nD => bigSep Finset.univ fun d : Fin 7 => (dutyTok ER (barCell c) 0 d : sProp 𝕄))
      = bigSep Finset.univ fun c : Dev nD => bigSep Finset.univ fun j : Fin 7 => (dutyTok ER (barCell (padd c j)) 0 j.rev : sProp 𝕄) := by
    rw [← bigSep_univ_prod (fun cd : Dev nD × Fin 7 => (dutyTok ER (barCell cd.1) 0 cd.2 : sProp 𝕄)),
      bigSep_univ_equiv dealBar (fun cd : Dev nD × Fin 7 => (dutyTok ER (barCell cd.1) 0 cd.2 : sProp 𝕄)), bigSep_univ_prod]
    rfl
  have hV : (bigSep Finset.univ fun c : Dev nD => bigSep Finset.univ fun j : Fin 7 => (dutyTok ER (recvCell c j) 0 0 : sProp 𝕄))
      = bigSep Finset.univ fun c : Dev nD => bigSep Finset.univ fun j : Fin 7 => (dutyTok ER (recvCell (padd c j) j) 0 0 : sProp 𝕄) := by
    rw [← bigSep_univ_prod (fun cd : Dev nD × Fin 7 => (dutyTok ER (recvCell cd.1 cd.2) 0 0 : sProp 𝕄)),
      bigSep_univ_equiv dealRecv (fun cd : Dev nD × Fin 7 => (dutyTok ER (recvCell cd.1 cd.2) 0 0 : sProp 𝕄)), bigSep_univ_prod]
    rfl
  unfold toks payTok
  simp only [bigSep_sep']
  rw [hB, hV]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem posAt_eq (c : Dev nD) : (bigSep Finset.univ fun k : CellIx => (atPos ER (kcell (c, k)) 0 ∅ 0 : sProp 𝕄)) = posAt (F := F) c := by
  unfold posAt
  rw [bigSep_cellIx, bigSep_univ_sum, ← BI.bigSep_sep]
  rfl

theorem regroup :
    (bigSep Finset.univ fun c : Dev nD => iprop((bigSep Finset.univ fun k : CellIx => iprop(∃ κ : ℕ, cellInv ER (Rd m) κ (kcell (c, k))))
          ∗ (bigSep Finset.univ fun k : CellIx => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CellIx => iprop(∃ κ : ℕ, cellInv ER (Rd m) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄))
        (fun c : Dev nD => bigSep Finset.univ fun j : Fin 7 => payTok (F := F) c j)).symm).trans
      (bigSep_mono fun c _ => show _ ⊢ linear (F := F) c from Entails.of_eq (by unfold linear; rw [posAt_eq])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem creds_intro (c : Dev nD) : (Pipeline.launchCred O₀ c : sProp 𝕄) ⊢ creds (F := F) c := by
  unfold creds
  have h : (Pipeline.launchCred (fun d => ∑ j ∈ (Finset.univ : Finset (Fin 7)), owe j d) c : sProp 𝕄)
      = bigSep Finset.univ fun j : Fin 7 => Pipeline.launchCred (owe j) c := Pipeline.launchCred_sum Finset.univ (fun j d => owe j d) c
  refine (Entails.of_eq h).trans (bigSep_mono fun j _ => ?_)
  have h2 : (Pipeline.launchCred (owe j) c : sProp 𝕄)
      = iprop(Pipeline.launchCred (fun d => tallyAt (recvCell (padd d j) j) () N) c ∗ Pipeline.launchCred (fun d => tallyAt (barCell (padd d j)) () 1) c) :=
    Pipeline.launchCred_add _ _ c
  rw [h2]
  exact BI.sep_mono (Pipeline.launchCred_tallyAt (.dma (recvS j)) (fun d => padd d j) (fun d => psub d j) (fun d => padd_psub d j) (fun d => psub_padd d j) () N c)
    (Pipeline.launchCred_tallyAt (.reg barS) (fun d => padd d j) (fun d => psub d j) (fun d => padd_psub d j) (fun d => psub_padd d j) () 1 c)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G' creds
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq, ownSems0_eq]
  unfold Φ₁
  iintro ⟨⟨%f, Hr⟩, Hz⟩
  isplitr; · iempintro
  isplitl [Hz]; · iexact Hz
  iexists f; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of eight devices, from any memory with zero counters: every weakly fair execution of @main — the
    eight kernels handshaking on the barrier semaphore, exchanging their column maxima, joining them — terminates, and every
    final state has each device's result array at the computed contents and its block of `x` unchanged. -/
theorem run_main [∀ e, Nonempty (Elt F e)] : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- Its block of `x` after the run holds what it held. -/
theorem finalA_x (c : Dev nD) : finalA m c (0 : Fin 2) = m (win0_0.arr.view.loc (c : Thread nD τ)) :=
  (dats (F := F) m 0 c).arrAt_in (0 : Fin 2) rfl _

end Cert.KernelIdeal.Coll

end
-- ==== Proof.FinalOut.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.KI.Sched
import proofs.«900374_g7700000000000375_dist_max_ax0_shard0_i_m4096_n1024_v7x_i8_bf16_1_alg».proof.Proof.KI.Data
import proofs.«900374_g7700000000000375_dist_max_ax0_shard0_i_m4096_n1024_v7x_i8_bf16_1_alg».proof.Proof.KI.Slots
import proofs.«900374_g7700000000000375_dist_max_ax0_shard0_i_m4096_n1024_v7x_i8_bf16_1_alg».proof.Proof.KI.Steps
import proofs.«900374_g7700000000000375_dist_max_ax0_shard0_i_m4096_n1024_v7x_i8_bf16_1_alg».proof.Proof.KI.Body
import proofs.«900374_g7700000000000375_dist_max_ax0_shard0_i_m4096_n1024_v7x_i8_bf16_1_alg».proof.Proof.KI.Obl
import proofs.«900374_g7700000000000375_dist_max_ax0_shard0_i_m4096_n1024_v7x_i8_bf16_1_alg».proof.Proof.KI.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

set_option maxHeartbeats 1600000 in
/-- The result array after the run holds the kernel's result: its one block, written back whole at the one grid point. -/
theorem finalA_out (c : Dev nD) : finalA m c (1 : Fin 2) = outAt m c := by
  unfold finalA
  show (dats (F := F) m 0 c).arrAt (1 : Fin 2) (t₀.val + 1) = _
  rw [Dat.arrAt_succ, if_pos (flush0_1 t₀)]
  first
  | exact Memref.write_access_unit_zero_univ (Elt F) main_v1 rfl _ _ _
  | exact Memref.write_access_unit_zero_univ (Elt F) main_v1 (funext fun a => Nat.zero_mul _) _ _ _

end Cert.KernelIdeal.Coll
end
-- ==== Proof.KI.Rows.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.KI.Sched
import proofs.«900374_g7700000000000375_dist_max_ax0_shard0_i_m4096_n1024_v7x_i8_bf16_1_alg».proof.Proof.KI.Data
import proofs.«900374_g7700000000000375_dist_max_ax0_shard0_i_m4096_n1024_v7x_i8_bf16_1_alg».proof.Proof.KI.Slots
import proofs.«900374_g7700000000000375_dist_max_ax0_shard0_i_m4096_n1024_v7x_i8_bf16_1_alg».proof.Proof.KI.Steps
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## What a row holds after a copy has landed: pure data movement -/

/-- A write through a view reshaped, read through the view itself: the payload at the index's row-major twin. -/
theorem read_write_reshape {κ : Kind} {sp : Space} {s s' : Shape} {e : EltTy} (v : View sig κ sp s e) (h : s'.numel = s.numel)
    (f : v.ty.Contents (Elt F)) (w : s'.Idx → Elt F e) (x : s.Idx) :
    v.read (Elt F) ((v.reshape s' h).write (Elt F) f w Finset.univ) x = w ((Shape.reshapeEquiv h).symm x) := by
  have hx : v.emb x = (v.reshape s' h).emb ((Shape.reshapeEquiv h).symm x) := by
    rw [View.emb_reshape]
    show v.emb x = v.emb (Shape.reshapeEquiv h ((Shape.reshapeEquiv h).symm x))
    rw [Equiv.apply_symm_apply]
  rw [View.read_apply, hx, View.write_emb_of_mem _ _ (Finset.mem_univ _), cast_cast, cast_eq]

/-- A write through a view, read through the view reshaped. -/
theorem read_reshape_write {κ : Kind} {sp : Space} {s s' : Shape} {e : EltTy} (v : View sig κ sp s e) (h : s'.numel = s.numel)
    (f : v.ty.Contents (Elt F)) (w : s.Idx → Elt F e) (y : s'.Idx) :
    (v.reshape s' h).read (Elt F) (v.write (Elt F) f w Finset.univ) y = w (Shape.reshapeEquiv h y) := by
  rw [View.read_apply]
  show cast _ (v.write (Elt F) f w Finset.univ (v.emb (Shape.reshapeEquiv h y))) = _
  rw [View.write_emb_of_mem _ _ (Finset.mem_univ _), cast_cast, cast_eq]

theorem row0_apply (d : Dev nD) (y : S1x1024.Idx) :
    row0 m d y = k0_pay2 (xstg m d) (Shape.reshapeEquiv squeezes_S1x1x1024_S1x1024.numel_eq y) := by
  unfold row0 src0
  exact read_reshape_write ((View.whole cc0_scratch0).slice (slotRect 0)) squeezes_S1x1x1024_S1x1024.numel_eq (m (scrLoc d)) (k0_pay2 (xstg m d)) y

/-- The row device `c` loads after copy `j` has landed is the column maxima of device `c - (j + 1)`. -/
theorem ld_eq (c : Dev nD) (j : Fin 7) : ld m c j = k0_pay2 (xstg m (psub c j)) := by
  funext x
  unfold ld
  rw [land_eq]
  show ((View.whole cc0_scratch0).slice (slotRect j.succ)).read (Elt F)
      ((((View.whole cc0_scratch0).slice (slotRect j.succ)).reshape S1x1024 squeezes_S1x1x1024_S1x1024.numel_eq).write (Elt F) (m (scrLoc c)) (row0 m (psub c j)) Finset.univ) x = _
  rw [read_write_reshape, row0_apply, Equiv.apply_symm_apply]

end Cert.KernelIdeal.Coll

end
-- ==== Proof.ValueIdeal.lean ====
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.KI.Sched
import proofs.«900374_g7700000000000375_dist_max_ax0_shard0_i_m4096_n1024_v7x_i8_bf16_1_alg».proof.Proof.KI.Data
import proofs.«900374_g7700000000000375_dist_max_ax0_shard0_i_m4096_n1024_v7x_i8_bf16_1_alg».proof.Proof.KI.Slots
import proofs.«900374_g7700000000000375_dist_max_ax0_shard0_i_m4096_n1024_v7x_i8_bf16_1_alg».proof.Proof.KI.Steps
import proofs.«900374_g7700000000000375_dist_max_ax0_shard0_i_m4096_n1024_v7x_i8_bf16_1_alg».proof.Proof.KI.Rows
import Idealize.ShloMosaic.Lib.Pipeline.Launch
import Idealize.ShloMosaic.PureOps.Ideal.Laws
import Idealize.ShloMosaic.Lib.ValueIdx
import Idealize.ShloMosaic.Lib.ValueLayout
import Idealize.ShloMosaic.Lib.Pipeline.Kit
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The payloads read at an entry, at the ideal values -/

/-- The maximum of column `n` of a block of 4096 rows, from −∞. -/
def colmax (x : FVec Ideal S4096x1024 .f32) (n : Fin 1024) : Ideal .f32 :=
  (Finset.univ : Finset (Fin 4096)).fold max (FloatOps.ofBits (F := Ideal) .f32 0xFF800000#32) (fun r => x (ix2 r n))

theorem lift_ix (h : S4096x1024.Reduces [0] S1024) (n : Fin 1024) (r : Fin 4096) : h.lift (ix1 n) r = ix2 r n := by
  funext c
  match c with
  | ⟨0, _⟩ => rfl
  | ⟨1, _⟩ => rfl

/-- The kernel's local reduction, as the `1 × 1024` row. -/
theorem pay1_apply (x : Vec Ideal S4096x1024 .f32) (n : Fin 1024) : k0_pay1 (F := Ideal) x (ix2 (0 : Fin 1) n) = colmax x n := by
  unfold k0_pay1 colmax
  dsimp only
  rw [shapeCast_a_1a_apply]
  refine (Ideal.multiReduction_maximumf_single _ _ _ _ _ (ix1 n)).trans ?_
  show Finset.fold max _ (fun r : Fin 4096 => shapeCast S4096x1024 x shapeCasts_S4096x1024_S4096x1024 (Shape.Reduces.lift reduces_S4096x1024_S1024 (ix1 n) r)) Finset.univ = _
  congr 1
  funext r
  rw [shapeCast_self, lift_ix]

/-- The same, as the `1 × 1 × 1024` row the copies carry. -/
theorem pay2_apply (x : Vec Ideal S4096x1024 .f32) (n : Fin 1024) : k0_pay2 (F := Ideal) x (ix3 (0 : Fin 1) (0 : Fin 1) n) = colmax x n := by
  unfold k0_pay2
  rw [shapeCast_ab_1ab_apply, pay1_apply]

theorem cast_row (l : Vec Ideal S1x1x1024 .f32) (n : Fin 1024) :
    shapeCast S1x1024 l shapeCasts_S1x1x1024_S1x1024 (ix2 (0 : Fin 1) n) = l (ix3 (0 : Fin 1) (0 : Fin 1) n) :=
  shapeCast_1ab_ab_apply l _ _ _

theorem pay3_apply (A : FVec Ideal S1x1024 .f32) (l1 l2 l3 : Vec Ideal S1x1x1024 .f32) (n : Fin 1024) :
    k0_pay3 (F := Ideal) A l1 l2 l3 (ix2 (0 : Fin 1) n)
      = max (max (max (A (ix2 0 n)) (l1 (ix3 0 0 n))) (l2 (ix3 0 0 n))) (l3 (ix3 0 0 n)) := by
  unfold k0_pay3
  rw [maximumf_apply, maximumf_apply, maximumf_apply, cast_row, cast_row, cast_row]
theorem pay4_apply (A : FVec Ideal S1x1024 .f32) (l1 l2 : Vec Ideal S1x1x1024 .f32) (n : Fin 1024) :
    k0_pay4 (F := Ideal) A l1 l2 (ix2 (0 : Fin 1) n) = max (max (A (ix2 0 n)) (l1 (ix3 0 0 n))) (l2 (ix3 0 0 n)) := by
  unfold k0_pay4
  rw [maximumf_apply, maximumf_apply, cast_row, cast_row]
theorem pay5_apply (A : FVec Ideal S1x1024 .f32) (l1 l2 : Vec Ideal S1x1x1024 .f32) (n : Fin 1024) :
    k0_pay5 (F := Ideal) A l1 l2 (ix2 (0 : Fin 1) n) = max (max (A (ix2 0 n)) (l1 (ix3 0 0 n))) (l2 (ix3 0 0 n)) := by
  unfold k0_pay5
  rw [maximumf_apply, maximumf_apply, cast_row, cast_row]

variable (m : (ℓ : Loc nD τ sig) → Buf (Elt Ideal) ℓ)

/-- A device's staged block of `x` is its array. -/
theorem xstg_eq (d : Dev nD) : xstg m d = m ((d : Thread nD τ).loc main_arg0) := by
  unfold xstg
  first
  | exact Memref.read_access_unit_zero (Elt Ideal) main_arg0 rfl _ _
  | exact Memref.read_access_unit_zero (Elt Ideal) main_arg0 (funext fun a => Nat.zero_mul _) _ _
  | (funext i; rfl)

/-- The maximum of column `n` of device `d`'s block. -/
def M (d : Dev nD) (n : Fin 1024) : Ideal .f32 := colmax (xstg m d) n

/-- The kernel's result on device `c` at column `n`: the eight devices' column maxima joined, its own first, then those of the
    devices `c - 1`, …, `c - 7` in the order their copies are waited for. -/
theorem outAt_apply (c : Dev nD) (n : Fin 1024) :
    (outAt m c (ix2 (0 : Fin 1) n) : Ideal .f32)
      = max (max (max (max (max (max (max (M m c n) (M m (psub c 0) n)) (M m (psub c 1) n)) (M m (psub c 2) n)) (M m (psub c 3) n)) (M m (psub c 4) n)) (M m (psub c 5) n)) (M m (psub c 6) n) := by
  unfold outAt M
  rw [pay5_apply, pay4_apply, pay3_apply, pay1_apply]
  simp only [ld_eq, pay2_apply]

/-- Every device is `c` or one of the seven it receives from. -/
theorem dev_cases (c d : Dev nD) : d = c ∨ ∃ j : Fin 7, d = psub c j := by revert c d; decide

/-- So the result at a column is the least upper bound of all eight column maxima. -/
theorem outAt_le_iff (c : Dev nD) (n : Fin 1024) (y : Ideal .f32) :
    Iff (@LE.le (Ideal .f32) _ (outAt m c (ix2 (0 : Fin 1) n)) y) (∀ d : Dev nD, M m d n ≤ y) := by
  rw [outAt_apply]
  simp only [max_le_iff]
  constructor
  · rintro ⟨⟨⟨⟨⟨⟨⟨h, h0⟩, h1⟩, h2⟩, h3⟩, h4⟩, h5⟩, h6⟩ d
    rcases dev_cases c d with rfl | ⟨j, rfl⟩
    · exact h
    · fin_cases j <;> assumption
  · intro h
    exact ⟨⟨⟨⟨⟨⟨⟨h _, h _⟩, h _⟩, h _⟩, h _⟩, h _⟩, h _⟩, h _⟩

/-- A column maximum is below `y` exactly when −∞ and every entry of the column are. -/
theorem M_le_iff (d : Dev nD) (n : Fin 1024) (y : Ideal .f32) :
    Iff (M m d n ≤ y) (FloatOps.ofBits (F := Ideal) .f32 0xFF800000#32 ≤ y ∧ ∀ r : Fin 4096, @LE.le (Ideal .f32) _ (m ((d : Thread nD τ).loc main_arg0) (ix2 r n)) y) := by
  unfold M colmax
  rw [Finset.fold_max_le, xstg_eq]
  exact and_congr_right fun _ => ⟨fun h r => h r (Finset.mem_univ r), fun h r _ => h r⟩

end Cert.KernelIdeal.Coll

end
-- ==== Proof.RefValue.lean ====
import proofs.«900374_g7700000000000375_dist_max_ax0_shard0_i_m4096_n1024_v7x_i8_bf16_1_alg».proof.Proof.Gen.ReferenceIdeal.Read
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx

/-- An index of the whole array drops, along the rows, to column `n` exactly when its column is `n`. -/
theorem drop_eq_iff (i : S32768x1024.Idx) (n : Fin 1024) :
    Shape.ReducesTo.drop reducesTo_S32768x1024_S1024_d0 i = idx_main_v1 (ix2 (0 : Fin 1) n) ↔ (i 1).val = n.val := by
  constructor
  · intro h
    have := congrArg (fun j : S1024.Idx => (j 0).val) h
    exact (Shape.ReducesTo.drop_apply_val_of_eq reducesTo_S32768x1024_S1024_d0 i 0 1).symm.trans this
  · intro h
    funext b
    apply Fin.ext
    match b with
    | ⟨0, _⟩ => exact (Shape.ReducesTo.drop_apply_val_of_eq reducesTo_S32768x1024_S1024_d0 i 0 1).trans h

/-- The reference's result at column `n` is below `y` exactly when −∞ and every entry of the whole array's column are:
    the reduce is the fold of `max` from −∞ over the indices of that column. -/
theorem ref_le_iff (X : (⟨S32768x1024, .f32⟩ : BufTy).Contents (Elt Ideal)) (n : Fin 1024) (y : Ideal .f32) :
    val_main_v1 (F := Ideal) X (ix2 (0 : Fin 1) n) ≤ y
      ↔ FloatOps.ofBits (F := Ideal) .f32 0xFF800000#32 ≤ y ∧ ∀ i : S32768x1024.Idx, (i 1).val = n.val → X i ≤ y := by
  rw [val_main_v1_apply]
  unfold val_main_v0
  have e := Host.reduce_eq_fold (α := Ideal .f32) FloatOps.maximumf X (val_main_cst (F := Ideal)) reducesTo_S32768x1024_S1024_d0 h_S_ (idx_main_v1 (ix2 (0 : Fin 1) n))
  rw [e]
  refine (Finset.fold_max_le (b := val_main_cst (F := Ideal) (Shape.Idx.first h_S_)) (f := X) y).trans ?_
  refine and_congr Iff.rfl ⟨fun h i hi => h i (Finset.mem_filter.mpr ⟨Finset.mem_univ _, (drop_eq_iff i n).mpr hi⟩),
    fun h i hi => h i ((drop_eq_iff i n).mp (Finset.mem_filter.mp hi).2)⟩

end Cert.ReferenceIdeal.RefValue

end
-- ==== Proof.Join.lean ====
import proofs.«900374_g7700000000000375_dist_max_ax0_shard0_i_m4096_n1024_v7x_i8_bf16_1_alg».proof.Defs
import proofs.«900374_g7700000000000375_dist_max_ax0_shard0_i_m4096_n1024_v7x_i8_bf16_1_alg».proof.Proof.KI.Launch
import proofs.«900374_g7700000000000375_dist_max_ax0_shard0_i_m4096_n1024_v7x_i8_bf16_1_alg».proof.Proof.ValueIdeal
import proofs.«900374_g7700000000000375_dist_max_ax0_shard0_i_m4096_n1024_v7x_i8_bf16_1_alg».proof.Proof.RefValue
import Idealize.ShloMosaic.Lib.Layout

noncomputable section

namespace Cert.Join

open Idealize.ShloMosaic Idealize.ShloMosaic.TcCoe Idealize.ShloMosaic.ValueIdx
open Cert.KernelIdeal Cert.KernelIdeal.Coll

/-- An index of the whole array at column `n` whose row is `4096 · d + r` is row `r`, column `n` of device `d`'s block. -/
theorem idx_of (h : Layout.Tiles ⟨2, ![4096, 1024]⟩ ⟨2, ![32768, 1024]⟩ 0 8) (i : (⟨2, ![32768, 1024]⟩ : Shape).Idx) (n : Fin 1024)
    (hi : (i 1).val = n.val) (d : Fin 8) (r : Fin 4096) (h0 : (i 0).val = d.val * 4096 + r.val) : i = h.idx d (ix2 r n) := by
  funext a
  apply Fin.ext
  match a with
  | ⟨0, _⟩ => exact h0
  | ⟨1, _⟩ => exact hi

/-- The kernel's result on every device is the reference's result of the whole array: at each column both are the least
    upper bound of −∞ and the column's 32768 entries — the kernel's taken block by block and joined across the devices,
    the reference's in one fold. -/
theorem result_eq (m : (ℓ : Loc nD τ sig) → Buf (Elt Ideal) ℓ) (X : (⟨2, ![32768, 1024]⟩ : Shape).Idx → Ideal .f32)
    (hblk : ∀ d : Dev nD, m ((d : Thread nD τ).loc main_arg0) = Layout.block ⟨2, ![4096, 1024]⟩ ⟨2, ![32768, 1024]⟩ 0 8 d X) (c : Dev nD) :
    outAt m c = Cert.ReferenceIdeal.Read.val_main_v1 (F := Ideal) X := by
  funext i
  obtain ⟨u, n, rfl⟩ : ∃ (u : Fin 1) (n : Fin 1024), i = ix2 u n := ⟨i 0, i 1, eq_ix2 i⟩
  obtain rfl : u = 0 := Subsingleton.elim _ _
  refine @eq_of_forall_ge_iff (Ideal .f32) _ _ _ fun y => ?_
  rw [outAt_le_iff, Cert.ReferenceIdeal.RefValue.ref_le_iff]
  simp only [M_le_iff, hblk, Layout.block_apply]
  constructor
  · intro h
    refine ⟨(h 0).1, fun i hi => ?_⟩
    have hR : (i 0).val < 32768 := (i 0).isLt
    have hd : (i 0).val / 4096 < 8 := by omega
    have hr : (i 0).val % 4096 < 4096 := Nat.mod_lt _ (by decide)
    rw [idx_of (by decide) i n hi ⟨(i 0).val / 4096, hd⟩ ⟨(i 0).val % 4096, hr⟩ (Nat.div_add_mod' _ _).symm]
    exact (h ⟨(i 0).val / 4096, hd⟩).2 ⟨(i 0).val % 4096, hr⟩
  · rintro ⟨hb, h⟩ d
    exact ⟨hb, fun r => h _ rfl⟩

end Cert.Join

end
-- ==== Proof.lean ====
/-
  Eight devices each hold a block of 4096 rows of `x : f32[32768, 1024]`. Every device takes the column maxima of its
  block, stores them in row 0 of an exchange buffer of eight rows, and copies that row into row `j + 1` of the device
  `j + 1` places further round the mesh, for `j = 0 … 6`; it then joins its own maxima with the seven rows it receives.
  The reference takes the column maxima of the whole array on one device. At the ideal values both are, at every column,
  the least upper bound of −∞ and the column's 32768 entries: `max` is commutative and associative on the extended
  reals, so neither the split into blocks nor the order in which the rows arrive matters, and no finiteness is used.

  The protocol. Before its first copy a device signals each of its seven peers on the barrier semaphore and waits for
  seven units on its own: with a peer's signal comes that peer's row for this device's copy, so no copy can land before
  its destination has entered the kernel. Copy `j` is paid for on two cells — the sender's send semaphore `j` and the
  destination's receive semaphore `j`; the source row is lent to the seven copies at seven shares and comes back whole
  with the seven send waits, each destination row with its receive wait. A device waits on its barrier cell while still
  owing its peers' receive cells, and on everything else owing nothing: barrier cells are ranked below receive cells,
  which is the whole deadlock argument.
-/
import proofs.«900374_g7700000000000375_dist_max_ax0_shard0_i_m4096_n1024_v7x_i8_bf16_1_alg».proof.Defs
import proofs.«900374_g7700000000000375_dist_max_ax0_shard0_i_m4096_n1024_v7x_i8_bf16_1_alg».proof.Proof.Gen.Kernel
import proofs.«900374_g7700000000000375_dist_max_ax0_shard0_i_m4096_n1024_v7x_i8_bf16_1_alg».proof.Proof.Gen.Kernel.Skeleton
import proofs.«900374_g7700000000000375_dist_max_ax0_shard0_i_m4096_n1024_v7x_i8_bf16_1_alg».proof.Proof.Gen.Kernel.Launch
import proofs.«900374_g7700000000000375_dist_max_ax0_shard0_i_m4096_n1024_v7x_i8_bf16_1_alg».proof.Proof.Gen.Kernel.Points
import proofs.«900374_g7700000000000375_dist_max_ax0_shard0_i_m4096_n1024_v7x_i8_bf16_1_alg».proof.Proof.Gen.Kernel.Frame
import proofs.«900374_g7700000000000375_dist_max_ax0_shard0_i_m4096_n1024_v7x_i8_bf16_1_alg».proof.Proof.Gen.KernelIdeal
import proofs.«900374_g7700000000000375_dist_max_ax0_shard0_i_m4096_n1024_v7x_i8_bf16_1_alg».proof.Proof.Gen.KernelIdeal.Skeleton
import proofs.«900374_g7700000000000375_dist_max_ax0_shard0_i_m4096_n1024_v7x_i8_bf16_1_alg».proof.Proof.Gen.KernelIdeal.Launch
import proofs.«900374_g7700000000000375_dist_max_ax0_shard0_i_m4096_n1024_v7x_i8_bf16_1_alg».proof.Proof.Gen.KernelIdeal.Points
import proofs.«900374_g7700000000000375_dist_max_ax0_shard0_i_m4096_n1024_v7x_i8_bf16_1_alg».proof.Proof.Gen.KernelIdeal.Frame
import proofs.«900374_g7700000000000375_dist_max_ax0_shard0_i_m4096_n1024_v7x_i8_bf16_1_alg».proof.Proof.Gen.ReferenceIdeal
import proofs.«900374_g7700000000000375_dist_max_ax0_shard0_i_m4096_n1024_v7x_i8_bf16_1_alg».proof.Proof.Gen.ReferenceIdeal.Read
import proofs.«900374_g7700000000000375_dist_max_ax0_shard0_i_m4096_n1024_v7x_i8_bf16_1_alg».proof.Proof.Gen.Pre_finite_inputs_Kernel
import proofs.«900374_g7700000000000375_dist_max_ax0_shard0_i_m4096_n1024_v7x_i8_bf16_1_alg».proof.Proof.Gen.Pre_finite_inputs_ReferenceIdeal
import proofs.«900374_g7700000000000375_dist_max_ax0_shard0_i_m4096_n1024_v7x_i8_bf16_1_alg».proof.Proof.K.Launch
import proofs.«900374_g7700000000000375_dist_max_ax0_shard0_i_m4096_n1024_v7x_i8_bf16_1_alg».proof.Proof.KI.Launch
import proofs.«900374_g7700000000000375_dist_max_ax0_shard0_i_m4096_n1024_v7x_i8_bf16_1_alg».proof.Proof.FinalOut
import proofs.«900374_g7700000000000375_dist_max_ax0_shard0_i_m4096_n1024_v7x_i8_bf16_1_alg».proof.Proof.Join
import Idealize.ShloMosaic.Adequacy
import Idealize.ShloMosaic.Init

noncomputable section

namespace Cert.Proof

open Idealize.ShloMosaic Idealize.ShloMosaic.TcCoe Idealize.SL.Sem

/-- The word-level kernel runs to the end on all eight devices and leaves each device's block of `x` as it was. -/
theorem frame_p : Cert.frame_Kernel := fun m ρ _ =>
  (θ_run (Cert.Kernel.defs (F := Bits)) _ _).mono
    (fun _ h c => (h c (0 : Fin 2)).trans (Cert.Kernel.Coll.finalA_x (F := Bits) m c))
    (Cert.Kernel.Coll.run_main (F := Bits) m ρ)

/-- So does the kernel read at the ideal values. -/
theorem frame_pi : Cert.frame_KernelIdeal := fun m ρ _ =>
  (θ_run (Cert.KernelIdeal.defs (F := Ideal)) _ _).mono
    (fun _ h c => (h c (0 : Fin 2)).trans (Cert.KernelIdeal.Coll.finalA_x (F := Ideal) m c))
    (Cert.KernelIdeal.Coll.run_main (F := Ideal) m ρ)

/-- The reference is a host program: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Every device's result is the reference's: the value the reference's run ends at, read through its stages, is the
    kernel's result on each device (`Cert.Join.result_eq`), each device's block being its part of the whole array. -/
theorem algebraic : Cert.algebraic_KernelIdeal_ReferenceIdeal := by
  intro m g m' g' _ hblk
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨?_, ?_⟩) (Cert.KernelIdeal.Coll.run_main (F := Ideal) m g)
    · exact (h c (1 : Fin 2)).trans ((Cert.KernelIdeal.Coll.finalA_out (F := Ideal) m c).trans (Cert.Join.result_eq m _ hblk c))
    · exact (h c (0 : Fin 2)).trans (Cert.KernelIdeal.Coll.finalA_x (F := Ideal) m c)
  · refine (θ_run Cert.ReferenceIdeal.defs _ _).mono (fun _ h => ⟨?_, (h 0).2⟩) (Cert.ReferenceIdeal.Value.run (F := Ideal) m' g')
    exact (h 0).1.trans (Cert.ReferenceIdeal.Read.val_main_v1_eq _)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, preserves, algebraic⟩

end Cert.Proof

end
